-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S64x128 .f32) (main_arg3 : FVec F S64 .f32) (main_arg4 : FVec F S128x64 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x128 : Shape := ⟨2, ![1, 128]⟩
abbrev S1700000x128 : Shape := ⟨2, ![1700000, 128]⟩

abbrev nBuf : Space → Nat
  | .hbm => 77
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S128x64, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S100000x1, .f32⟩
  | .hbm, ⟨25, _⟩ => ⟨S100000x1, .f32⟩
  | .hbm, ⟨26, _⟩ => ⟨S128x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x64, .f32⟩
  | .hbm, ⟨39, _⟩ => ⟨S_, .f32⟩
  | .hbm, ⟨40, _⟩ => ⟨S100000x64, .f32⟩
  | .hbm, ⟨41, _⟩ => ⟨S1700000x1, .i32⟩
  | .hbm, ⟨42, _⟩ => ⟨S100000x64, .f32⟩
  | .hbm, ⟨43, _⟩ => ⟨S100000x64, .f32⟩
  | .hbm, ⟨44, _⟩ => ⟨S64x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000, .f32⟩
  | .hbm, ⟨73, _⟩ => ⟨S100000x1, .f32⟩
  | .hbm, ⟨74, _⟩ => ⟨S100000x1, .f32⟩
  | .hbm, ⟨75, _⟩ => ⟨S100000x128, .f32⟩
  | .hbm, ⟨76, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S5000x1, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x128, .f32⟩
  | .local _ .vmem, ⟨23, _⟩ => ⟨S1x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_cst : Ref sig .tc := ⟨.hbm, 62, rfl⟩
abbrev main_call0_v0 : Ref sig .tc := ⟨.hbm, 63, rfl⟩
abbrev main_call0_cst_0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_cst_1 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_v45 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S5000x64_S5000x64 : S5000x64.ShapeCasts S5000x64
  transposes_S128x64_S64x128_1_0 : S128x64.Transposes [1, 0] S64x128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v33_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v33_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v33_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v44) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x128 : Shape := ⟨2, ![1, 128]⟩
abbrev S1700000x128 : Shape := ⟨2, ![1700000, 128]⟩
abbrev S100000x1 : Shape := ⟨2, ![100000, 1]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S128x64, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S128x64, .f32⟩
  | 11 => ⟨S100000x64, .f32⟩
  | 12 => ⟨S1x64, .f32⟩
  | 13 => ⟨S100000x64, .f32⟩
  | 14 => ⟨S100000x64, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x64, .f32⟩
  | 53 => ⟨S1700000x1, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x64, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S_, .f32⟩
  | 71 => ⟨S100000x64, .f32⟩
  | 72 => ⟨S100000x64, .f32⟩
  | 73 => ⟨S64x128, .f32⟩
  | 74 => ⟨S100000x128, .f32⟩
  | 75 => ⟨S1x128, .f32⟩
  | 76 => ⟨S100000x128, .f32⟩
  | 77 => ⟨S100000x128, .f32⟩
  | 78 => ⟨S100000, .i32⟩
  | 79 => ⟨S1700000, .i32⟩
  | 80 => ⟨S1700000, .i32⟩
  | 81 => ⟨S_, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x128, .f32⟩
  | 126 => ⟨S1700000x128, .f32⟩
  | 127 => ⟨S1700000x128, .f32⟩
  | _ => ⟨S100000x128, .f32⟩

abbrev hbmTy0_1 (i : Nat) : BufTy := match i % 128 with
  | 0 => ⟨S1700000x128, .f32⟩
  | 1 => ⟨S_, .f32⟩
  | 2 => ⟨S100000x128, .f32⟩
  | 3 => ⟨S1700000x1, .i32⟩
  | 4 => ⟨S100000x128, .f32⟩
  | 5 => ⟨S_, .f32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x128, .f32⟩
  | 12 => ⟨S100000x128, .f32⟩
  | 13 => ⟨S100000x128, .f32⟩
  | 14 => ⟨S_, .f32⟩
  | 15 => ⟨S100000, .f32⟩
  | 16 => ⟨S100000x1, .f32⟩
  | 17 => ⟨S100000x1, .f32⟩
  | 18 => ⟨S100000x128, .f32⟩
  | 19 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call0_cst : Ref sig .tc := ⟨.hbm, 70, rfl⟩
abbrev main_call0_v0 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_11 : Ref sig .tc := ⟨.hbm, 88, rfl⟩
abbrev main_v67 : Ref sig .tc := ⟨.hbm, 89, rfl⟩
abbrev main_v68 : Ref sig .tc := ⟨.hbm, 90, rfl⟩
abbrev main_c_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_13 : Ref sig .tc := ⟨.hbm, 97, rfl⟩
abbrev main_v74 : Ref sig .tc := ⟨.hbm, 98, rfl⟩
abbrev main_v75 : Ref sig .tc := ⟨.hbm, 99, rfl⟩
abbrev main_c_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_15 : Ref sig .tc := ⟨.hbm, 107, rfl⟩
abbrev main_v82 : Ref sig .tc := ⟨.hbm, 108, rfl⟩
abbrev main_v83 : Ref sig .tc := ⟨.hbm, 109, rfl⟩
abbrev main_c_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_17 : Ref sig .tc := ⟨.hbm, 117, rfl⟩
abbrev main_v90 : Ref sig .tc := ⟨.hbm, 118, rfl⟩
abbrev main_v91 : Ref sig .tc := ⟨.hbm, 119, rfl⟩
abbrev main_c_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_19 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_call1_cst : Ref sig .tc := ⟨.hbm, 133, rfl⟩
abbrev main_call1_v0 : Ref sig .tc := ⟨.hbm, 134, rfl⟩
abbrev main_call1_cst_0 : Ref sig .tc := ⟨.hbm, 135, rfl⟩
abbrev main_call1_v1 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_call1_v5 : Ref sig .tc := ⟨.hbm, 140, rfl⟩
abbrev main_call1_v6 : Ref sig .tc := ⟨.hbm, 141, rfl⟩
abbrev main_call1_cst_1 : Ref sig .tc := ⟨.hbm, 142, rfl⟩
abbrev main_call1_v7 : Ref sig .tc := ⟨.hbm, 143, rfl⟩
abbrev main_call1_v8 : Ref sig .tc := ⟨.hbm, 144, rfl⟩
abbrev main_call1_v9 : Ref sig .tc := ⟨.hbm, 145, rfl⟩
abbrev main_call1_v10 : Ref sig .tc := ⟨.hbm, 146, rfl⟩
abbrev main_v103 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The kernel program's run with its result named.

  Every weakly fair execution of the program from a memory with zero counters terminates without a
  fault; in the final state every unscoped buffer holds what the fold over the nine segments leaves in
  it.  Read at the result buffer this is the fold's value there, and read at the six argument buffers
  it is the launch memory (no segment writes an argument).
-/
import proofs.«116146_j27943057227873_1_alg».proof.Proof.Gen.KernelIdeal.Frame

noncomputable section

open Idealize.ShloMosaic Idealize.ShloMosaic.TcCoe

namespace Cert.KernelIdeal.KVal

open Cert.KernelIdeal Cert.KernelIdeal.Gen
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 16384 in
set_option backward.isDefEq.respectTransparency.types false in
/-- The run: the result buffer ends at the ninth boundary's contents, the arguments as launched. -/
theorem run_value : θ_run defs (onTc (τ := τ) (main (F := F))) ⟨m, fun _ => 0, ρ⟩ (fun r => ∀ c : Dev nD,
      r.2.mem ((c.tc : Thread nD τ).loc main_v45) = W9 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v45 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KVal

end
-- ==== Proof.KPay.lean ====
/-
  The arithmetic of the four kernel bodies, read at one element of a block, on the extended reals.

  A linear body turns a block of `5000` node rows `x`, the whole transposed weight matrix `wt` and the
  bias row `b` into `h[p, q] = (∑ k, x[p, k] · wt[k, q]) + b[0, q]` (the change of float format before
  the matrix product is the identity on the extended reals, and the product starts from a zero
  accumulator), and into `f[p, q] = h[p, q] · dis[p, 0]`.  A combining body turns the rows `h`, the
  neighbour sums `nb`, the in-degree column and the normalising column into
  `indeg[p, 0] · h[p, q] + dis[p, 0] · nb[p, q]`, the first of the two bounded below by zero.
-/
import proofs.«116146_j27943057227873_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.KVal

open Cert.KernelIdeal Cert.KernelIdeal.Gen

/-! ## The operand indices of the two matrix products -/

theorem lhs64_0 (j : S5000x64.Idx) (k : dot_S5000x128_S128x64_S5000x64_1_0_0_1_n_n.contr.Idx) : (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem rhs64_1 (j : S5000x64.Idx) (k : dot_S5000x128_S128x64_S5000x64_1_0_0_1_n_n.contr.Idx) : (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

theorem lhs128_0 (j : S5000x128.Idx) (k : dot_S5000x64_S64x128_S5000x128_1_0_0_1_n_n.contr.Idx) : (dot_S5000x64_S64x128_S5000x128_1_0_0_1_n_n.lhsIdx j k 0).val = (j 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl
theorem rhs128_1 (j : S5000x128.Idx) (k : dot_S5000x64_S64x128_S5000x128_1_0_0_1_n_n.contr.Idx) : (dot_S5000x64_S64x128_S5000x128_1_0_0_1_n_n.rhsIdx j k 1).val = (j 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- The row-times-column sum a `[5000, 128] × [128, 64]` matrix product with a zero accumulator holds at `(p, q)`. -/
theorem lin64_dot (x0 : Vec Ideal S5000x128 .f32) (x1 : Vec Ideal S128x64 .f32) (p : Fin 5000) (q : Fin 64) :
    (matmul dot_S5000x128_S128x64_S5000x64_1_0_0_1_n_n none (truncf .bf16 x0 bitsLt_bf16_f32)
      (truncf .bf16 x1 bitsLt_bf16_f32) (constant S5000x64 .f32 0x00000000#32) : FVec Ideal S5000x64 .f32) (ix2 p q)
      = ∑ k : Fin 128, x0 (ix2 p k) * x1 (ix2 k q) := by
  refine (Ideal.matmul_constant_zero_apply dot_S5000x128_S128x64_S5000x64_1_0_0_1_n_n none
    (truncf .bf16 x0 bitsLt_bf16_f32) (truncf .bf16 x1 bitsLt_bf16_f32) (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs64_0 _ _
      | ⟨1, _⟩ => exact (DotDims.lhsIdx_val_of_single dot_S5000x128_S128x64_S5000x64_1_0_0_1_n_n (cl := 1) rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (DotDims.rhsIdx_val_of_single dot_S5000x128_S128x64_S5000x64_1_0_0_1_n_n (cr := 0) rfl _ _).trans hk
      | ⟨1, _⟩ => exact rhs64_1 _ _)
  rw [el, er]
  rfl

/-- The same for the second layer's `[5000, 64] × [64, 128]` product. -/
theorem lin128_dot (x0 : Vec Ideal S5000x64 .f32) (x1 : Vec Ideal S64x128 .f32) (p : Fin 5000) (q : Fin 128) :
    (matmul dot_S5000x64_S64x128_S5000x128_1_0_0_1_n_n none (truncf .bf16 x0 bitsLt_bf16_f32)
      (truncf .bf16 x1 bitsLt_bf16_f32) (constant S5000x128 .f32 0x00000000#32) : FVec Ideal S5000x128 .f32) (ix2 p q)
      = ∑ k : Fin 64, x0 (ix2 p k) * x1 (ix2 k q) := by
  refine (Ideal.matmul_constant_zero_apply dot_S5000x64_S64x128_S5000x128_1_0_0_1_n_n none
    (truncf .bf16 x0 bitsLt_bf16_f32) (truncf .bf16 x1 bitsLt_bf16_f32) (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k :=
    funext fun a => Fin.ext (by
      match a with
      | ⟨0, _⟩ => exact lhs128_0 _ _
      | ⟨1, _⟩ => exact (DotDims.lhsIdx_val_of_single dot_S5000x64_S64x128_S5000x128_1_0_0_1_n_n (cl := 1) rfl _ _).trans hk)
  have er : dot_S5000x64_S64x128_S5000x128_1_0_0_1_n_n.rhsIdx (ix2 p q) ((contrEquiv1 dot_S5000x64_S64x128_S5000x128_1_0_0_1_n_n 64 rfl rfl).symm k) = ix2 k q :=
    funext fun a => Fin.ext (by
      match a with
      | ⟨0, _⟩ => exact (DotDims.rhsIdx_val_of_single dot_S5000x64_S64x128_S5000x128_1_0_0_1_n_n (cr := 0) rfl _ _).trans hk
      | ⟨1, _⟩ => exact rhs128_1 _ _)
  rw [el, er]
  rfl

/-! ## The bodies' stored values at an element -/

/-- The first layer's linear body: row `p` of the block times column `q` of the weights, plus the bias. -/
theorem k0_pay1_apply (x0 : Vec Ideal S5000x128 .f32) (x1 : Vec Ideal S128x64 .f32) (x2 : Vec Ideal S1x64 .f32)
    (p : Fin 5000) (q : Fin 64) :
    k0_pay1 (F := Ideal) x0 x1 x2 (ix2 p q) = (∑ k : Fin 128, x0 (ix2 p k) * x1 (ix2 k q)) + x2 (ix2 0 q) := by
  unfold k0_pay1
  rw [shapeCast_self, shapeCast_self, addf_apply]
  refine congrArg₂ (· + ·) (lin64_dot x0 x1 p q) ?_
  exact broadcastTo_apply _ _ _ (ix2 0 q) (fun a => by match a with | ⟨0, _⟩ => rfl | ⟨1, _⟩ => rfl)

/-- … and its second stored value, that row scaled by the node's normalising factor. -/
theorem k0_pay2_apply (x0 : Vec Ideal S5000x128 .f32) (x1 : Vec Ideal S128x64 .f32) (x2 : Vec Ideal S1x64 .f32)
    (x3 : Vec Ideal S5000x1 .f32) (p : Fin 5000) (q : Fin 64) :
    k0_pay2 (F := Ideal) x0 x1 x2 x3 (ix2 p q)
      = ((∑ k : Fin 128, x0 (ix2 p k) * x1 (ix2 k q)) + x2 (ix2 0 q)) * x3 (ix2 p 0) := by
  unfold k0_pay2
  rw [shapeCast_self, mulf_apply]
  refine congrArg₂ (· * ·) (k0_pay1_apply x0 x1 x2 p q) ?_
  exact broadcastTo_apply _ _ _ (ix2 p 0) (fun a => by match a with | ⟨0, _⟩ => rfl | ⟨1, _⟩ => rfl)

/-- The second layer's linear body. -/
theorem k2_pay1_apply (x0 : Vec Ideal S5000x64 .f32) (x1 : Vec Ideal S64x128 .f32) (x2 : Vec Ideal S1x128 .f32)
    (p : Fin 5000) (q : Fin 128) :
    k2_pay1 (F := Ideal) x0 x1 x2 (ix2 p q) = (∑ k : Fin 64, x0 (ix2 p k) * x1 (ix2 k q)) + x2 (ix2 0 q) := by
  unfold k2_pay1
  rw [shapeCast_self, shapeCast_self, shapeCast_self, addf_apply]
  refine congrArg₂ (· + ·) (lin128_dot x0 x1 p q) ?_
  exact broadcastTo_apply _ _ _ (ix2 0 q) (fun a => by match a with | ⟨0, _⟩ => rfl | ⟨1, _⟩ => rfl)

theorem k2_pay2_apply (x0 : Vec Ideal S5000x64 .f32) (x1 : Vec Ideal S64x128 .f32) (x2 : Vec Ideal S1x128 .f32)
    (x3 : Vec Ideal S5000x1 .f32) (p : Fin 5000) (q : Fin 128) :
    k2_pay2 (F := Ideal) x0 x1 x2 x3 (ix2 p q)
      = ((∑ k : Fin 64, x0 (ix2 p k) * x1 (ix2 k q)) + x2 (ix2 0 q)) * x3 (ix2 p 0) := by
  unfold k2_pay2
  rw [shapeCast_self, mulf_apply]
  refine congrArg₂ (· * ·) (k2_pay1_apply x0 x1 x2 p q) ?_
  exact broadcastTo_apply _ _ _ (ix2 p 0) (fun a => by match a with | ⟨0, _⟩ => rfl | ⟨1, _⟩ => rfl)

/-- The first layer's combining body: in-degree times the own row plus the factor times the neighbour
    sum, bounded below by zero. -/
theorem k1_pay1_apply (v0 : Vec Ideal S5000x1 .f32) (v2 : Vec Ideal S5000x64 .f32) (v6 : Vec Ideal S5000x1 .f32)
    (v8 : Vec Ideal S5000x64 .f32) (p : Fin 5000) (q : Fin 64) :
    k1_pay1 (F := Ideal) v0 v2 v6 v8 (ix2 p q)
      = max (v0 (ix2 p 0) * v2 (ix2 p q) + v6 (ix2 p 0) * v8 (ix2 p q)) 0 := by
  unfold k1_pay1
  rw [shapeCast_self, shapeCast_self, shapeCast_self, shapeCast_self, maximumf_apply, addf_apply, mulf_apply, mulf_apply]
  refine congrArg₂ max (congrArg₂ (· + ·) (congrArg (· * v2 (ix2 p q)) ?_) (congrArg (· * v8 (ix2 p q)) ?_)) ?_
  · exact broadcastTo_apply _ _ _ (ix2 p 0) (fun a => by match a with | ⟨0, _⟩ => rfl | ⟨1, _⟩ => rfl)
  · exact broadcastTo_apply _ _ _ (ix2 p 0) (fun a => by match a with | ⟨0, _⟩ => rfl | ⟨1, _⟩ => rfl)
  · show Ideal.ofBits .f32 0x00000000#32 = 0
    exact Ideal.ofBits_zero_f32

/-- The second layer's combining body (no bound below). -/
theorem k3_pay1_apply (v0 : Vec Ideal S5000x1 .f32) (v2 : Vec Ideal S5000x128 .f32) (v6 : Vec Ideal S5000x1 .f32)
    (v8 : Vec Ideal S5000x128 .f32) (p : Fin 5000) (q : Fin 128) :
    k3_pay1 (F := Ideal) v0 v2 v6 v8 (ix2 p q)
      = v0 (ix2 p 0) * v2 (ix2 p q) + v6 (ix2 p 0) * v8 (ix2 p q) := by
  unfold k3_pay1
  rw [shapeCast_self, shapeCast_self, shapeCast_self, shapeCast_self, addf_apply, mulf_apply, mulf_apply]
  refine congrArg₂ (· + ·) (congrArg (· * v2 (ix2 p q)) ?_) (congrArg (· * v8 (ix2 p q)) ?_)
  · exact broadcastTo_apply _ _ _ (ix2 p 0) (fun a => by match a with | ⟨0, _⟩ => rfl | ⟨1, _⟩ => rfl)
  · exact broadcastTo_apply _ _ _ (ix2 p 0) (fun a => by match a with | ⟨0, _⟩ => rfl | ⟨1, _⟩ => rfl)

end Cert.KernelIdeal.KVal

end
-- ==== Proof.KRegion0.lean ====
/-
  The first linear region, block by block and then as whole arrays.

  Grid point `t` of twenty works on node rows `5000 t … 5000 t + 4999`: it reads that block of the
  node features, the whole transposed weight matrix, the bias row and that block of the normalising
  column, and writes back the same rows of `h` and of `f`.  The twenty blocks tile the `100000` rows,
  so after the region both arrays are given everywhere by one formula of the arrays the region found:
  `h[i, j] = (∑ k, x[i, k] · wt[k, j]) + b[0, j]` and `f[i, j] = h[i, j] · dis[i, 0]`.
-/
import proofs.«116146_j27943057227873_1_alg».proof.Proof.Gen.KernelIdeal.Frame
import proofs.«116146_j27943057227873_1_alg».proof.Proof.KPay
import Idealize.ShloMosaic.Lib.Pipeline.Value

noncomputable section

open Idealize.ShloMosaic Idealize.ShloMosaic.TcCoe Idealize.ShloMosaic.ValueIdx

namespace Cert.KernelIdeal.KVal

open Cert.KernelIdeal Cert.KernelIdeal.Gen
open Idealize.SL.Sem
open Idealize.ShloMosaic.Pipeline (Dat Cfg Window)

theorem hz : (![0, 0] : Fin 2 → Nat) = fun _ => 0 := funext fun a => by fin_cases a <;> rfl

/-- Node rows times the transposed weights, plus the bias row. -/
def lin64 (X : S100000x128.Idx → EReal) (WT : S128x64.Idx → EReal) (B : S1x64.Idx → EReal) : S100000x64.Idx → EReal :=
  fun i => (∑ k : Fin 128, X (ix2 (i 0) k) * WT (ix2 k (i 1))) + B (ix2 0 (i 1))

/-- A `[100000, 64]` array with every row scaled by that node's entry of a column. -/
def scale64 (H : S100000x64.Idx → EReal) (D : S100000x1.Idx → EReal) : S100000x64.Idx → EReal :=
  fun i => H i * D (ix2 (i 0) 0)

variable (V : (c : Dev nD) → (b : Ref sig .tc) → Buf (Elt Ideal) ((c : Thread nD τ).loc b))

/-- The printed index maps over the grid: the row-blocked windows sit at block row `t`, the weights and
    the bias at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back to `h` is block `t` of `lin64` of the arrays the region found. -/
theorem flushed0_4_eq (c : Dev nD) (t : Fin cfg0.N) :
    (dat0 V c).flushed 4 t = ((cfg0.win 4).blk t).view.read (Elt Ideal)
      (lin64 (V c (Pipeline.arrRef spec0 0)) (V c (Pipeline.arrRef spec0 1)) (V c (Pipeline.arrRef spec0 2))) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts0 t
  funext j
  obtain ⟨p, q, rfl⟩ : ∃ (p : Fin 5000) (q : Fin 64), j = ix2 p q := ⟨j 0, j 1, eq_ix2 j⟩
  have hp : p.val < 5000 := p.isLt
  have hq : q.val < 64 := q.isLt
  show k0_pay1 (iblk0 V c 0 t) (iblk0 V c 1 t) (iblk0 V c 2 t) (ix2 p q)
    = lin64 _ _ _ (((cfg0.win 4).blk t).view.emb (ix2 p q))
  refine (k0_pay1_apply (iblk0 V c 0 t) (iblk0 V c 1 t) (iblk0 V c 2 t) p q).trans ?_
  unfold lin64
  refine congrArg₂ (· + ·) (Finset.sum_congr rfl fun k _ => congrArg₂ (· * ·) ?_ ?_) ?_
  · have hk : k.val < 128 := k.isLt
    show V c (Pipeline.arrRef spec0 0) (((cfg0.win 0).blk t).view.emb (ix2 p k)) = _
    exact congrArg _ (funext fun a => Fin.ext (by
      match a with
      | ⟨0, _⟩ => show win0_0.index t (0 : Fin 2) * 5000 + 1 * p.val = win0_4.index t (0 : Fin 2) * 5000 + 1 * p.val; omega
      | ⟨1, _⟩ => show win0_0.index t (1 : Fin 2) * 128 + 1 * k.val = k.val; omega))
  · have hk : k.val < 128 := k.isLt
    show V c (Pipeline.arrRef spec0 1) (((cfg0.win 1).blk t).view.emb (ix2 k q)) = _
    exact congrArg _ (funext fun a => Fin.ext (by
      match a with
      | ⟨0, _⟩ => show win0_1.index t (0 : Fin 2) * 128 + 1 * k.val = k.val; omega
      | ⟨1, _⟩ => show win0_1.index t (1 : Fin 2) * 64 + 1 * q.val = win0_4.index t (1 : Fin 2) * 64 + 1 * q.val; omega))
  · show V c (Pipeline.arrRef spec0 2) (((cfg0.win 2).blk t).view.emb (ix2 0 q)) = _
    exact congrArg _ (funext fun a => Fin.ext (by
      match a with
      | ⟨0, _⟩ => show win0_2.index t (0 : Fin 2) * 1 + 1 * 0 = 0; omega
      | ⟨1, _⟩ => show win0_2.index t (1 : Fin 2) * 64 + 1 * q.val = win0_4.index t (1 : Fin 2) * 64 + 1 * q.val; omega))

/-- What point `t` writes back to `f` is block `t` of `lin64` scaled by the normalising column. -/
theorem flushed0_5_eq (c : Dev nD) (t : Fin cfg0.N) :
    (dat0 V c).flushed 5 t = ((cfg0.win 5).blk t).view.read (Elt Ideal)
      (scale64 (lin64 (V c (Pipeline.arrRef spec0 0)) (V c (Pipeline.arrRef spec0 1)) (V c (Pipeline.arrRef spec0 2)))
        (V c (Pipeline.arrRef spec0 3))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz,
    View.ld_unit_zero (S := S5000x1) hz]
  obtain ⟨e00, e01, e10, e11, e20, e21, e30, e31, e40, e41, e50, e51⟩ := idx_facts0 t
  funext j
  obtain ⟨p, q, rfl⟩ : ∃ (p : Fin 5000) (q : Fin 64), j = ix2 p q := ⟨j 0, j 1, eq_ix2 j⟩
  have hp : p.val < 5000 := p.isLt
  have hq : q.val < 64 := q.isLt
  show k0_pay2 (iblk0 V c 0 t) (iblk0 V c 1 t) (iblk0 V c 2 t) (iblk0 V c 3 t) (ix2 p q)
    = scale64 (lin64 _ _ _) _ (((cfg0.win 5).blk t).view.emb (ix2 p q))
  refine (k0_pay2_apply (iblk0 V c 0 t) (iblk0 V c 1 t) (iblk0 V c 2 t) (iblk0 V c 3 t) p q).trans ?_
  unfold scale64 lin64
  refine congrArg₂ (· * ·) (congrArg₂ (· + ·) (Finset.sum_congr rfl fun k _ => congrArg₂ (· * ·) ?_ ?_) ?_) ?_
  · have hk : k.val < 128 := k.isLt
    show V c (Pipeline.arrRef spec0 0) (((cfg0.win 0).blk t).view.emb (ix2 p k)) = _
    exact congrArg _ (funext fun a => Fin.ext (by
      match a with
      | ⟨0, _⟩ => show win0_0.index t (0 : Fin 2) * 5000 + 1 * p.val = win0_5.index t (0 : Fin 2) * 5000 + 1 * p.val; omega
      | ⟨1, _⟩ => show win0_0.index t (1 : Fin 2) * 128 + 1 * k.val = k.val; omega))
  · have hk : k.val < 128 := k.isLt
    show V c (Pipeline.arrRef spec0 1) (((cfg0.win 1).blk t).view.emb (ix2 k q)) = _
    exact congrArg _ (funext fun a => Fin.ext (by
      match a with
      | ⟨0, _⟩ => show win0_1.index t (0 : Fin 2) * 128 + 1 * k.val = k.val; omega
      | ⟨1, _⟩ => show win0_1.index t (1 : Fin 2) * 64 + 1 * q.val = win0_5.index t (1 : Fin 2) * 64 + 1 * q.val; omega))
  · show V c (Pipeline.arrRef spec0 2) (((cfg0.win 2).blk t).view.emb (ix2 0 q)) = _
    exact congrArg _ (funext fun a => Fin.ext (by
      match a with
      | ⟨0, _⟩ => show win0_2.index t (0 : Fin 2) * 1 + 1 * 0 = 0; omega
      | ⟨1, _⟩ => show win0_2.index t (1 : Fin 2) * 64 + 1 * q.val = win0_5.index t (1 : Fin 2) * 64 + 1 * q.val; omega))
  · show V c (Pipeline.arrRef spec0 3) (((cfg0.win 3).blk t).view.emb (ix2 p 0)) = _
    exact congrArg _ (funext fun a => Fin.ext (by
      match a with
      | ⟨0, _⟩ => show win0_3.index t (0 : Fin 2) * 5000 + 1 * p.val = win0_5.index t (0 : Fin 2) * 5000 + 1 * p.val; omega
      | ⟨1, _⟩ => show win0_3.index t (1 : Fin 2) * 1 + 1 * 0 = 0; omega))

/-- An index of the array lies in point `t`'s block iff each coordinate is in the block's range. -/
theorem mem_blk0_4 (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v19_0).slice (win0_4.rect t)).set ↔ _
  rw [View.set_slice_whole, Rect.mem_set_unit]
  exact Iff.rfl

/-- Every row lies in the block of the point numbered by its quotient by `5000`. -/
theorem cover0_4_all (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  refine ⟨⟨(i 0).val / 5000, by show (i 0).val / 5000 < 20; omega⟩, flush0_4 _, ?_⟩
  rw [mem_blk0_4]
  obtain ⟨e00, e01, e10, e11, e20, e21, e30, e31, e40, e41, e50, e51⟩ := idx_facts0 ⟨(i 0).val / 5000, by show (i 0).val / 5000 < 20; omega⟩
  intro a
  match a with
  | ⟨0, _⟩ =>
    show win0_4.index _ (0 : Fin 2) * 5000 ≤ (i 0).val ∧ (i 0).val < win0_4.index _ (0 : Fin 2) * 5000 + 5000
    have hv : (⟨(i 0).val / 5000, by show (i 0).val / 5000 < 20; omega⟩ : Fin cfg0.N).val = (i 0).val / 5000 := rfl
    omega
  | ⟨1, _⟩ =>
    show win0_4.index _ (1 : Fin 2) * 64 ≤ (i 1).val ∧ (i 1).val < win0_4.index _ (1 : Fin 2) * 64 + 64
    omega

/-- An index of the array lies in point `t`'s block iff each coordinate is in the block's range. -/
theorem mem_blk0_5 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v19_1).slice (win0_5.rect t)).set ↔ _
  rw [View.set_slice_whole, Rect.mem_set_unit]
  exact Iff.rfl

/-- Every row lies in the block of the point numbered by its quotient by `5000`. -/
theorem cover0_5_all (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  refine ⟨⟨(i 0).val / 5000, by show (i 0).val / 5000 < 20; omega⟩, flush0_5 _, ?_⟩
  rw [mem_blk0_5]
  obtain ⟨e00, e01, e10, e11, e20, e21, e30, e31, e40, e41, e50, e51⟩ := idx_facts0 ⟨(i 0).val / 5000, by show (i 0).val / 5000 < 20; omega⟩
  intro a
  match a with
  | ⟨0, _⟩ =>
    show win0_5.index _ (0 : Fin 2) * 5000 ≤ (i 0).val ∧ (i 0).val < win0_5.index _ (0 : Fin 2) * 5000 + 5000
    have hv : (⟨(i 0).val / 5000, by show (i 0).val / 5000 < 20; omega⟩ : Fin cfg0.N).val = (i 0).val / 5000 := rfl
    omega
  | ⟨1, _⟩ =>
    show win0_5.index _ (1 : Fin 2) * 64 ≤ (i 1).val ∧ (i 1).val < win0_5.index _ (1 : Fin 2) * 64 + 64
    omega

/-- After the region, `h` is `lin64` of the arrays the region found. -/
theorem final0_4 (c : Dev nD) : (dat0 V c).arrAt 4 cfg0.N
    = lin64 (V c (Pipeline.arrRef spec0 0)) (V c (Pipeline.arrRef spec0 1)) (V c (Pipeline.arrRef spec0 2)) :=
  (dat0 V c).arrAt_eq_of_cover 4 _ (fun t _ => flushed0_4_eq V c t) cover0_4_all

/-- After the region, `f` is that array with every row scaled by its node's factor. -/
theorem final0_5 (c : Dev nD) : (dat0 V c).arrAt 5 cfg0.N
    = scale64 (lin64 (V c (Pipeline.arrRef spec0 0)) (V c (Pipeline.arrRef spec0 1)) (V c (Pipeline.arrRef spec0 2)))
        (V c (Pipeline.arrRef spec0 3)) :=
  (dat0 V c).arrAt_eq_of_cover 5 _ (fun t _ => flushed0_5_eq V c t) cover0_5_all

end Cert.KernelIdeal.KVal

end
-- ==== Proof.KRegion1.lean ====
/-
  The first layer's combining region, block by block and then as a whole array.

  Grid point `t` of twenty reads rows `5000 t … 5000 t + 4999` of the layer's rows `h`, of the
  neighbour sums, of the in-degree column and of the normalising column, and writes back the same rows
  of `indeg · h + dis · nb`, bounded below by zero.  The blocks tile the rows, so the formula holds for the whole array.
-/
import proofs.«116146_j27943057227873_1_alg».proof.Proof.Gen.KernelIdeal.Frame
import proofs.«116146_j27943057227873_1_alg».proof.Proof.KPay
import proofs.«116146_j27943057227873_1_alg».proof.Proof.KRegion0
import Idealize.ShloMosaic.Lib.Pipeline.Value

noncomputable section

open Idealize.ShloMosaic Idealize.ShloMosaic.TcCoe Idealize.ShloMosaic.ValueIdx

namespace Cert.KernelIdeal.KVal

open Cert.KernelIdeal Cert.KernelIdeal.Gen
open Idealize.SL.Sem
open Idealize.ShloMosaic.Pipeline (Dat Cfg Window)

/-- In-degree times the own row plus the node's factor times the neighbour sum, bounded below by zero. -/
def comb64 (H NB : S100000x64.Idx → EReal) (IN D : S100000x1.Idx → EReal) : S100000x64.Idx → EReal :=
  fun i => max (IN (ix2 (i 0) 0) * H i + D (ix2 (i 0) 0) * NB i) 0

variable (V : (c : Dev nD) → (b : Ref sig .tc) → Buf (Elt Ideal) ((c : Thread nD τ).loc b))

/-- The printed index maps over the grid: every window sits at block row `t`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the combination of the arrays the region found. -/
theorem flushed1_4_eq (c : Dev nD) (t : Fin cfg1.N) :
    (dat1 V c).flushed 4 t = ((cfg1.win 4).blk t).view.read (Elt Ideal)
      (comb64 (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz]
  obtain ⟨e00, e01, e10, e11, e20, e21, e30, e31, e40, e41⟩ := idx_facts1 t
  funext j
  obtain ⟨p, q, rfl⟩ : ∃ (p : Fin 5000) (q : Fin 64), j = ix2 p q := ⟨j 0, j 1, eq_ix2 j⟩
  have hp : p.val < 5000 := p.isLt
  have hq : q.val < 64 := q.isLt
  show k1_pay1 (iblk1 V c 2 t) (iblk1 V c 0 t) (iblk1 V c 3 t) (iblk1 V c 1 t) (ix2 p q)
    = comb64 _ _ _ _ (((cfg1.win 4).blk t).view.emb (ix2 p q))
  refine (k1_pay1_apply (iblk1 V c 2 t) (iblk1 V c 0 t) (iblk1 V c 3 t) (iblk1 V c 1 t) p q).trans ?_
  unfold comb64
  refine congrArg (max · 0) (congrArg₂ (· + ·) (congrArg₂ (· * ·) ?_ ?_) (congrArg₂ (· * ·) ?_ ?_))
  · show V c (Pipeline.arrRef spec1 2) (((cfg1.win 2).blk t).view.emb (ix2 p 0)) = _
    exact congrArg _ (funext fun a => Fin.ext (by
      match a with
      | ⟨0, _⟩ => show win1_2.index t (0 : Fin 2) * 5000 + 1 * p.val = win1_4.index t (0 : Fin 2) * 5000 + 1 * p.val; omega
      | ⟨1, _⟩ => show win1_2.index t (1 : Fin 2) * 1 + 1 * 0 = 0; omega))
  · show V c (Pipeline.arrRef spec1 0) (((cfg1.win 0).blk t).view.emb (ix2 p q)) = _
    exact congrArg _ (funext fun a => Fin.ext (by
      match a with
      | ⟨0, _⟩ => show win1_0.index t (0 : Fin 2) * 5000 + 1 * p.val = win1_4.index t (0 : Fin 2) * 5000 + 1 * p.val; omega
      | ⟨1, _⟩ => show win1_0.index t (1 : Fin 2) * 64 + 1 * q.val = win1_4.index t (1 : Fin 2) * 64 + 1 * q.val; omega))
  · show V c (Pipeline.arrRef spec1 3) (((cfg1.win 3).blk t).view.emb (ix2 p 0)) = _
    exact congrArg _ (funext fun a => Fin.ext (by
      match a with
      | ⟨0, _⟩ => show win1_3.index t (0 : Fin 2) * 5000 + 1 * p.val = win1_4.index t (0 : Fin 2) * 5000 + 1 * p.val; omega
      | ⟨1, _⟩ => show win1_3.index t (1 : Fin 2) * 1 + 1 * 0 = 0; omega))
  · show V c (Pipeline.arrRef spec1 1) (((cfg1.win 1).blk t).view.emb (ix2 p q)) = _
    exact congrArg _ (funext fun a => Fin.ext (by
      match a with
      | ⟨0, _⟩ => show win1_1.index t (0 : Fin 2) * 5000 + 1 * p.val = win1_4.index t (0 : Fin 2) * 5000 + 1 * p.val; omega
      | ⟨1, _⟩ => show win1_1.index t (1 : Fin 2) * 64 + 1 * q.val = win1_4.index t (1 : Fin 2) * 64 + 1 * q.val; omega))

/-- An index of the array lies in point `t`'s block iff each coordinate is in the block's range. -/
theorem mem_blk1_4 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v30).slice (win1_4.rect t)).set ↔ _
  rw [View.set_slice_whole, Rect.mem_set_unit]
  exact Iff.rfl

/-- Every row lies in the block of the point numbered by its quotient by `5000`. -/
theorem cover1_4_all (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 5000, by show (i 0).val / 5000 < 20; omega⟩, flush1_4 _, ?_⟩
  rw [mem_blk1_4]
  obtain ⟨e00, e01, e10, e11, e20, e21, e30, e31, e40, e41⟩ := idx_facts1 ⟨(i 0).val / 5000, by show (i 0).val / 5000 < 20; omega⟩
  intro a
  match a with
  | ⟨0, _⟩ =>
    show win1_4.index _ (0 : Fin 2) * 5000 ≤ (i 0).val ∧ (i 0).val < win1_4.index _ (0 : Fin 2) * 5000 + 5000
    have hv : (⟨(i 0).val / 5000, by show (i 0).val / 5000 < 20; omega⟩ : Fin cfg1.N).val = (i 0).val / 5000 := rfl
    omega
  | ⟨1, _⟩ =>
    show win1_4.index _ (1 : Fin 2) * 64 ≤ (i 1).val ∧ (i 1).val < win1_4.index _ (1 : Fin 2) * 64 + 64
    omega

/-- After the region its output is that combination of the arrays the region found. -/
theorem final1_4 (c : Dev nD) : (dat1 V c).arrAt 4 cfg1.N
    = comb64 (V c (Pipeline.arrRef spec1 0)) (V c (Pipeline.arrRef spec1 1)) (V c (Pipeline.arrRef spec1 2))
        (V c (Pipeline.arrRef spec1 3)) :=
  (dat1 V c).arrAt_eq_of_cover 4 _ (fun t _ => flushed1_4_eq V c t) cover1_4_all

end Cert.KernelIdeal.KVal

end
-- ==== Proof.KRegion2.lean ====
/-
  The second linear region, block by block and then as whole arrays.

  Grid point `t` of twenty works on node rows `5000 t … 5000 t + 4999`: it reads that block of the
  node features, the whole transposed weight matrix, the bias row and that block of the normalising
  column, and writes back the same rows of `h` and of `f` (now `128` wide, from `64`-wide rows).  The twenty blocks tile the `100000` rows,
  so after the region both arrays are given everywhere by one formula of the arrays the region found:
  `h[i, j] = (∑ k, x[i, k] · wt[k, j]) + b[0, j]` and `f[i, j] = h[i, j] · dis[i, 0]`.
-/
import proofs.«116146_j27943057227873_1_alg».proof.Proof.Gen.KernelIdeal.Frame
import proofs.«116146_j27943057227873_1_alg».proof.Proof.KPay
import proofs.«116146_j27943057227873_1_alg».proof.Proof.KRegion0
import Idealize.ShloMosaic.Lib.Pipeline.Value

noncomputable section

open Idealize.ShloMosaic Idealize.ShloMosaic.TcCoe Idealize.ShloMosaic.ValueIdx

namespace Cert.KernelIdeal.KVal

open Cert.KernelIdeal Cert.KernelIdeal.Gen
open Idealize.SL.Sem
open Idealize.ShloMosaic.Pipeline (Dat Cfg Window)

/-- Node rows times the transposed weights, plus the bias row. -/
def lin128 (X : S100000x64.Idx → EReal) (WT : S64x128.Idx → EReal) (B : S1x128.Idx → EReal) : S100000x128.Idx → EReal :=
  fun i => (∑ k : Fin 64, X (ix2 (i 0) k) * WT (ix2 k (i 1))) + B (ix2 0 (i 1))

/-- A `[100000, 128]` array with every row scaled by that node's entry of a column. -/
def scale128 (H : S100000x128.Idx → EReal) (D : S100000x1.Idx → EReal) : S100000x128.Idx → EReal :=
  fun i => H i * D (ix2 (i 0) 0)

variable (V : (c : Dev nD) → (b : Ref sig .tc) → Buf (Elt Ideal) ((c : Thread nD τ).loc b))

/-- The printed index maps over the grid: the row-blocked windows sit at block row `t`, the weights and
    the bias at the origin. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point `t` writes back to `h` is block `t` of `lin128` of the arrays the region found. -/
theorem flushed2_4_eq (c : Dev nD) (t : Fin cfg2.N) :
    (dat2 V c).flushed 4 t = ((cfg2.win 4).blk t).view.read (Elt Ideal)
      (lin128 (V c (Pipeline.arrRef spec2 0)) (V c (Pipeline.arrRef spec2 1)) (V c (Pipeline.arrRef spec2 2))) := by
  show (cfg2.win 4).cut (grid2.coords t) ((dat2 V c).after 4 t) = _
  rw [after2_4]
  unfold out2_4
  rw [View.canon_unit_zero hz]
  simp only [View.ld_unit_zero (S := S5000x64) hz, View.ld_unit_zero (S := S64x128) hz, View.ld_unit_zero (S := S1x128) hz]
  obtain ⟨e00, e01, e10, e11, e20, e21, e30, e31, e40, e41, e50, e51⟩ := idx_facts2 t
  funext j
  obtain ⟨p, q, rfl⟩ : ∃ (p : Fin 5000) (q : Fin 128), j = ix2 p q := ⟨j 0, j 1, eq_ix2 j⟩
  have hp : p.val < 5000 := p.isLt
  have hq : q.val < 128 := q.isLt
  show k2_pay1 (iblk2 V c 0 t) (iblk2 V c 1 t) (iblk2 V c 2 t) (ix2 p q)
    = lin128 _ _ _ (((cfg2.win 4).blk t).view.emb (ix2 p q))
  refine (k2_pay1_apply (iblk2 V c 0 t) (iblk2 V c 1 t) (iblk2 V c 2 t) p q).trans ?_
  unfold lin128
  refine congrArg₂ (· + ·) (Finset.sum_congr rfl fun k _ => congrArg₂ (· * ·) ?_ ?_) ?_
  · have hk : k.val < 64 := k.isLt
    show V c (Pipeline.arrRef spec2 0) (((cfg2.win 0).blk t).view.emb (ix2 p k)) = _
    exact congrArg _ (funext fun a => Fin.ext (by
      match a with
      | ⟨0, _⟩ => show win2_0.index t (0 : Fin 2) * 5000 + 1 * p.val = win2_4.index t (0 : Fin 2) * 5000 + 1 * p.val; omega
      | ⟨1, _⟩ => show win2_0.index t (1 : Fin 2) * 64 + 1 * k.val = k.val; omega))
  · have hk : k.val < 64 := k.isLt
    show V c (Pipeline.arrRef spec2 1) (((cfg2.win 1).blk t).view.emb (ix2 k q)) = _
    exact congrArg _ (funext fun a => Fin.ext (by
      match a with
      | ⟨0, _⟩ => show win2_1.index t (0 : Fin 2) * 64 + 1 * k.val = k.val; omega
      | ⟨1, _⟩ => show win2_1.index t (1 : Fin 2) * 128 + 1 * q.val = win2_4.index t (1 : Fin 2) * 128 + 1 * q.val; omega))
  · show V c (Pipeline.arrRef spec2 2) (((cfg2.win 2).blk t).view.emb (ix2 0 q)) = _
    exact congrArg _ (funext fun a => Fin.ext (by
      match a with
      | ⟨0, _⟩ => show win2_2.index t (0 : Fin 2) * 1 + 1 * 0 = 0; omega
      | ⟨1, _⟩ => show win2_2.index t (1 : Fin 2) * 128 + 1 * q.val = win2_4.index t (1 : Fin 2) * 128 + 1 * q.val; omega))

/-- What point `t` writes back to `f` is block `t` of `lin128` scaled by the normalising column. -/
theorem flushed2_5_eq (c : Dev nD) (t : Fin cfg2.N) :
    (dat2 V c).flushed 5 t = ((cfg2.win 5).blk t).view.read (Elt Ideal)
      (scale128 (lin128 (V c (Pipeline.arrRef spec2 0)) (V c (Pipeline.arrRef spec2 1)) (V c (Pipeline.arrRef spec2 2)))
        (V c (Pipeline.arrRef spec2 3))) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x128) hz, View.ld_unit_zero (S := S1x128) hz,
    View.ld_unit_zero (S := S5000x1) hz]
  obtain ⟨e00, e01, e10, e11, e20, e21, e30, e31, e40, e41, e50, e51⟩ := idx_facts2 t
  funext j
  obtain ⟨p, q, rfl⟩ : ∃ (p : Fin 5000) (q : Fin 128), j = ix2 p q := ⟨j 0, j 1, eq_ix2 j⟩
  have hp : p.val < 5000 := p.isLt
  have hq : q.val < 128 := q.isLt
  show k2_pay2 (iblk2 V c 0 t) (iblk2 V c 1 t) (iblk2 V c 2 t) (iblk2 V c 3 t) (ix2 p q)
    = scale128 (lin128 _ _ _) _ (((cfg2.win 5).blk t).view.emb (ix2 p q))
  refine (k2_pay2_apply (iblk2 V c 0 t) (iblk2 V c 1 t) (iblk2 V c 2 t) (iblk2 V c 3 t) p q).trans ?_
  unfold scale128 lin128
  refine congrArg₂ (· * ·) (congrArg₂ (· + ·) (Finset.sum_congr rfl fun k _ => congrArg₂ (· * ·) ?_ ?_) ?_) ?_
  · have hk : k.val < 64 := k.isLt
    show V c (Pipeline.arrRef spec2 0) (((cfg2.win 0).blk t).view.emb (ix2 p k)) = _
    exact congrArg _ (funext fun a => Fin.ext (by
      match a with
      | ⟨0, _⟩ => show win2_0.index t (0 : Fin 2) * 5000 + 1 * p.val = win2_5.index t (0 : Fin 2) * 5000 + 1 * p.val; omega
      | ⟨1, _⟩ => show win2_0.index t (1 : Fin 2) * 64 + 1 * k.val = k.val; omega))
  · have hk : k.val < 64 := k.isLt
    show V c (Pipeline.arrRef spec2 1) (((cfg2.win 1).blk t).view.emb (ix2 k q)) = _
    exact congrArg _ (funext fun a => Fin.ext (by
      match a with
      | ⟨0, _⟩ => show win2_1.index t (0 : Fin 2) * 64 + 1 * k.val = k.val; omega
      | ⟨1, _⟩ => show win2_1.index t (1 : Fin 2) * 128 + 1 * q.val = win2_5.index t (1 : Fin 2) * 128 + 1 * q.val; omega))
  · show V c (Pipeline.arrRef spec2 2) (((cfg2.win 2).blk t).view.emb (ix2 0 q)) = _
    exact congrArg _ (funext fun a => Fin.ext (by
      match a with
      | ⟨0, _⟩ => show win2_2.index t (0 : Fin 2) * 1 + 1 * 0 = 0; omega
      | ⟨1, _⟩ => show win2_2.index t (1 : Fin 2) * 128 + 1 * q.val = win2_5.index t (1 : Fin 2) * 128 + 1 * q.val; omega))
  · show V c (Pipeline.arrRef spec2 3) (((cfg2.win 3).blk t).view.emb (ix2 p 0)) = _
    exact congrArg _ (funext fun a => Fin.ext (by
      match a with
      | ⟨0, _⟩ => show win2_3.index t (0 : Fin 2) * 5000 + 1 * p.val = win2_5.index t (0 : Fin 2) * 5000 + 1 * p.val; omega
      | ⟨1, _⟩ => show win2_3.index t (1 : Fin 2) * 1 + 1 * 0 = 0; omega))

/-- An index of the array lies in point `t`'s block iff each coordinate is in the block's range. -/
theorem mem_blk2_4 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v33_0).slice (win2_4.rect t)).set ↔ _
  rw [View.set_slice_whole, Rect.mem_set_unit]
  exact Iff.rfl

/-- Every row lies in the block of the point numbered by its quotient by `5000`. -/
theorem cover2_4_all (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  refine ⟨⟨(i 0).val / 5000, by show (i 0).val / 5000 < 20; omega⟩, flush2_4 _, ?_⟩
  rw [mem_blk2_4]
  obtain ⟨e00, e01, e10, e11, e20, e21, e30, e31, e40, e41, e50, e51⟩ := idx_facts2 ⟨(i 0).val / 5000, by show (i 0).val / 5000 < 20; omega⟩
  intro a
  match a with
  | ⟨0, _⟩ =>
    show win2_4.index _ (0 : Fin 2) * 5000 ≤ (i 0).val ∧ (i 0).val < win2_4.index _ (0 : Fin 2) * 5000 + 5000
    have hv : (⟨(i 0).val / 5000, by show (i 0).val / 5000 < 20; omega⟩ : Fin cfg2.N).val = (i 0).val / 5000 := rfl
    omega
  | ⟨1, _⟩ =>
    show win2_4.index _ (1 : Fin 2) * 128 ≤ (i 1).val ∧ (i 1).val < win2_4.index _ (1 : Fin 2) * 128 + 128
    omega

/-- An index of the array lies in point `t`'s block iff each coordinate is in the block's range. -/
theorem mem_blk2_5 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v33_1).slice (win2_5.rect t)).set ↔ _
  rw [View.set_slice_whole, Rect.mem_set_unit]
  exact Iff.rfl

/-- Every row lies in the block of the point numbered by its quotient by `5000`. -/
theorem cover2_5_all (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 5000, by show (i 0).val / 5000 < 20; omega⟩, flush2_5 _, ?_⟩
  rw [mem_blk2_5]
  obtain ⟨e00, e01, e10, e11, e20, e21, e30, e31, e40, e41, e50, e51⟩ := idx_facts2 ⟨(i 0).val / 5000, by show (i 0).val / 5000 < 20; omega⟩
  intro a
  match a with
  | ⟨0, _⟩ =>
    show win2_5.index _ (0 : Fin 2) * 5000 ≤ (i 0).val ∧ (i 0).val < win2_5.index _ (0 : Fin 2) * 5000 + 5000
    have hv : (⟨(i 0).val / 5000, by show (i 0).val / 5000 < 20; omega⟩ : Fin cfg2.N).val = (i 0).val / 5000 := rfl
    omega
  | ⟨1, _⟩ =>
    show win2_5.index _ (1 : Fin 2) * 128 ≤ (i 1).val ∧ (i 1).val < win2_5.index _ (1 : Fin 2) * 128 + 128
    omega

/-- After the region, `h` is `lin128` of the arrays the region found. -/
theorem final2_4 (c : Dev nD) : (dat2 V c).arrAt 4 cfg2.N
    = lin128 (V c (Pipeline.arrRef spec2 0)) (V c (Pipeline.arrRef spec2 1)) (V c (Pipeline.arrRef spec2 2)) :=
  (dat2 V c).arrAt_eq_of_cover 4 _ (fun t _ => flushed2_4_eq V c t) cover2_4_all

/-- After the region, `f` is that array with every row scaled by its node's factor. -/
theorem final2_5 (c : Dev nD) : (dat2 V c).arrAt 5 cfg2.N
    = scale128 (lin128 (V c (Pipeline.arrRef spec2 0)) (V c (Pipeline.arrRef spec2 1)) (V c (Pipeline.arrRef spec2 2)))
        (V c (Pipeline.arrRef spec2 3)) :=
  (dat2 V c).arrAt_eq_of_cover 5 _ (fun t _ => flushed2_5_eq V c t) cover2_5_all

end Cert.KernelIdeal.KVal

end
-- ==== Proof.KRegion3.lean ====
/-
  The second layer's combining region, block by block and then as a whole array.

  Grid point `t` of twenty reads rows `5000 t … 5000 t + 4999` of the layer's rows `h`, of the
  neighbour sums, of the in-degree column and of the normalising column, and writes back the same rows
  of `indeg · h + dis · nb`.  The blocks tile the rows, so the formula holds for the whole array.
-/
import proofs.«116146_j27943057227873_1_alg».proof.Proof.Gen.KernelIdeal.Frame
import proofs.«116146_j27943057227873_1_alg».proof.Proof.KPay
import proofs.«116146_j27943057227873_1_alg».proof.Proof.KRegion0
import Idealize.ShloMosaic.Lib.Pipeline.Value

noncomputable section

open Idealize.ShloMosaic Idealize.ShloMosaic.TcCoe Idealize.ShloMosaic.ValueIdx

namespace Cert.KernelIdeal.KVal

open Cert.KernelIdeal Cert.KernelIdeal.Gen
open Idealize.SL.Sem
open Idealize.ShloMosaic.Pipeline (Dat Cfg Window)

/-- In-degree times the own row plus the node's factor times the neighbour sum. -/
def comb128 (H NB : S100000x128.Idx → EReal) (IN D : S100000x1.Idx → EReal) : S100000x128.Idx → EReal :=
  fun i => IN (ix2 (i 0) 0) * H i + D (ix2 (i 0) 0) * NB i

variable (V : (c : Dev nD) → (b : Ref sig .tc) → Buf (Elt Ideal) ((c : Thread nD τ).loc b))

/-- The printed index maps over the grid: every window sits at block row `t`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the combination of the arrays the region found. -/
theorem flushed3_4_eq (c : Dev nD) (t : Fin cfg3.N) :
    (dat3 V c).flushed 4 t = ((cfg3.win 4).blk t).view.read (Elt Ideal)
      (comb128 (V c (Pipeline.arrRef spec3 0)) (V c (Pipeline.arrRef spec3 1)) (V c (Pipeline.arrRef spec3 2))
        (V c (Pipeline.arrRef spec3 3))) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz]
  obtain ⟨e00, e01, e10, e11, e20, e21, e30, e31, e40, e41⟩ := idx_facts3 t
  funext j
  obtain ⟨p, q, rfl⟩ : ∃ (p : Fin 5000) (q : Fin 128), j = ix2 p q := ⟨j 0, j 1, eq_ix2 j⟩
  have hp : p.val < 5000 := p.isLt
  have hq : q.val < 128 := q.isLt
  show k3_pay1 (iblk3 V c 2 t) (iblk3 V c 0 t) (iblk3 V c 3 t) (iblk3 V c 1 t) (ix2 p q)
    = comb128 _ _ _ _ (((cfg3.win 4).blk t).view.emb (ix2 p q))
  refine (k3_pay1_apply (iblk3 V c 2 t) (iblk3 V c 0 t) (iblk3 V c 3 t) (iblk3 V c 1 t) p q).trans ?_
  unfold comb128
  refine congrArg₂ (· + ·) (congrArg₂ (· * ·) ?_ ?_) (congrArg₂ (· * ·) ?_ ?_)
  · show V c (Pipeline.arrRef spec3 2) (((cfg3.win 2).blk t).view.emb (ix2 p 0)) = _
    exact congrArg _ (funext fun a => Fin.ext (by
      match a with
      | ⟨0, _⟩ => show win3_2.index t (0 : Fin 2) * 5000 + 1 * p.val = win3_4.index t (0 : Fin 2) * 5000 + 1 * p.val; omega
      | ⟨1, _⟩ => show win3_2.index t (1 : Fin 2) * 1 + 1 * 0 = 0; omega))
  · show V c (Pipeline.arrRef spec3 0) (((cfg3.win 0).blk t).view.emb (ix2 p q)) = _
    exact congrArg _ (funext fun a => Fin.ext (by
      match a with
      | ⟨0, _⟩ => show win3_0.index t (0 : Fin 2) * 5000 + 1 * p.val = win3_4.index t (0 : Fin 2) * 5000 + 1 * p.val; omega
      | ⟨1, _⟩ => show win3_0.index t (1 : Fin 2) * 128 + 1 * q.val = win3_4.index t (1 : Fin 2) * 128 + 1 * q.val; omega))
  · show V c (Pipeline.arrRef spec3 3) (((cfg3.win 3).blk t).view.emb (ix2 p 0)) = _
    exact congrArg _ (funext fun a => Fin.ext (by
      match a with
      | ⟨0, _⟩ => show win3_3.index t (0 : Fin 2) * 5000 + 1 * p.val = win3_4.index t (0 : Fin 2) * 5000 + 1 * p.val; omega
      | ⟨1, _⟩ => show win3_3.index t (1 : Fin 2) * 1 + 1 * 0 = 0; omega))
  · show V c (Pipeline.arrRef spec3 1) (((cfg3.win 1).blk t).view.emb (ix2 p q)) = _
    exact congrArg _ (funext fun a => Fin.ext (by
      match a with
      | ⟨0, _⟩ => show win3_1.index t (0 : Fin 2) * 5000 + 1 * p.val = win3_4.index t (0 : Fin 2) * 5000 + 1 * p.val; omega
      | ⟨1, _⟩ => show win3_1.index t (1 : Fin 2) * 128 + 1 * q.val = win3_4.index t (1 : Fin 2) * 128 + 1 * q.val; omega))

/-- An index of the array lies in point `t`'s block iff each coordinate is in the block's range. -/
theorem mem_blk3_4 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v44).slice (win3_4.rect t)).set ↔ _
  rw [View.set_slice_whole, Rect.mem_set_unit]
  exact Iff.rfl

/-- Every row lies in the block of the point numbered by its quotient by `5000`. -/
theorem cover3_4_all (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  refine ⟨⟨(i 0).val / 5000, by show (i 0).val / 5000 < 20; omega⟩, flush3_4 _, ?_⟩
  rw [mem_blk3_4]
  obtain ⟨e00, e01, e10, e11, e20, e21, e30, e31, e40, e41⟩ := idx_facts3 ⟨(i 0).val / 5000, by show (i 0).val / 5000 < 20; omega⟩
  intro a
  match a with
  | ⟨0, _⟩ =>
    show win3_4.index _ (0 : Fin 2) * 5000 ≤ (i 0).val ∧ (i 0).val < win3_4.index _ (0 : Fin 2) * 5000 + 5000
    have hv : (⟨(i 0).val / 5000, by show (i 0).val / 5000 < 20; omega⟩ : Fin cfg3.N).val = (i 0).val / 5000 := rfl
    omega
  | ⟨1, _⟩ =>
    show win3_4.index _ (1 : Fin 2) * 128 ≤ (i 1).val ∧ (i 1).val < win3_4.index _ (1 : Fin 2) * 128 + 128
    omega

/-- After the region its output is that combination of the arrays the region found. -/
theorem final3_4 (c : Dev nD) : (dat3 V c).arrAt 4 cfg3.N
    = comb128 (V c (Pipeline.arrRef spec3 0)) (V c (Pipeline.arrRef spec3 1)) (V c (Pipeline.arrRef spec3 2))
        (V c (Pipeline.arrRef spec3 3)) :=
  (dat3 V c).arrAt_eq_of_cover 4 _ (fun t _ => flushed3_4_eq V c t) cover3_4_all

end Cert.KernelIdeal.KVal

end
-- ==== Proof.KTerms.lean ====
/-
  The arrays the kernel program's host operations compute, as functions of the six arguments, on the
  extended reals.

  From the edge array: the source and target index vectors (the given endpoints followed by one
  self-loop per node), the degree (ones accumulated at the sources), its reciprocal square root, the
  in-degree (ones accumulated at the targets), both also as columns.  From the weights: the transposed
  matrices and the bias rows.  Between the regions: the neighbour sum, rows of the pre-scaled array
  gathered at the wrapped sources and accumulated at the targets.  `preK` composes these with the four
  regions' whole-array functions into the array the final log-softmax is applied to, and `lsm` is that
  log-softmax as one function.
-/
import proofs.«116146_j27943057227873_1_alg».proof.Proof.KRegion0
import proofs.«116146_j27943057227873_1_alg».proof.Proof.KRegion1
import proofs.«116146_j27943057227873_1_alg».proof.Proof.KRegion2
import proofs.«116146_j27943057227873_1_alg».proof.Proof.KRegion3

noncomputable section

open Idealize.ShloMosaic Idealize.ShloMosaic.TcCoe Idealize.ShloMosaic.ValueIdx

namespace Cert.KernelIdeal.KVal

open Cert.KernelIdeal Cert.KernelIdeal.Gen

/-- The source index of every edge: row 0 of the edge array, then the node numbers. -/
def rowVec (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The target index of every edge: row 1 of the edge array, then the node numbers. -/
def colVec (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- One per edge. -/
def onesE : FVec Ideal S1700000 .f32 := broadcastInDim S1700000 ![] bcast_S_S1700000 (constant (F := Ideal) S_ .f32 0x3F800000#32)
/-- Zero per node. -/
def zeroN : FVec Ideal S100000 .f32 := broadcastInDim S100000 ![] bcast_S_S100000 (constant (F := Ideal) S_ .f32 0x00000000#32)
/-- An index vector as the column a scatter takes. -/
def colOf (v : IVec S1700000 32) : IVec S1700000x1 32 := broadcastInDim S1700000x1 ![0] bcast_S1700000_S1700000x1_0 v
def zsE : IVec S1700000 32 := broadcastInDim S1700000 ![] bcast_S_S1700000 (constantI S_ 32 0#32)
def nsE : IVec S1700000 32 := broadcastInDim S1700000 ![] bcast_S_S1700000 (constantI S_ 32 100000#32)
/-- An index vector with negative entries wrapped by the node count, as the column a gather takes. -/
def wrapCol (v : IVec S1700000 32) : IVec S1700000x1 32 :=
  broadcastInDim S1700000x1 ![0] bcast_S1700000_S1700000x1_0 (select (cmpi .slt v zsE) (addi v nsE) v)

def degV (ei : IVec S2x1600000 32) : FVec Ideal S100000 .f32 :=
  Host.scatterAdd scatter_S100000_S1700000x1_S1700000_n_0_0_1 zeroN (colOf (rowVec ei)) onesE
def disV (ei : IVec S2x1600000 32) : FVec Ideal S100000 .f32 := Host.rsqrt (degV ei)
def indegV (ei : IVec S2x1600000 32) : FVec Ideal S100000 .f32 :=
  Host.scatterAdd scatter_S100000_S1700000x1_S1700000_n_0_0_1 zeroN (colOf (colVec ei)) onesE
def dis2 (ei : IVec S2x1600000 32) : FVec Ideal S100000x1 .f32 := shapeCast S100000x1 (disV ei) shapeCasts_S100000_S100000x1
def indeg2 (ei : IVec S2x1600000 32) : FVec Ideal S100000x1 .f32 := shapeCast S100000x1 (indegV ei) shapeCasts_S100000_S100000x1

def wt1 (w : FVec Ideal S64x128 .f32) : FVec Ideal S128x64 .f32 := transpose S128x64 [1, 0] w transposes_S64x128_S128x64_1_0
def b1r (b : FVec Ideal S64 .f32) : FVec Ideal S1x64 .f32 := shapeCast S1x64 b shapeCasts_S64_S1x64
def wt2 (w : FVec Ideal S128x64 .f32) : FVec Ideal S64x128 .f32 := transpose S64x128 [1, 0] w transposes_S128x64_S64x128_1_0
def b2r (b : FVec Ideal S128 .f32) : FVec Ideal S1x128 .f32 := shapeCast S1x128 b shapeCasts_S128_S1x128

/-- The neighbour sum of a `64`-wide array: its rows gathered at the wrapped sources `r`, accumulated at the targets `t`. -/
def nbOf64 (r t : IVec S1700000 32) (f : FVec Ideal S100000x64 .f32) : FVec Ideal S100000x64 .f32 :=
  Host.scatterAdd scatter_S100000x64_S1700000x1_S1700000x64_1_0_0_1
    (broadcastInDim S100000x64 ![] bcast_S_S100000x64 (constant (F := Ideal) S_ .f32 0x00000000#32)) (colOf t)
    (Host.gather gather_S100000x64_S1700000x1_S1700000x64_1_0_n_n_0_1_164 f (wrapCol r))
def nbOf128 (r t : IVec S1700000 32) (f : FVec Ideal S100000x128 .f32) : FVec Ideal S100000x128 .f32 :=
  Host.scatterAdd scatter_S100000x128_S1700000x1_S1700000x128_1_0_0_1
    (broadcastInDim S100000x128 ![] bcast_S_S100000x128 (constant (F := Ideal) S_ .f32 0x00000000#32)) (colOf t)
    (Host.gather gather_S100000x128_S1700000x1_S1700000x128_1_0_n_n_0_1_1128 f (wrapCol r))
def nb64 (ei : IVec S2x1600000 32) (f : FVec Ideal S100000x64 .f32) : FVec Ideal S100000x64 .f32 := nbOf64 (rowVec ei) (colVec ei) f
def nb128 (ei : IVec S2x1600000 32) (f : FVec Ideal S100000x128 .f32) : FVec Ideal S100000x128 .f32 := nbOf128 (rowVec ei) (colVec ei) f

/-- The first layer's output: linear map, pre-scaling, neighbour sum, combination bounded below by zero. -/
def layer1 (x : FVec Ideal S100000x128 .f32) (ei : IVec S2x1600000 32) (w1 : FVec Ideal S64x128 .f32) (b1 : FVec Ideal S64 .f32) :
    FVec Ideal S100000x64 .f32 :=
  comb64 (lin64 x (wt1 w1) (b1r b1)) (nb64 ei (scale64 (lin64 x (wt1 w1) (b1r b1)) (dis2 ei))) (indeg2 ei) (dis2 ei)

/-- The array the final log-softmax is applied to. -/
def preK (x : FVec Ideal S100000x128 .f32) (ei : IVec S2x1600000 32) (w1 : FVec Ideal S64x128 .f32) (b1 : FVec Ideal S64 .f32)
    (w2 : FVec Ideal S128x64 .f32) (b2 : FVec Ideal S128 .f32) : FVec Ideal S100000x128 .f32 :=
  comb128 (lin128 (layer1 x ei w1 b1) (wt2 w2) (b2r b2))
    (nb128 ei (scale128 (lin128 (layer1 x ei w1 b1) (wt2 w2) (b2r b2)) (dis2 ei))) (indeg2 ei) (dis2 ei)

/-- The row-wise log-softmax as the program spells it. -/
def lsm (x : FVec Ideal S100000x128 .f32) : FVec Ideal S100000x128 .f32 :=
  let x5 : FVec Ideal S100000x128 .f32 := subf x (broadcastInDim S100000x128 ![0, 1] bcast_S100000x1_S100000x128_0_1
    (broadcastInDim S100000x1 ![0] bcast_S100000_S100000x1_0
      (maximumf (broadcastInDim S100000 ![] bcast_S_S100000 (constant (F := Ideal) S_ .f32 0xFF800000#32))
        (Host.reduce FloatOps.maximumf x (constant (F := Ideal) S_ .f32 0xFF800000#32) reducesTo_S100000x128_S100000_d1 h_S_))))
  subf x5 (broadcastInDim S100000x128 ![0, 1] bcast_S100000x1_S100000x128_0_1
    (Host.log (broadcastInDim S100000x1 ![0] bcast_S100000_S100000x1_0
      (Host.reduceAdd (Host.exp x5) (constant (F := Ideal) S_ .f32 0x00000000#32) reducesTo_S100000x128_S100000_d1 h_S_))))

end Cert.KernelIdeal.KVal

end
-- ==== Proof.KChain.lean ====
/-
  The kernel program's result buffer, followed back through its nine segments to the six arguments.

  A host stretch leaves every buffer it does not write, and writes each of its results as its
  operation's function of the buffers before it; a region leaves every buffer that is not one of its
  arrays, leaves its input arrays, and leaves each output array at its whole-array function of the
  input arrays (the four region modules).  Composing these from the last segment to the first, the
  result buffer ends at the row-wise log-softmax of `preK` of the launch memory's six arguments.
-/
import proofs.«116146_j27943057227873_1_alg».proof.Proof.KTerms
import Idealize.ShloMosaic.Lib.StableHlo.Run

noncomputable section

open Idealize.ShloMosaic Idealize.ShloMosaic.TcCoe Idealize.ShloMosaic.ValueIdx

namespace Cert.KernelIdeal.KVal

open Cert.KernelIdeal Cert.KernelIdeal.Gen
open Idealize.SL.Sem

/-- A buffer that no operation of a host stretch writes keeps its contents across the stretch. -/
macro "skip_host" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer a host stretch writes holds its operation's function of the buffers before the stretch. -/
macro "host_val" ops:ident : tactic => `(tactic| (simp only [$ops:ident]; after_results; rfl))

variable (m : (ℓ : Loc nD τ sig) → Buf (Elt Ideal) ℓ) (ρ : Dev nD → PrngReg) (c : Dev nD)

/-! ## After the first host stretch -/
theorem s1_v5 : W1 (F := Ideal) m ρ c (Proc.devRef .tc main_v5) = rowVec (m ((c : Thread nD τ).loc main_arg1)) := by
  show StableHlo.after hostOps0 (W0 m ρ c) (Proc.devRef .tc main_v5) = _
  host_val hostOps0
theorem s1_v6 : W1 (F := Ideal) m ρ c (Proc.devRef .tc main_v6) = colVec (m ((c : Thread nD τ).loc main_arg1)) := by
  show StableHlo.after hostOps0 (W0 m ρ c) (Proc.devRef .tc main_v6) = _
  host_val hostOps0
theorem s1_v15 : W1 (F := Ideal) m ρ c (Proc.devRef .tc main_v15) = dis2 (m ((c : Thread nD τ).loc main_arg1)) := by
  show StableHlo.after hostOps0 (W0 m ρ c) (Proc.devRef .tc main_v15) = _
  host_val hostOps0
theorem s1_v16 : W1 (F := Ideal) m ρ c (Proc.devRef .tc main_v16) = indeg2 (m ((c : Thread nD τ).loc main_arg1)) := by
  show StableHlo.after hostOps0 (W0 m ρ c) (Proc.devRef .tc main_v16) = _
  host_val hostOps0
theorem s1_v17 : W1 (F := Ideal) m ρ c (Proc.devRef .tc main_v17) = wt1 (m ((c : Thread nD τ).loc main_arg2)) := by
  show StableHlo.after hostOps0 (W0 m ρ c) (Proc.devRef .tc main_v17) = _
  host_val hostOps0
theorem s1_v18 : W1 (F := Ideal) m ρ c (Proc.devRef .tc main_v18) = b1r (m ((c : Thread nD τ).loc main_arg3)) := by
  show StableHlo.after hostOps0 (W0 m ρ c) (Proc.devRef .tc main_v18) = _
  host_val hostOps0
theorem s1_a0 : W1 (F := Ideal) m ρ c (Proc.devRef .tc main_arg0) = W0 m ρ c (Proc.devRef .tc main_arg0) := by
  show StableHlo.after hostOps0 (W0 m ρ c) (Proc.devRef .tc main_arg0) = _
  skip_host hostOps0
theorem s1_a4 : W1 (F := Ideal) m ρ c (Proc.devRef .tc main_arg4) = W0 m ρ c (Proc.devRef .tc main_arg4) := by
  show StableHlo.after hostOps0 (W0 m ρ c) (Proc.devRef .tc main_arg4) = _
  skip_host hostOps0
theorem s1_a5 : W1 (F := Ideal) m ρ c (Proc.devRef .tc main_arg5) = W0 m ρ c (Proc.devRef .tc main_arg5) := by
  show StableHlo.after hostOps0 (W0 m ρ c) (Proc.devRef .tc main_arg5) = _
  skip_host hostOps0

/-! ## After the first linear region -/

theorem s2_v19_0 : W2 (F := Ideal) m ρ c (Proc.devRef .tc main_v19_0) = lin64 (m ((c : Thread nD τ).loc main_arg0)) (wt1 (m ((c : Thread nD τ).loc main_arg2))) (b1r (m ((c : Thread nD τ).loc main_arg3))) := by
  refine (W2_arr m ρ c 4).trans ((final0_4 (V1 m ρ) c).trans ?_)
  show lin64 (W1 m ρ c (Proc.devRef .tc main_arg0)) (W1 m ρ c (Proc.devRef .tc main_v17)) (W1 m ρ c (Proc.devRef .tc main_v18)) = _
  rw [s1_a0, s1_v17, s1_v18]

theorem s2_v19_1 : W2 (F := Ideal) m ρ c (Proc.devRef .tc main_v19_1)
    = scale64 (lin64 (m ((c : Thread nD τ).loc main_arg0)) (wt1 (m ((c : Thread nD τ).loc main_arg2))) (b1r (m ((c : Thread nD τ).loc main_arg3)))) (dis2 (m ((c : Thread nD τ).loc main_arg1))) := by
  refine (W2_arr m ρ c 5).trans ((final0_5 (V1 m ρ) c).trans ?_)
  show scale64 (lin64 (W1 m ρ c (Proc.devRef .tc main_arg0)) (W1 m ρ c (Proc.devRef .tc main_v17)) (W1 m ρ c (Proc.devRef .tc main_v18)))
    (W1 m ρ c (Proc.devRef .tc main_v15)) = _
  rw [s1_a0, s1_v17, s1_v18, s1_v15]

/-! ## Buffers carried across the first linear region -/
theorem c2_v5 : W2 (F := Ideal) m ρ c (Proc.devRef .tc main_v5) = W1 m ρ c (Proc.devRef .tc main_v5) := W2_of_ne m ρ c main_v5 (by decide)
theorem c2_v6 : W2 (F := Ideal) m ρ c (Proc.devRef .tc main_v6) = W1 m ρ c (Proc.devRef .tc main_v6) := W2_of_ne m ρ c main_v6 (by decide)
theorem c2_v16 : W2 (F := Ideal) m ρ c (Proc.devRef .tc main_v16) = W1 m ρ c (Proc.devRef .tc main_v16) := W2_of_ne m ρ c main_v16 (by decide)
theorem c2_arg4 : W2 (F := Ideal) m ρ c (Proc.devRef .tc main_arg4) = W1 m ρ c (Proc.devRef .tc main_arg4) := W2_of_ne m ρ c main_arg4 (by decide)
theorem c2_arg5 : W2 (F := Ideal) m ρ c (Proc.devRef .tc main_arg5) = W1 m ρ c (Proc.devRef .tc main_arg5) := W2_of_ne m ρ c main_arg5 (by decide)
theorem c2_v15 : W2 (F := Ideal) m ρ c (Proc.devRef .tc main_v15) = W1 m ρ c (Proc.devRef .tc main_v15) :=
  (W2_arr m ρ c 3).trans (((dat0 (V1 m ρ) c).arrAt_in 3 rfl _).trans (A_eq0 (V1 m ρ) c 3))
theorem at2_v5 : W2 (F := Ideal) m ρ c (Proc.devRef .tc main_v5) = rowVec (m ((c : Thread nD τ).loc main_arg1)) := (c2_v5 m ρ c).trans (s1_v5 m ρ c)
theorem at2_v6 : W2 (F := Ideal) m ρ c (Proc.devRef .tc main_v6) = colVec (m ((c : Thread nD τ).loc main_arg1)) := (c2_v6 m ρ c).trans (s1_v6 m ρ c)
theorem at2_v16 : W2 (F := Ideal) m ρ c (Proc.devRef .tc main_v16) = indeg2 (m ((c : Thread nD τ).loc main_arg1)) := (c2_v16 m ρ c).trans (s1_v16 m ρ c)
theorem at2_v15 : W2 (F := Ideal) m ρ c (Proc.devRef .tc main_v15) = dis2 (m ((c : Thread nD τ).loc main_arg1)) := (c2_v15 m ρ c).trans (s1_v15 m ρ c)
theorem at2_arg4 : W2 (F := Ideal) m ρ c (Proc.devRef .tc main_arg4) = (m ((c : Thread nD τ).loc main_arg4)) := (c2_arg4 m ρ c).trans ((s1_a4 m ρ c).trans rfl)
theorem at2_arg5 : W2 (F := Ideal) m ρ c (Proc.devRef .tc main_arg5) = (m ((c : Thread nD τ).loc main_arg5)) := (c2_arg5 m ρ c).trans ((s1_a5 m ρ c).trans rfl)

/-! ## After the second host stretch: the first neighbour sum -/
theorem s3_v29 : W3 (F := Ideal) m ρ c (Proc.devRef .tc main_v29) = nbOf64 (W2 m ρ c (Proc.devRef .tc main_v5)) (W2 m ρ c (Proc.devRef .tc main_v6)) (W2 m ρ c (Proc.devRef .tc main_v19_1)) := by
  show StableHlo.after hostOps1 (W2 m ρ c) (Proc.devRef .tc main_v29) = _
  host_val hostOps1
theorem c3_v19_0 : W3 (F := Ideal) m ρ c (Proc.devRef .tc main_v19_0) = W2 m ρ c (Proc.devRef .tc main_v19_0) := by
  show StableHlo.after hostOps1 (W2 m ρ c) (Proc.devRef .tc main_v19_0) = _
  skip_host hostOps1
theorem c3_v16 : W3 (F := Ideal) m ρ c (Proc.devRef .tc main_v16) = W2 m ρ c (Proc.devRef .tc main_v16) := by
  show StableHlo.after hostOps1 (W2 m ρ c) (Proc.devRef .tc main_v16) = _
  skip_host hostOps1
theorem c3_v15 : W3 (F := Ideal) m ρ c (Proc.devRef .tc main_v15) = W2 m ρ c (Proc.devRef .tc main_v15) := by
  show StableHlo.after hostOps1 (W2 m ρ c) (Proc.devRef .tc main_v15) = _
  skip_host hostOps1
theorem c3_v5 : W3 (F := Ideal) m ρ c (Proc.devRef .tc main_v5) = W2 m ρ c (Proc.devRef .tc main_v5) := by
  show StableHlo.after hostOps1 (W2 m ρ c) (Proc.devRef .tc main_v5) = _
  skip_host hostOps1
theorem c3_v6 : W3 (F := Ideal) m ρ c (Proc.devRef .tc main_v6) = W2 m ρ c (Proc.devRef .tc main_v6) := by
  show StableHlo.after hostOps1 (W2 m ρ c) (Proc.devRef .tc main_v6) = _
  skip_host hostOps1
theorem c3_arg4 : W3 (F := Ideal) m ρ c (Proc.devRef .tc main_arg4) = W2 m ρ c (Proc.devRef .tc main_arg4) := by
  show StableHlo.after hostOps1 (W2 m ρ c) (Proc.devRef .tc main_arg4) = _
  skip_host hostOps1
theorem c3_arg5 : W3 (F := Ideal) m ρ c (Proc.devRef .tc main_arg5) = W2 m ρ c (Proc.devRef .tc main_arg5) := by
  show StableHlo.after hostOps1 (W2 m ρ c) (Proc.devRef .tc main_arg5) = _
  skip_host hostOps1
theorem at3_v29 : W3 (F := Ideal) m ρ c (Proc.devRef .tc main_v29) = nb64 (m ((c : Thread nD τ).loc main_arg1)) (scale64 (lin64 (m ((c : Thread nD τ).loc main_arg0)) (wt1 (m ((c : Thread nD τ).loc main_arg2))) (b1r (m ((c : Thread nD τ).loc main_arg3)))) (dis2 (m ((c : Thread nD τ).loc main_arg1)))) := by
  rw [s3_v29, at2_v5, at2_v6, s2_v19_1]
  try rfl
theorem at3_v19_0 : W3 (F := Ideal) m ρ c (Proc.devRef .tc main_v19_0) = (lin64 (m ((c : Thread nD τ).loc main_arg0)) (wt1 (m ((c : Thread nD τ).loc main_arg2))) (b1r (m ((c : Thread nD τ).loc main_arg3)))) := (c3_v19_0 m ρ c).trans (s2_v19_0 m ρ c)
theorem at3_v5 : W3 (F := Ideal) m ρ c (Proc.devRef .tc main_v5) = rowVec (m ((c : Thread nD τ).loc main_arg1)) := (c3_v5 m ρ c).trans (at2_v5 m ρ c)
theorem at3_v6 : W3 (F := Ideal) m ρ c (Proc.devRef .tc main_v6) = colVec (m ((c : Thread nD τ).loc main_arg1)) := (c3_v6 m ρ c).trans (at2_v6 m ρ c)
theorem at3_v16 : W3 (F := Ideal) m ρ c (Proc.devRef .tc main_v16) = indeg2 (m ((c : Thread nD τ).loc main_arg1)) := (c3_v16 m ρ c).trans (at2_v16 m ρ c)
theorem at3_v15 : W3 (F := Ideal) m ρ c (Proc.devRef .tc main_v15) = dis2 (m ((c : Thread nD τ).loc main_arg1)) := (c3_v15 m ρ c).trans (at2_v15 m ρ c)
theorem at3_arg4 : W3 (F := Ideal) m ρ c (Proc.devRef .tc main_arg4) = (m ((c : Thread nD τ).loc main_arg4)) := (c3_arg4 m ρ c).trans (at2_arg4 m ρ c)
theorem at3_arg5 : W3 (F := Ideal) m ρ c (Proc.devRef .tc main_arg5) = (m ((c : Thread nD τ).loc main_arg5)) := (c3_arg5 m ρ c).trans (at2_arg5 m ρ c)

/-! ## After the first combining region: the first layer's output -/

theorem at4_v30 : W4 (F := Ideal) m ρ c (Proc.devRef .tc main_v30) = (layer1 (m ((c : Thread nD τ).loc main_arg0)) (m ((c : Thread nD τ).loc main_arg1)) (m ((c : Thread nD τ).loc main_arg2)) (m ((c : Thread nD τ).loc main_arg3))) := by
  refine (W4_arr m ρ c 4).trans ((final1_4 (V3 m ρ) c).trans ?_)
  show comb64 (W3 m ρ c (Proc.devRef .tc main_v19_0)) (W3 m ρ c (Proc.devRef .tc main_v29)) (W3 m ρ c (Proc.devRef .tc main_v16)) (W3 m ρ c (Proc.devRef .tc main_v15)) = _
  rw [at3_v19_0, at3_v29, at3_v16, at3_v15]
  try rfl
theorem c4_v5 : W4 (F := Ideal) m ρ c (Proc.devRef .tc main_v5) = W3 m ρ c (Proc.devRef .tc main_v5) := W4_of_ne m ρ c main_v5 (by decide)
theorem c4_v6 : W4 (F := Ideal) m ρ c (Proc.devRef .tc main_v6) = W3 m ρ c (Proc.devRef .tc main_v6) := W4_of_ne m ρ c main_v6 (by decide)
theorem c4_arg4 : W4 (F := Ideal) m ρ c (Proc.devRef .tc main_arg4) = W3 m ρ c (Proc.devRef .tc main_arg4) := W4_of_ne m ρ c main_arg4 (by decide)
theorem c4_arg5 : W4 (F := Ideal) m ρ c (Proc.devRef .tc main_arg5) = W3 m ρ c (Proc.devRef .tc main_arg5) := W4_of_ne m ρ c main_arg5 (by decide)
theorem c4_v15 : W4 (F := Ideal) m ρ c (Proc.devRef .tc main_v15) = W3 m ρ c (Proc.devRef .tc main_v15) :=
  (W4_arr m ρ c 3).trans (((dat1 (V3 m ρ) c).arrAt_in 3 rfl _).trans (A_eq1 (V3 m ρ) c 3))
theorem c4_v16 : W4 (F := Ideal) m ρ c (Proc.devRef .tc main_v16) = W3 m ρ c (Proc.devRef .tc main_v16) :=
  (W4_arr m ρ c 2).trans (((dat1 (V3 m ρ) c).arrAt_in 2 rfl _).trans (A_eq1 (V3 m ρ) c 2))
theorem at4_v5 : W4 (F := Ideal) m ρ c (Proc.devRef .tc main_v5) = rowVec (m ((c : Thread nD τ).loc main_arg1)) := (c4_v5 m ρ c).trans (at3_v5 m ρ c)
theorem at4_v6 : W4 (F := Ideal) m ρ c (Proc.devRef .tc main_v6) = colVec (m ((c : Thread nD τ).loc main_arg1)) := (c4_v6 m ρ c).trans (at3_v6 m ρ c)
theorem at4_v16 : W4 (F := Ideal) m ρ c (Proc.devRef .tc main_v16) = indeg2 (m ((c : Thread nD τ).loc main_arg1)) := (c4_v16 m ρ c).trans (at3_v16 m ρ c)
theorem at4_v15 : W4 (F := Ideal) m ρ c (Proc.devRef .tc main_v15) = dis2 (m ((c : Thread nD τ).loc main_arg1)) := (c4_v15 m ρ c).trans (at3_v15 m ρ c)
theorem at4_arg4 : W4 (F := Ideal) m ρ c (Proc.devRef .tc main_arg4) = (m ((c : Thread nD τ).loc main_arg4)) := (c4_arg4 m ρ c).trans (at3_arg4 m ρ c)
theorem at4_arg5 : W4 (F := Ideal) m ρ c (Proc.devRef .tc main_arg5) = (m ((c : Thread nD τ).loc main_arg5)) := (c4_arg5 m ρ c).trans (at3_arg5 m ρ c)

/-! ## After the third host stretch: the second layer's weights and bias -/
theorem s5_v31 : W5 (F := Ideal) m ρ c (Proc.devRef .tc main_v31) = wt2 (W4 m ρ c (Proc.devRef .tc main_arg4)) := by
  show StableHlo.after hostOps2 (W4 m ρ c) (Proc.devRef .tc main_v31) = _
  host_val hostOps2
theorem s5_v32 : W5 (F := Ideal) m ρ c (Proc.devRef .tc main_v32) = b2r (W4 m ρ c (Proc.devRef .tc main_arg5)) := by
  show StableHlo.after hostOps2 (W4 m ρ c) (Proc.devRef .tc main_v32) = _
  host_val hostOps2
theorem c5_v30 : W5 (F := Ideal) m ρ c (Proc.devRef .tc main_v30) = W4 m ρ c (Proc.devRef .tc main_v30) := by
  show StableHlo.after hostOps2 (W4 m ρ c) (Proc.devRef .tc main_v30) = _
  skip_host hostOps2
theorem c5_v15 : W5 (F := Ideal) m ρ c (Proc.devRef .tc main_v15) = W4 m ρ c (Proc.devRef .tc main_v15) := by
  show StableHlo.after hostOps2 (W4 m ρ c) (Proc.devRef .tc main_v15) = _
  skip_host hostOps2
theorem c5_v16 : W5 (F := Ideal) m ρ c (Proc.devRef .tc main_v16) = W4 m ρ c (Proc.devRef .tc main_v16) := by
  show StableHlo.after hostOps2 (W4 m ρ c) (Proc.devRef .tc main_v16) = _
  skip_host hostOps2
theorem c5_v5 : W5 (F := Ideal) m ρ c (Proc.devRef .tc main_v5) = W4 m ρ c (Proc.devRef .tc main_v5) := by
  show StableHlo.after hostOps2 (W4 m ρ c) (Proc.devRef .tc main_v5) = _
  skip_host hostOps2
theorem c5_v6 : W5 (F := Ideal) m ρ c (Proc.devRef .tc main_v6) = W4 m ρ c (Proc.devRef .tc main_v6) := by
  show StableHlo.after hostOps2 (W4 m ρ c) (Proc.devRef .tc main_v6) = _
  skip_host hostOps2
theorem at5_v30 : W5 (F := Ideal) m ρ c (Proc.devRef .tc main_v30) = (layer1 (m ((c : Thread nD τ).loc main_arg0)) (m ((c : Thread nD τ).loc main_arg1)) (m ((c : Thread nD τ).loc main_arg2)) (m ((c : Thread nD τ).loc main_arg3))) := (c5_v30 m ρ c).trans (at4_v30 m ρ c)
theorem at5_v5 : W5 (F := Ideal) m ρ c (Proc.devRef .tc main_v5) = rowVec (m ((c : Thread nD τ).loc main_arg1)) := (c5_v5 m ρ c).trans (at4_v5 m ρ c)
theorem at5_v6 : W5 (F := Ideal) m ρ c (Proc.devRef .tc main_v6) = colVec (m ((c : Thread nD τ).loc main_arg1)) := (c5_v6 m ρ c).trans (at4_v6 m ρ c)
theorem at5_v16 : W5 (F := Ideal) m ρ c (Proc.devRef .tc main_v16) = indeg2 (m ((c : Thread nD τ).loc main_arg1)) := (c5_v16 m ρ c).trans (at4_v16 m ρ c)
theorem at5_v15 : W5 (F := Ideal) m ρ c (Proc.devRef .tc main_v15) = dis2 (m ((c : Thread nD τ).loc main_arg1)) := (c5_v15 m ρ c).trans (at4_v15 m ρ c)

/-! ## After the second linear region -/

theorem at6_v33_0 : W6 (F := Ideal) m ρ c (Proc.devRef .tc main_v33_0) = (lin128 (layer1 (m ((c : Thread nD τ).loc main_arg0)) (m ((c : Thread nD τ).loc main_arg1)) (m ((c : Thread nD τ).loc main_arg2)) (m ((c : Thread nD τ).loc main_arg3))) (wt2 (m ((c : Thread nD τ).loc main_arg4))) (b2r (m ((c : Thread nD τ).loc main_arg5)))) := by
  refine (W6_arr m ρ c 4).trans ((final2_4 (V5 m ρ) c).trans ?_)
  show lin128 (W5 m ρ c (Proc.devRef .tc main_v30)) (W5 m ρ c (Proc.devRef .tc main_v31)) (W5 m ρ c (Proc.devRef .tc main_v32)) = _
  rw [at5_v30, s5_v31, s5_v32, at4_arg4, at4_arg5]
theorem at6_v33_1 : W6 (F := Ideal) m ρ c (Proc.devRef .tc main_v33_1) = (scale128 (lin128 (layer1 (m ((c : Thread nD τ).loc main_arg0)) (m ((c : Thread nD τ).loc main_arg1)) (m ((c : Thread nD τ).loc main_arg2)) (m ((c : Thread nD τ).loc main_arg3))) (wt2 (m ((c : Thread nD τ).loc main_arg4))) (b2r (m ((c : Thread nD τ).loc main_arg5)))) (dis2 (m ((c : Thread nD τ).loc main_arg1)))) := by
  refine (W6_arr m ρ c 5).trans ((final2_5 (V5 m ρ) c).trans ?_)
  show scale128 (lin128 (W5 m ρ c (Proc.devRef .tc main_v30)) (W5 m ρ c (Proc.devRef .tc main_v31)) (W5 m ρ c (Proc.devRef .tc main_v32))) (W5 m ρ c (Proc.devRef .tc main_v15)) = _
  rw [at5_v30, s5_v31, s5_v32, at4_arg4, at4_arg5, at5_v15]
theorem c6_v5 : W6 (F := Ideal) m ρ c (Proc.devRef .tc main_v5) = W5 m ρ c (Proc.devRef .tc main_v5) := W6_of_ne m ρ c main_v5 (by decide)
theorem c6_v6 : W6 (F := Ideal) m ρ c (Proc.devRef .tc main_v6) = W5 m ρ c (Proc.devRef .tc main_v6) := W6_of_ne m ρ c main_v6 (by decide)
theorem c6_v16 : W6 (F := Ideal) m ρ c (Proc.devRef .tc main_v16) = W5 m ρ c (Proc.devRef .tc main_v16) := W6_of_ne m ρ c main_v16 (by decide)
theorem c6_v15 : W6 (F := Ideal) m ρ c (Proc.devRef .tc main_v15) = W5 m ρ c (Proc.devRef .tc main_v15) :=
  (W6_arr m ρ c 3).trans (((dat2 (V5 m ρ) c).arrAt_in 3 rfl _).trans (A_eq2 (V5 m ρ) c 3))
theorem at6_v5 : W6 (F := Ideal) m ρ c (Proc.devRef .tc main_v5) = rowVec (m ((c : Thread nD τ).loc main_arg1)) := (c6_v5 m ρ c).trans (at5_v5 m ρ c)
theorem at6_v6 : W6 (F := Ideal) m ρ c (Proc.devRef .tc main_v6) = colVec (m ((c : Thread nD τ).loc main_arg1)) := (c6_v6 m ρ c).trans (at5_v6 m ρ c)
theorem at6_v16 : W6 (F := Ideal) m ρ c (Proc.devRef .tc main_v16) = indeg2 (m ((c : Thread nD τ).loc main_arg1)) := (c6_v16 m ρ c).trans (at5_v16 m ρ c)
theorem at6_v15 : W6 (F := Ideal) m ρ c (Proc.devRef .tc main_v15) = dis2 (m ((c : Thread nD τ).loc main_arg1)) := (c6_v15 m ρ c).trans (at5_v15 m ρ c)

/-! ## After the fourth host stretch: the second neighbour sum -/
theorem s7_v43 : W7 (F := Ideal) m ρ c (Proc.devRef .tc main_v43) = nbOf128 (W6 m ρ c (Proc.devRef .tc main_v5)) (W6 m ρ c (Proc.devRef .tc main_v6)) (W6 m ρ c (Proc.devRef .tc main_v33_1)) := by
  show StableHlo.after hostOps3 (W6 m ρ c) (Proc.devRef .tc main_v43) = _
  host_val hostOps3
theorem c7_v33_0 : W7 (F := Ideal) m ρ c (Proc.devRef .tc main_v33_0) = W6 m ρ c (Proc.devRef .tc main_v33_0) := by
  show StableHlo.after hostOps3 (W6 m ρ c) (Proc.devRef .tc main_v33_0) = _
  skip_host hostOps3
theorem c7_v16 : W7 (F := Ideal) m ρ c (Proc.devRef .tc main_v16) = W6 m ρ c (Proc.devRef .tc main_v16) := by
  show StableHlo.after hostOps3 (W6 m ρ c) (Proc.devRef .tc main_v16) = _
  skip_host hostOps3
theorem c7_v15 : W7 (F := Ideal) m ρ c (Proc.devRef .tc main_v15) = W6 m ρ c (Proc.devRef .tc main_v15) := by
  show StableHlo.after hostOps3 (W6 m ρ c) (Proc.devRef .tc main_v15) = _
  skip_host hostOps3
theorem at7_v43 : W7 (F := Ideal) m ρ c (Proc.devRef .tc main_v43) = nb128 (m ((c : Thread nD τ).loc main_arg1)) (scale128 (lin128 (layer1 (m ((c : Thread nD τ).loc main_arg0)) (m ((c : Thread nD τ).loc main_arg1)) (m ((c : Thread nD τ).loc main_arg2)) (m ((c : Thread nD τ).loc main_arg3))) (wt2 (m ((c : Thread nD τ).loc main_arg4))) (b2r (m ((c : Thread nD τ).loc main_arg5)))) (dis2 (m ((c : Thread nD τ).loc main_arg1)))) := by
  rw [s7_v43, at6_v5, at6_v6, at6_v33_1]
  try rfl
theorem at7_v33_0 : W7 (F := Ideal) m ρ c (Proc.devRef .tc main_v33_0) = (lin128 (layer1 (m ((c : Thread nD τ).loc main_arg0)) (m ((c : Thread nD τ).loc main_arg1)) (m ((c : Thread nD τ).loc main_arg2)) (m ((c : Thread nD τ).loc main_arg3))) (wt2 (m ((c : Thread nD τ).loc main_arg4))) (b2r (m ((c : Thread nD τ).loc main_arg5)))) := (c7_v33_0 m ρ c).trans (at6_v33_0 m ρ c)
theorem at7_v16 : W7 (F := Ideal) m ρ c (Proc.devRef .tc main_v16) = indeg2 (m ((c : Thread nD τ).loc main_arg1)) := (c7_v16 m ρ c).trans (at6_v16 m ρ c)
theorem at7_v15 : W7 (F := Ideal) m ρ c (Proc.devRef .tc main_v15) = dis2 (m ((c : Thread nD τ).loc main_arg1)) := (c7_v15 m ρ c).trans (at6_v15 m ρ c)

/-! ## After the second combining region, and the final log-softmax -/

theorem at8_v44 : W8 (F := Ideal) m ρ c (Proc.devRef .tc main_v44) = preK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 4).trans ((final3_4 (V7 m ρ) c).trans ?_)
  show comb128 (W7 m ρ c (Proc.devRef .tc main_v33_0)) (W7 m ρ c (Proc.devRef .tc main_v43)) (W7 m ρ c (Proc.devRef .tc main_v16)) (W7 m ρ c (Proc.devRef .tc main_v15)) = _
  rw [at7_v33_0, at7_v43, at7_v16, at7_v15]
  try rfl

/-- Reading a typed reference's contents back after writing them is the identity. -/
theorem ofBuf_toBuf {Val : EltTy → Type} {T : BufTy} (x : StableHlo.TRef sig T) (v : T.Contents Val) :
    x.ofBuf (x.toBuf v) = v := by
  obtain ⟨r, rfl, _, _⟩ := x
  rfl

set_option maxRecDepth 65536 in
theorem s9_v45 : W9 (F := Ideal) m ρ c (Proc.devRef .tc main_v45) = lsm (W8 m ρ c (Proc.devRef .tc main_v44)) := by
  show StableHlo.after hostOps4 (W8 m ρ c) (Proc.devRef .tc main_v45) = _
  simp only [hostOps4]
  after_results_simp
  simp only [ofBuf_toBuf]
  rfl

/-- The result buffer after the whole program: the row-wise log-softmax of `preK` of the arguments. -/
theorem result_eq : W9 (F := Ideal) m ρ c (Proc.devRef .tc main_v45) = lsm (preK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [s9_v45, at8_v44]

end Cert.KernelIdeal.KVal

end
-- ==== Proof.LibGatherRows.lean ====
/-
  Row gathers read at an index: `stablehlo.gather` of a rank-1 or rank-2 operand along its first axis at a column
  `[M, 1]` of start indices (what `x[idx]` lowers to) is the operand's row at the start index, read signed and clamped
  into `[0, N − 1]`; with it, the pieces the index column is built from, each read at an index: the broadcast of a
  vector to a column, the wrap of negative indices, and the concatenation of edge endpoints with the self-loop iota.
-/
import Idealize.ShloMosaic.Lib.ValueIdx
import Idealize.ShloMosaic.Lib.Pipeline.Value
import Idealize.ShloMosaic.Lib.IdealHost
import Idealize.ShloMosaic.PureOps.ShapeOps
import Idealize.ShloMosaic.PureOps.Dims

noncomputable section

open Idealize.ShloMosaic Idealize.ShloMosaic.ValueIdx

namespace Idealize.ShloMosaic.GatherRows

variable {α : Type}

/-! ## The two row gathers -/

/-- The dimension numbers of a row gather from a flat operand `[N]` at start indices `[M, 1]` with result `[M]`:
    the one operand axis is collapsed and indexed, the index vector lies on axis 1. -/
abbrev rowGather1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The dimension numbers of a row gather from an operand `[N, C]` at start indices `[M, 1]` with result `[M, C]`:
    axis 0 is collapsed and indexed, axis 1 is taken whole as the result's offset axis. -/
abbrev rowGather2 (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row that entry `e` of the index column selects: the entry read as a signed integer and clamped into
    `[0, N − 1]`. -/
def src {N M w : Nat} (hN : 0 < N) (idx : IVec ⟨2, ![M, 1]⟩ w) (e : Fin M) : Fin N :=
  ⟨min (idx (ix2 e 0)).toInt.toNat (N - 1), by omega⟩

/-- The value of the selected row number is the clamped signed reading of the index entry. -/
theorem src_val {N M w : Nat} (hN : 0 < N) (idx : IVec ⟨2, ![M, 1]⟩ w) (e : Fin M) :
    (src hN idx e).val = min (idx (ix2 e 0)).toInt.toNat (N - 1) := rfl

/-- The start-indices position that result position `e` of a flat row gather reads is `(e, 0)`. -/
theorem rowGather1_siIdx {N M : Nat} (wf : GatherDims.WF ⟨1, ![N]⟩ ⟨2, ![M, 1]⟩ ⟨1, ![M]⟩ [] [0] [] [0] [] 1 ![1])
    (e : Fin M) (c : Fin (rowGather1 N M wf).startIndexMap.length) :
    (rowGather1 N M wf).siIdx (ix1 e) c = ix2 e 0 := by
  obtain rfl : c = ⟨0, Nat.one_pos⟩ := Fin.ext (Nat.lt_one_iff.mp c.isLt)
  funext b; refine Fin.ext ?_
  match b with
  | ⟨0, _⟩ => rfl
  | ⟨1, _⟩ => rfl

/-- A flat row gather read at `e`: the operand at the row the index column's entry `e` selects. -/
theorem gather_row1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowGather1 N M wf) x idx (ix1 e) = x (ix1 (src hN idx e)) := by
  unfold Host.gather
  congr 1
  funext a
  obtain rfl : a = 0 := Subsingleton.elim _ _
  refine Fin.ext ?_
  show (rowGather1 N M wf).start (ix1 e) idx 0 + (rowGather1 N M wf).batchCoord (ix1 e) 0
      + (rowGather1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather1 N M wf).startIndexMap from List.mem_singleton.mpr rfl)]
  rw [rowGather1_siIdx]
  rfl

/-- The start-indices position that result position `(e, f)` of a row gather reads is `(e, 0)`. -/
theorem rowGather2_siIdx {N M C : Nat}
    (wf : GatherDims.WF ⟨2, ![N, C]⟩ ⟨2, ![M, 1]⟩ ⟨2, ![M, C]⟩ [1] [0] [] [0] [] 1 ![1, C])
    (e : Fin M) (f : Fin C) (c : Fin (rowGather2 N M C wf).startIndexMap.length) :
    (rowGather2 N M C wf).siIdx (ix2 e f) c = ix2 e 0 := by
  obtain rfl : c = ⟨0, Nat.one_pos⟩ := Fin.ext (Nat.lt_one_iff.mp c.isLt)
  funext b; refine Fin.ext ?_
  match b with
  | ⟨0, _⟩ => rfl
  | ⟨1, _⟩ => rfl

/-- The row coordinate that result position `(e, f)` of a row gather reads: the clamped start index alone. -/
theorem rowGather2_coord0 {N M C w : Nat} (hN : 0 < N)
    (wf : GatherDims.WF ⟨2, ![N, C]⟩ ⟨2, ![M, 1]⟩ ⟨2, ![M, C]⟩ [1] [0] [] [0] [] 1 ![1, C])
    (idx : IVec ⟨2, ![M, 1]⟩ w) (e : Fin M) (f : Fin C) :
    (rowGather2 N M C wf).start (ix2 e f) idx 0 + (rowGather2 N M C wf).batchCoord (ix2 e f) 0
      + (rowGather2 N M C wf).offCoord (ix2 e f) 0 = (src hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather2 N M C wf).startIndexMap from List.mem_singleton.mpr rfl)]
  rw [rowGather2_siIdx]
  rfl

/-- The column coordinate that result position `(e, f)` of a row gather reads: the offset `f` alone. -/
theorem rowGather2_coord1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (f : Fin C) :
    (rowGather2 N M C wf).start (ix2 e f) idx 1 + (rowGather2 N M C wf).batchCoord (ix2 e f) 1
      + (rowGather2 N M C wf).offCoord (ix2 e f) 1 = f.val := by
  rw [GatherDims.batchCoord_eq_zero _ _ _ List.not_mem_nil]
  have hs : (rowGather2 N M C wf).start (ix2 e f) idx 1 = 0 := by
    unfold GatherDims.start
    rw [dif_neg (fun h => absurd (List.mem_singleton.mp h) (show ¬ (1 : Fin 2) = 0 by decide))]
  have hmem : (1 : Fin 2) ∈ (rowGather2 N M C wf).sKept :=
    (GatherDims.mem_sKept _ _).mpr ⟨fun h => absurd (List.mem_singleton.mp h) (show ¬ (1 : Fin 2) = 0 by decide), List.not_mem_nil⟩
  rw [hs]
  unfold GatherDims.offCoord
  rw [dif_pos hmem]
  simp only [Nat.zero_add, Nat.add_zero]
  rfl

/-- A row gather read at `(e, f)`: the operand's entry `f` of the row the index column's entry `e` selects. -/
theorem gather_row2_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGather2 N M C wf) x idx (ix2 e f) = x (ix2 (src hN idx e) f) := by
  unfold Host.gather
  congr 1
  funext a
  refine Fin.ext ?_
  match a with
  | ⟨0, _⟩ => exact rowGather2_coord0 hN wf idx e f
  | ⟨1, _⟩ => exact rowGather2_coord1 wf idx e f

/-! ## The index column: a vector broadcast to `[M, 1]` -/

/-- The column of a vector read at `(e, 0)` is the vector's entry `e`. -/
theorem column_apply {M : Nat} (hb : (⟨1, ![M]⟩ : Shape).BroadcastsInDim ⟨2, ![M, 1]⟩ ![0])
    (v : (⟨1, ![M]⟩ : Shape).Idx → α) (e : Fin M) :
    broadcastInDim ⟨2, ![M, 1]⟩ ![0] hb v (ix2 e 0) = v (ix1 e) := by
  refine broadcastInDim_apply _ hb v _ (ix1 e) (fun a => ?_)
  obtain rfl : a = 0 := Subsingleton.elim _ _
  show e.val = if M = 1 then 0 else e.val
  split
  · next h => have := e.isLt; omega
  · rfl

/-! ## The wrap of negative indices leaves an in-range index alone -/

/-- A 32-bit word whose signed reading is not negative is not signed-less-than zero. -/
theorem cmpi_slt_zero_of_nonneg (x : BitVec 32) (h : 0 ≤ x.toInt) : IntOp.cmpi .slt x 0#32 = 0#1 := by
  have hf : x.slt 0#32 = false := by
    rw [Bool.eq_false_iff]
    intro hlt
    have h2 := BitVec.slt_iff_toInt_lt.mp hlt
    simp at h2
    omega
  show BitVec.ofBool (x.slt 0#32) = 0#1
  rw [hf]; rfl

/-- The wrapped index `select (v < 0) (v + n) v` read at `j` is `v`'s entry there when that entry is not negative. -/
theorem wrap_apply_of_nonneg {s : Shape} (v zs ns : IVec s 32) (hz : ∀ j, zs j = 0#32) (j : s.Idx)
    (h : 0 ≤ (v j).toInt) : select (cmpi .slt v zs) (addi v ns) v j = v j := by
  show Scalar.select (IntOp.cmpi .slt (v j) (zs j)) (IntOp.addi (v j) (ns j)) (v j) = v j
  rw [hz, cmpi_slt_zero_of_nonneg _ h, select_zero]

/-- An index entry whose signed reading is a row number `i < N` selects row `i` after the wrap of negative
    indices and the clamp: it is not negative, so the wrap keeps it, and it is at most `N − 1`, so the clamp does. -/
theorem src_wrap_of_inrange {N M : Nat} (hN : 0 < N)
    (hb : (⟨1, ![M]⟩ : Shape).BroadcastsInDim ⟨2, ![M, 1]⟩ ![0])
    (v zs ns : IVec ⟨1, ![M]⟩ 32) (hz : ∀ j, zs j = 0#32) (e : Fin M) (i : Fin N)
    (h : (v (ix1 e)).toInt = (i.val : Int)) :
    src hN (broadcastInDim ⟨2, ![M, 1]⟩ ![0] hb (select (cmpi .slt v zs) (addi v ns) v)) e = i := by
  apply Fin.ext
  rw [src_val, column_apply, wrap_apply_of_nonneg v zs ns hz _ (by rw [h]; exact Int.natCast_nonneg _), h,
    Int.toNat_natCast]
  have := i.isLt
  omega

/-! ## The self-loop part of the index vector -/

/-- A natural number below `2³¹` as a 32-bit word reads back, signed, as itself. -/
theorem toInt_ofNat_of_lt (n : Nat) (h : n < 2 ^ 31) : (BitVec.ofNat 32 n).toInt = (n : Int) := by
  rw [BitVec.toInt_eq_toNat_cond]
  simp only [BitVec.toNat_ofNat]
  have hm : n % 2 ^ 32 = n := Nat.mod_eq_of_lt (by omega)
  rw [hm, if_pos (by omega)]

/-- The concatenation of `E` edge endpoints with the iota over the `N` nodes, read at position `E + i`, is `i`. -/
theorem selfloop_apply {E N M : Nat} (a : IVec ⟨1, ![E]⟩ 32)
    (hc : Shape.Concatenates [(⟨1, ![E]⟩ : Shape), ⟨1, ![N]⟩] ⟨1, ![M]⟩ 0) (hM : M = E + N) (i : Fin N) :
    concatenate ⟨1, ![M]⟩ 0 [⟨⟨1, ![E]⟩, a⟩, ⟨⟨1, ![N]⟩, iotaInDim ⟨1, ![N]⟩ 32 0⟩] hc
      (ix1 ⟨E + i.val, by have := i.isLt; omega⟩) = BitVec.ofNat 32 i.val := by
  rw [concatenate_pair_apply_right 0 a (iotaInDim ⟨1, ![N]⟩ 32 0) hc (ix1 ⟨E + i.val, by have := i.isLt; omega⟩)
    rfl rfl (ix1 i) (fun b hb => absurd (Subsingleton.elim _ _) hb) (by show i.val + E = E + i.val; omega)]
  rfl

/-- Read signed, that entry is the node number `i`, while the node count is below `2³¹`. -/
theorem selfloop_toInt {E N M : Nat} (a : IVec ⟨1, ![E]⟩ 32)
    (hc : Shape.Concatenates [(⟨1, ![E]⟩ : Shape), ⟨1, ![N]⟩] ⟨1, ![M]⟩ 0) (hM : M = E + N) (hN32 : N < 2 ^ 31)
    (i : Fin N) :
    (concatenate ⟨1, ![M]⟩ 0 [⟨⟨1, ![E]⟩, a⟩, ⟨⟨1, ![N]⟩, iotaInDim ⟨1, ![N]⟩ 32 0⟩] hc
      (ix1 ⟨E + i.val, by have := i.isLt; omega⟩)).toInt = (i.val : Int) := by
  rw [selfloop_apply a hc hM i]
  exact toInt_ofNat_of_lt _ (by have := i.isLt; omega)

/-! ## Further readings of the same pieces -/

/-- A concatenation of two flat vectors of lengths `E` and `N`, read at a position `e < E`, is the first vector's
    entry `e`. -/
theorem concat_left_apply {E N M : Nat} (a : (⟨1, ![E]⟩ : Shape).Idx → α) (b : (⟨1, ![N]⟩ : Shape).Idx → α)
    (hc : Shape.Concatenates [(⟨1, ![E]⟩ : Shape), ⟨1, ![N]⟩] ⟨1, ![M]⟩ 0) (hM : M = E + N) (e : Fin E) :
    concatenate ⟨1, ![M]⟩ 0 [⟨⟨1, ![E]⟩, a⟩, ⟨⟨1, ![N]⟩, b⟩] hc (ix1 ⟨e.val, by have := e.isLt; omega⟩) = a (ix1 e) := by
  refine concatenate_pair_apply_left 0 a b hc _ rfl (ix1 e) (fun c => ?_)
  obtain rfl : c = 0 := Subsingleton.elim _ _
  rfl

/-- A concatenation of two flat vectors of lengths `E` and `N`, read at position `E + i` with `i < N`, is the second
    vector's entry `i`. -/
theorem concat_right_apply {E N M : Nat} (a : (⟨1, ![E]⟩ : Shape).Idx → α) (b : (⟨1, ![N]⟩ : Shape).Idx → α)
    (hc : Shape.Concatenates [(⟨1, ![E]⟩ : Shape), ⟨1, ![N]⟩] ⟨1, ![M]⟩ 0) (hM : M = E + N) (i : Fin N) :
    concatenate ⟨1, ![M]⟩ 0 [⟨⟨1, ![E]⟩, a⟩, ⟨⟨1, ![N]⟩, b⟩] hc (ix1 ⟨E + i.val, by have := i.isLt; omega⟩) = b (ix1 i) :=
  concatenate_pair_apply_right 0 a b hc (ix1 ⟨E + i.val, by have := i.isLt; omega⟩) rfl rfl (ix1 i)
    (fun c hc' => absurd (Subsingleton.elim _ _) hc') (by show i.val + E = E + i.val; omega)

/-- An index entry whose signed reading lies in `[0, N)` selects, after the wrap of negative indices and the clamp,
    the row whose number is that reading. -/
theorem src_wrap_val_of_inrange {N M : Nat} (hN : 0 < N)
    (hb : (⟨1, ![M]⟩ : Shape).BroadcastsInDim ⟨2, ![M, 1]⟩ ![0])
    (v zs ns : IVec ⟨1, ![M]⟩ 32) (hz : ∀ j, zs j = 0#32) (e : Fin M)
    (h0 : 0 ≤ (v (ix1 e)).toInt) (h1 : (v (ix1 e)).toInt < (N : Int)) :
    (src hN (broadcastInDim ⟨2, ![M, 1]⟩ ![0] hb (select (cmpi .slt v zs) (addi v ns) v)) e).val
      = (v (ix1 e)).toInt.toNat := by
  rw [src_val, column_apply, wrap_apply_of_nonneg v zs ns hz _ h0]
  omega

end Idealize.ShloMosaic.GatherRows

end
-- ==== Proof.LibScatterRows.lean ====
/-
  ROW SCATTERS AND SUMS ON THE EXTENDED REALS.

  A scatter whose body is an addition, with one row number per update row, adds to each operand row the sum of the
  update rows whose row number is that row; rows whose number is out of range are dropped. The first part states this
  for a flat operand and for an operand of rows of a fixed width, on generic extents. The second part collects the
  distributive laws of finite sums on the extended reals that hold without a finiteness hypothesis: a constant summed
  is the count times the constant, a nonnegative real factor moves through a sum, and the node law that rewrites
  "each incoming edge contributes the node's own row plus a normalised source row" as "in-degree times the own row plus
  the node's factor times the sum of the pre-scaled source rows".
-/
import Idealize.ShloMosaic.Lib.ValueIdx
import Idealize.ShloMosaic.PureOps.Ideal
import Idealize.ShloMosaic.PureOps.Ideal.Laws
import Idealize.ShloMosaic.PureOps.Dims
import Mathlib.Data.EReal.Operations

noncomputable section

open scoped BigOperators
open Idealize.ShloMosaic Idealize.ShloMosaic.ValueIdx

namespace Idealize.ShloMosaic.ScatterRows

/-! ## Row scatters -/

section Rows

/-- An update lands at operand index `i` exactly when, on every operand axis, its start plus its window coordinate
    is that axis's coordinate of `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := h a
      simp only []
      omega
    · intro hi
      funext a
      apply Fin.ext
      have := hi a
      simp only []
      omega
  · constructor
    · intro h'; cases h'
    · intro hi
      refine absurd (fun a => ?_) h
      have := hi a
      have := (i a).isLt
      omega

/-- The dimension numbers of a scatter of `M` scalars into a flat operand of `N` elements, one row number per
    update. -/
abbrev rowScatter1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a scatter of `M` rows of width `C` into an operand of `N` rows of width `C`, one row
    number per update row. -/
abbrev rowScatter2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The operand row an edge's row number names: the number read signed, when it lies in `[0, N)`; none otherwise. -/
def tgt {N M w : Nat} (idx : IVec ⟨2, ![M, 1]⟩ w) (e : Fin M) : Option (Fin N) :=
  if h : 0 ≤ (idx (ix2 e 0)).toInt ∧ (idx (ix2 e 0)).toInt < N then
    some ⟨(idx (ix2 e 0)).toInt.toNat, by omega⟩
  else none

/-- An edge's target is row `i` exactly when its row number, read signed, is `i`. -/
theorem tgt_eq_some_iff {N M w : Nat} (idx : IVec ⟨2, ![M, 1]⟩ w) (e : Fin M) (i : Fin N) :
    tgt idx e = some i ↔ (idx (ix2 e 0)).toInt = (i.val : Int) := by
  unfold tgt
  split_ifs with h
  · rw [Option.some.injEq, Fin.ext_iff]
    simp only []
    omega
  · constructor
    · intro h'; cases h'
    · intro hi
      have := i.isLt
      exact absurd ⟨by omega, by omega⟩ h

end Rows

section Rows1
variable {N M w : Nat} (wf : ScatterDims.WF ⟨1, ![N]⟩ ⟨2, ![M, 1]⟩ ⟨1, ![M]⟩ [] [0] [0] 1)

/-- In the flat row scatter, update `j` reads its start on the one operand axis at the scatter-indices entry
    `[j, 0]`, signed. -/
theorem rowScatter1_start (j : (⟨1, ![M]⟩ : Shape).Idx) (idx : IVec ⟨2, ![M, 1]⟩ w) :
    (rowScatter1 N M wf).start j idx 0 = (idx (ix2 (n0 := M) (j 0) 0)).toInt := by
  unfold ScatterDims.start
  rw [dif_pos (show (0 : Fin 1) ∈ (rowScatter1 N M wf).scatterDimsToOperandDims from List.mem_singleton.mpr rfl)]
  have hsi : (rowScatter1 N M wf).siIdx j ⟨List.idxOf (0 : Fin 1) (rowScatter1 N M wf).scatterDimsToOperandDims,
      List.idxOf_lt_length_iff.2 (List.mem_singleton.mpr rfl)⟩ = ix2 (n0 := M) (j 0) 0 := by
    funext b; refine Fin.ext ?_
    match b with
    | ⟨0, _⟩ => rfl
    | ⟨1, _⟩ => rfl
  rw [hsi]

/-- In the flat row scatter the one operand axis is inserted, so the window coordinate on it is zero. -/
theorem rowScatter1_window (j : (⟨1, ![M]⟩ : Shape).Idx) : (rowScatter1 N M wf).window j 0 = 0 := by
  unfold ScatterDims.window
  rw [dif_neg]
  intro h
  simp [ScatterDims.sKept, Shape.kept] at h

/-- In the flat row scatter, update `j` lands at operand index `i` exactly when edge `j`'s target is row `i`. -/
theorem rowScatter1_resultIdx? (idx : IVec ⟨2, ![M, 1]⟩ w) (j : (⟨1, ![M]⟩ : Shape).Idx)
    (i : (⟨1, ![N]⟩ : Shape).Idx) :
    (rowScatter1 N M wf).resultIdx? j idx = some i ↔ tgt idx (j 0) = some (i 0) := by
  refine (resultIdx?_eq_some_iff _ j idx i).trans (Iff.trans ?_ (tgt_eq_some_iff idx (j 0) (i 0)).symm)
  constructor
  · intro h
    have h0 := h 0
    rw [rowScatter1_start, rowScatter1_window, Nat.cast_zero, add_zero] at h0
    exact h0
  · intro h a
    obtain rfl : a = 0 := Subsingleton.elim _ _
    rw [rowScatter1_start, rowScatter1_window, Nat.cast_zero, add_zero]
    exact h

end Rows1

section Rows2
variable {N M C w : Nat} (wf : ScatterDims.WF ⟨2, ![N, C]⟩ ⟨2, ![M, 1]⟩ ⟨2, ![M, C]⟩ [1] [0] [0] 1)

/-- In the scatter of rows, update `j` reads its start on the row axis at the scatter-indices entry `[j₀, 0]`,
    signed. -/
theorem rowScatter2_start0 (j : (⟨2, ![M, C]⟩ : Shape).Idx) (idx : IVec ⟨2, ![M, 1]⟩ w) :
    (rowScatter2 N M C wf).start j idx 0 = (idx (ix2 (n0 := M) (j 0) 0)).toInt := by
  unfold ScatterDims.start
  rw [dif_pos (show (0 : Fin 2) ∈ (rowScatter2 N M C wf).scatterDimsToOperandDims from List.mem_singleton.mpr rfl)]
  have hsi : (rowScatter2 N M C wf).siIdx j ⟨List.idxOf (0 : Fin 2) (rowScatter2 N M C wf).scatterDimsToOperandDims,
      List.idxOf_lt_length_iff.2 (List.mem_singleton.mpr rfl)⟩ = ix2 (n0 := M) (j 0) 0 := by
    funext b; refine Fin.ext ?_
    match b with
    | ⟨0, _⟩ => rfl
    | ⟨1, _⟩ => rfl
  rw [hsi]

/-- In the scatter of rows the start on the column axis is zero: the row numbers name no column. -/
theorem rowScatter2_start1 (j : (⟨2, ![M, C]⟩ : Shape).Idx) (idx : IVec ⟨2, ![M, 1]⟩ w) :
    (rowScatter2 N M C wf).start j idx 1 = 0 := by
  unfold ScatterDims.start
  rw [dif_neg]
  intro h
  simp at h

/-- In the scatter of rows the row axis is inserted, so the window coordinate on it is zero. -/
theorem rowScatter2_window0 (j : (⟨2, ![M, C]⟩ : Shape).Idx) : (rowScatter2 N M C wf).window j 0 = 0 := by
  unfold ScatterDims.window
  rw [dif_neg]
  intro h
  simp [ScatterDims.sKept, Shape.kept] at h

/-- In the scatter of rows the window coordinate on the column axis is the update's column. -/
theorem rowScatter2_window1 (j : (⟨2, ![M, C]⟩ : Shape).Idx) : (rowScatter2 N M C wf).window j 1 = (j 1).val := by
  unfold ScatterDims.window
  have h1 : (1 : Fin 2) ∈ (rowScatter2 N M C wf).sKept := by
    simp [ScatterDims.sKept, Shape.kept]
  rw [dif_pos h1]
  rfl

/-- In the scatter of rows, update `j` lands at operand index `i` exactly when edge `j₀`'s target is row `i₀` and
    the columns agree. -/
theorem rowScatter2_resultIdx? (idx : IVec ⟨2, ![M, 1]⟩ w) (j : (⟨2, ![M, C]⟩ : Shape).Idx)
    (i : (⟨2, ![N, C]⟩ : Shape).Idx) :
    (rowScatter2 N M C wf).resultIdx? j idx = some i ↔ tgt idx (j 0) = some (i 0) ∧ (j 1).val = (i 1).val := by
  refine (resultIdx?_eq_some_iff _ j idx i).trans
    (Iff.trans ?_ (and_congr_left' (tgt_eq_some_iff idx (j 0) (i 0))).symm)
  constructor
  · intro h
    have h0 := h 0
    have h1 := h 1
    rw [rowScatter2_start0, rowScatter2_window0, Nat.cast_zero, add_zero] at h0
    rw [rowScatter2_start1, rowScatter2_window1, zero_add] at h1
    exact ⟨h0, by exact_mod_cast h1⟩
  · rintro ⟨h0, h1⟩ a
    match a with
    | ⟨0, _⟩ =>
      show (rowScatter2 N M C wf).start j idx 0 + ((rowScatter2 N M C wf).window j 0 : Int) = ((i 0).val : Int)
      rw [rowScatter2_start0, rowScatter2_window0, Nat.cast_zero, add_zero]
      exact h0
    | ⟨1, _⟩ =>
      show (rowScatter2 N M C wf).start j idx 1 + ((rowScatter2 N M C wf).window j 1 : Int) = ((i 1).val : Int)
      rw [rowScatter2_start1, rowScatter2_window1, zero_add]
      exact_mod_cast h1

end Rows2

section RowSums
variable {N M w : Nat}

/-- THE FLAT ROW SCATTER READ AT ROW `i`: the operand there plus the sum of the updates of the edges whose target is
    row `i`. -/
theorem hostScatterAdd_row1 (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (i : Fin N) :
    Ideal.hostScatterAdd (rowScatter1 N M wf) x idx upd (ix1 i)
      = x (ix1 i) + ∑ e ∈ Finset.univ.filter (fun e : Fin M => tgt idx e = some i), upd (ix1 e) := by
  unfold Ideal.hostScatterAdd
  congr 1
  symm
  refine Finset.sum_bij (fun e _ => ix1 e) ?_ ?_ ?_ ?_
  · intro e he
    simp only [Finset.mem_filter, Finset.mem_univ, true_and] at he ⊢
    exact (rowScatter1_resultIdx? wf idx (ix1 e) (ix1 i)).mpr he
  · intro a _ b _ h
    exact congrFun h 0
  · intro j hj
    simp only [Finset.mem_filter, Finset.mem_univ, true_and] at hj
    exact ⟨j 0, Finset.mem_filter.mpr ⟨Finset.mem_univ _, (rowScatter1_resultIdx? wf idx j (ix1 i)).mp hj⟩,
      (eq_ix1 j).symm⟩
  · intro e _
    rfl

/-- THE SCATTER OF ROWS READ AT ROW `i`, COLUMN `f`: the operand there plus the sum, over the edges whose target is
    row `i`, of their update rows' column `f`. -/
theorem hostScatterAdd_row2 {C : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (i : Fin N) (f : Fin C) :
    Ideal.hostScatterAdd (rowScatter2 N M C wf) x idx upd (ix2 i f)
      = x (ix2 i f) + ∑ e ∈ Finset.univ.filter (fun e : Fin M => tgt idx e = some i), upd (ix2 e f) := by
  unfold Ideal.hostScatterAdd
  congr 1
  symm
  refine Finset.sum_bij (fun e _ => ix2 e f) ?_ ?_ ?_ ?_
  · intro e he
    simp only [Finset.mem_filter, Finset.mem_univ, true_and] at he ⊢
    exact (rowScatter2_resultIdx? wf idx (ix2 e f) (ix2 i f)).mpr ⟨he, rfl⟩
  · intro a _ b _ h
    exact congrFun h 0
  · intro j hj
    simp only [Finset.mem_filter, Finset.mem_univ, true_and] at hj
    obtain ⟨h0, h1⟩ := (rowScatter2_resultIdx? wf idx j (ix2 i f)).mp hj
    refine ⟨j 0, Finset.mem_filter.mpr ⟨Finset.mem_univ _, h0⟩, ?_⟩
    funext a
    match a with
    | ⟨0, _⟩ => rfl
    | ⟨1, _⟩ => exact (Fin.ext h1).symm
  · intro e _
    rfl

end RowSums

/-! ## Finite sums on the extended reals -/

section Sums
variable {ι : Type} [DecidableEq ι]

/-- A sum of ones over a finite set is nonnegative. -/
theorem sum_one_nonneg (S : Finset ι) : (0 : EReal) ≤ ∑ _e ∈ S, (1 : EReal) :=
  Finset.sum_nonneg fun _ _ => zero_le_one

/-- A constant summed over a finite set is the number of its elements, as a sum of ones, times the constant. -/
theorem sum_const_eq (S : Finset ι) (a : EReal) : ∑ _e ∈ S, a = (∑ _e ∈ S, (1 : EReal)) * a := by
  induction S using Finset.induction_on with
  | empty => simp
  | insert i S hi ih =>
    rw [Finset.sum_insert hi, Finset.sum_insert hi, ih,
      EReal.right_distrib_of_nonneg zero_le_one (sum_one_nonneg S), one_mul]

/-- A nonnegative real factor distributes over a finite sum of extended reals. -/
theorem coe_mul_sum (d : ℝ) (hd : 0 ≤ d) (S : Finset ι) (x : ι → EReal) :
    (d : EReal) * ∑ e ∈ S, x e = ∑ e ∈ S, (d : EReal) * x e := by
  induction S using Finset.induction_on with
  | empty => simp
  | insert i S hi ih =>
    rw [Finset.sum_insert hi, Finset.sum_insert hi,
      EReal.left_distrib_of_nonneg_of_ne_top (EReal.coe_nonneg.mpr hd) (EReal.coe_ne_top d), ih]

/-- THE NODE LAW: summing, over a node's incoming edges, the node's own row plus the edge's weight times the node's
    nonnegative real factor times the edge's source row gives the in-degree times the own row plus the node's factor
    times the sum of the source rows each scaled by its edge's weight. -/
theorem node_law (S : Finset ι) (a : EReal) (d : ℝ) (hd : 0 ≤ d) (q b : ι → EReal) :
    ∑ e ∈ S, (a + (q e * (d : EReal)) * b e)
      = (∑ _e ∈ S, (1 : EReal)) * a + (d : EReal) * ∑ e ∈ S, b e * q e := by
  rw [Finset.sum_add_distrib, sum_const_eq S a, coe_mul_sum d hd S]
  congr 1
  refine Finset.sum_congr rfl fun e _ => ?_
  rw [mul_comm (q e) (d : EReal), mul_assoc, mul_comm (q e) (b e)]

end Sums

end Idealize.ShloMosaic.ScatterRows

end
-- ==== Proof.LibGcnTerms.lean ====
/-
  The composite host terms of a graph-convolution layer, each read at one element on the extended reals: a scatter-add
  of per-edge values along the edges' target rows is, at row `i`, the operand plus the sum over the edges whose target
  is `i`; when the per-edge values are themselves rows gathered at the edges' (wrapped, clamped) source rows, the
  summand is the gathered row's entry. With them, the two facts that tie an edge's target to its source row: an edge
  whose target is row `i` also gathers from row `i` when read through the wrap, and the self-loop of node `i` targets
  row `i`.
-/
import proofs.«116146_j27943057227873_1_alg».proof.Proof.LibGatherRows
import proofs.«116146_j27943057227873_1_alg».proof.Proof.LibScatterRows

noncomputable section

open scoped BigOperators
open Idealize.ShloMosaic Idealize.ShloMosaic.ValueIdx
open Idealize.ShloMosaic.GatherRows Idealize.ShloMosaic.ScatterRows

namespace Idealize.ShloMosaic.GcnTerms

variable {N M C E : Nat}

/-! ## Vocabulary -/

/-- An index vector `[M]` as the column `[M, 1]` of row numbers a scatter takes. -/
abbrev col (hb : (⟨1, ![M]⟩ : Shape).BroadcastsInDim ⟨2, ![M, 1]⟩ ![0]) (v : IVec ⟨1, ![M]⟩ 32) :
    IVec ⟨2, ![M, 1]⟩ 32 :=
  broadcastInDim ⟨2, ![M, 1]⟩ ![0] hb v

/-- An index vector `[M]` with its negative entries wrapped (`v < 0` replaced by `v + n`), as the column `[M, 1]` of
    start indices a gather takes. -/
abbrev wcol (hb : (⟨1, ![M]⟩ : Shape).BroadcastsInDim ⟨2, ![M, 1]⟩ ![0]) (v zs ns : IVec ⟨1, ![M]⟩ 32) :
    IVec ⟨2, ![M, 1]⟩ 32 :=
  broadcastInDim ⟨2, ![M, 1]⟩ ![0] hb (select (cmpi .slt v zs) (addi v ns) v)

/-! ## Targets and sources -/

/-- An edge whose target, read off the plain column, is row `i` gathers from row `i` when the same index vector is
    read through the wrap and the clamp: an in-range row number is changed by neither. -/
theorem src_of_tgt (hN : 0 < N) (hb : (⟨1, ![M]⟩ : Shape).BroadcastsInDim ⟨2, ![M, 1]⟩ ![0])
    (c zs ns : IVec ⟨1, ![M]⟩ 32) (hz : ∀ j, zs j = 0#32) (e : Fin M) (i : Fin N)
    (h : tgt (col hb c) e = some i) : src hN (wcol hb c zs ns) e = i :=
  src_wrap_of_inrange hN hb c zs ns hz e i
    ((congrArg BitVec.toInt (column_apply hb c e)).symm.trans ((tgt_eq_some_iff (col hb c) e i).mp h))

/-- The self-loop of node `i` — entry `E + i` of the edge endpoints followed by the iota over the nodes — targets
    row `i`, while the node count is below `2³¹`. -/
theorem selfloop_tgt (hb : (⟨1, ![M]⟩ : Shape).BroadcastsInDim ⟨2, ![M, 1]⟩ ![0]) (a : IVec ⟨1, ![E]⟩ 32)
    (hc : Shape.Concatenates [(⟨1, ![E]⟩ : Shape), ⟨1, ![N]⟩] ⟨1, ![M]⟩ 0) (hM : M = E + N) (hN32 : N < 2 ^ 31)
    (i : Fin N) :
    tgt (N := N) (col hb (concatenate ⟨1, ![M]⟩ 0 [⟨⟨1, ![E]⟩, a⟩, ⟨⟨1, ![N]⟩, iotaInDim ⟨1, ![N]⟩ 32 0⟩] hc))
      ⟨E + i.val, by have := i.isLt; omega⟩ = some i :=
  (tgt_eq_some_iff _ _ i).mpr
    ((congrArg BitVec.toInt (column_apply hb _ _)).trans (selfloop_toInt a hc hM hN32 i))

/-! ## The scatter-added terms at one element -/

/-- A scatter-add of per-edge scalars along the edges' target rows, read at row `i`: the operand there plus the sum of
    the scalars of the edges whose target is `i`. -/
theorem count_apply (wf1 : ScatterDims.WF ⟨1, ![N]⟩ ⟨2, ![M, 1]⟩ ⟨1, ![M]⟩ [] [0] [0] 1)
    (hb : (⟨1, ![M]⟩ : Shape).BroadcastsInDim ⟨2, ![M, 1]⟩ ![0])
    (x : FVec Ideal ⟨1, ![N]⟩ .f32) (v : IVec ⟨1, ![M]⟩ 32) (u : FVec Ideal ⟨1, ![M]⟩ .f32) (i : Fin N) :
    (Host.scatterAdd (rowScatter1 N M wf1) x (col hb v) u : FVec Ideal ⟨1, ![N]⟩ .f32) (ix1 i)
      = x (ix1 i) + ∑ e ∈ Finset.univ.filter (fun e : Fin M => tgt (col hb v) e = some i), u (ix1 e) :=
  hostScatterAdd_row1 wf1 x (col hb v) u i

/-- A scatter-add, along the edges' target rows, of the rows gathered at the edges' source rows, read at `(i, j)`:
    the operand there plus the sum over the edges whose target is `i` of entry `j` of the edge's source row. -/
theorem nbsum_apply (hN : 0 < N)
    (wf2 : ScatterDims.WF ⟨2, ![N, C]⟩ ⟨2, ![M, 1]⟩ ⟨2, ![M, C]⟩ [1] [0] [0] 1)
    (wg2 : GatherDims.WF ⟨2, ![N, C]⟩ ⟨2, ![M, 1]⟩ ⟨2, ![M, C]⟩ [1] [0] [] [0] [] 1 ![1, C])
    (hb : (⟨1, ![M]⟩ : Shape).BroadcastsInDim ⟨2, ![M, 1]⟩ ![0])
    (x f : FVec Ideal ⟨2, ![N, C]⟩ .f32) (c r zs ns : IVec ⟨1, ![M]⟩ 32) (i : Fin N) (j : Fin C) :
    (Host.scatterAdd (rowScatter2 N M C wf2) x (col hb c)
        (Host.gather (rowGather2 N M C wg2) f (wcol hb r zs ns)) : FVec Ideal ⟨2, ![N, C]⟩ .f32) (ix2 i j)
      = x (ix2 i j) + ∑ e ∈ Finset.univ.filter (fun e : Fin M => tgt (col hb c) e = some i),
          f (ix2 (src hN (wcol hb r zs ns) e) j) := by
  refine (hostScatterAdd_row2 wf2 x (col hb c) _ i j).trans ?_
  congr 1
  refine Finset.sum_congr rfl fun e _ => ?_
  exact gather_row2_apply hN wg2 f _ e j

/-- A column `[M, 1]` broadcast along its rows to `[M, C]`, read at `(e, j)`, is the column's entry `e`. -/
theorem widen_apply {α : Type} (hb2 : (⟨2, ![M, 1]⟩ : Shape).BroadcastsInDim ⟨2, ![M, C]⟩ ![0, 1])
    (y : (⟨2, ![M, 1]⟩ : Shape).Idx → α) (e : Fin M) (j : Fin C) :
    broadcastInDim ⟨2, ![M, C]⟩ ![0, 1] hb2 y (ix2 e j) = y (ix2 e 0) := by
  refine broadcastInDim_apply _ hb2 y _ (ix2 e 0) (fun a => ?_)
  match a with
  | ⟨0, _⟩ =>
    show e.val = if M = 1 then 0 else e.val
    split
    · next h => have := e.isLt; omega
    · rfl
  | ⟨1, _⟩ => rfl

/-- A per-edge scalar vector, as a column broadcast along its rows to `[M, C]`, read at `(e, j)`, is the vector's
    entry `e`. -/
theorem widen_column_apply {α : Type} (hb : (⟨1, ![M]⟩ : Shape).BroadcastsInDim ⟨2, ![M, 1]⟩ ![0])
    (hb2 : (⟨2, ![M, 1]⟩ : Shape).BroadcastsInDim ⟨2, ![M, C]⟩ ![0, 1])
    (y : (⟨1, ![M]⟩ : Shape).Idx → α) (e : Fin M) (j : Fin C) :
    broadcastInDim ⟨2, ![M, C]⟩ ![0, 1] hb2 (broadcastInDim ⟨2, ![M, 1]⟩ ![0] hb y) (ix2 e j) = y (ix1 e) :=
  (widen_apply hb2 _ e j).trans (column_apply hb y e)

/-- One edge's message in the layer, read at column `j`: the target row's entry plus the product of the two
    endpoints' scalars times the source row's entry. -/
theorem message_apply (hN : 0 < N)
    (wg1 : GatherDims.WF ⟨1, ![N]⟩ ⟨2, ![M, 1]⟩ ⟨1, ![M]⟩ [] [0] [] [0] [] 1 ![1])
    (wg2 : GatherDims.WF ⟨2, ![N, C]⟩ ⟨2, ![M, 1]⟩ ⟨2, ![M, C]⟩ [1] [0] [] [0] [] 1 ![1, C])
    (hb : (⟨1, ![M]⟩ : Shape).BroadcastsInDim ⟨2, ![M, 1]⟩ ![0])
    (hb2 : (⟨2, ![M, 1]⟩ : Shape).BroadcastsInDim ⟨2, ![M, C]⟩ ![0, 1])
    (dis : FVec Ideal ⟨1, ![N]⟩ .f32) (h : FVec Ideal ⟨2, ![N, C]⟩ .f32) (c r zs ns : IVec ⟨1, ![M]⟩ 32)
    (e : Fin M) (j : Fin C) :
    (addf (F := Ideal) (φ := .f32) (Host.gather (rowGather2 N M C wg2) h (wcol hb c zs ns))
        (mulf (F := Ideal) (φ := .f32)
          (broadcastInDim ⟨2, ![M, C]⟩ ![0, 1] hb2 (broadcastInDim ⟨2, ![M, 1]⟩ ![0] hb
            (mulf (F := Ideal) (φ := .f32) (Host.gather (rowGather1 N M wg1) dis (wcol hb r zs ns))
              (Host.gather (rowGather1 N M wg1) dis (wcol hb c zs ns)))))
          (Host.gather (rowGather2 N M C wg2) h (wcol hb r zs ns)))) (ix2 e j)
      = h (ix2 (src hN (wcol hb c zs ns) e) j)
        + (dis (ix1 (src hN (wcol hb r zs ns) e)) * dis (ix1 (src hN (wcol hb c zs ns) e)))
          * h (ix2 (src hN (wcol hb r zs ns) e) j) := by
  rw [addf_apply, mulf_apply, widen_column_apply, mulf_apply, gather_row2_apply hN, gather_row2_apply hN,
    gather_row1_apply hN, gather_row1_apply hN]

/-- The layer's scatter-add of the edges' messages along their target rows, read at `(i, j)`: the operand there plus
    the sum, over the edges whose target is `i`, of the target row's entry plus the product of the two endpoints'
    scalars times the source row's entry. -/
theorem msgsum_apply (hN : 0 < N)
    (wf2 : ScatterDims.WF ⟨2, ![N, C]⟩ ⟨2, ![M, 1]⟩ ⟨2, ![M, C]⟩ [1] [0] [0] 1)
    (wg1 : GatherDims.WF ⟨1, ![N]⟩ ⟨2, ![M, 1]⟩ ⟨1, ![M]⟩ [] [0] [] [0] [] 1 ![1])
    (wg2 : GatherDims.WF ⟨2, ![N, C]⟩ ⟨2, ![M, 1]⟩ ⟨2, ![M, C]⟩ [1] [0] [] [0] [] 1 ![1, C])
    (hb : (⟨1, ![M]⟩ : Shape).BroadcastsInDim ⟨2, ![M, 1]⟩ ![0])
    (hb2 : (⟨2, ![M, 1]⟩ : Shape).BroadcastsInDim ⟨2, ![M, C]⟩ ![0, 1])
    (x : FVec Ideal ⟨2, ![N, C]⟩ .f32) (dis : FVec Ideal ⟨1, ![N]⟩ .f32) (h : FVec Ideal ⟨2, ![N, C]⟩ .f32)
    (c r zs ns : IVec ⟨1, ![M]⟩ 32) (i : Fin N) (j : Fin C) :
    (Host.scatterAdd (rowScatter2 N M C wf2) x (col hb c)
        (addf (F := Ideal) (φ := .f32) (Host.gather (rowGather2 N M C wg2) h (wcol hb c zs ns))
          (mulf (F := Ideal) (φ := .f32)
            (broadcastInDim ⟨2, ![M, C]⟩ ![0, 1] hb2 (broadcastInDim ⟨2, ![M, 1]⟩ ![0] hb
              (mulf (F := Ideal) (φ := .f32) (Host.gather (rowGather1 N M wg1) dis (wcol hb r zs ns))
                (Host.gather (rowGather1 N M wg1) dis (wcol hb c zs ns)))))
            (Host.gather (rowGather2 N M C wg2) h (wcol hb r zs ns)))) : FVec Ideal ⟨2, ![N, C]⟩ .f32) (ix2 i j)
      = x (ix2 i j) + ∑ e ∈ Finset.univ.filter (fun e : Fin M => tgt (col hb c) e = some i),
          (h (ix2 (src hN (wcol hb c zs ns) e) j)
            + (dis (ix1 (src hN (wcol hb r zs ns) e)) * dis (ix1 (src hN (wcol hb c zs ns) e)))
              * h (ix2 (src hN (wcol hb r zs ns) e) j)) := by
  refine (hostScatterAdd_row2 wf2 x (col hb c) _ i j).trans ?_
  congr 1
  refine Finset.sum_congr rfl fun e _ => ?_
  exact message_apply hN wg1 wg2 hb hb2 dis h c r zs ns e j

/-- The same sum with each edge's target row named: an edge whose target is `i` reads row `i` itself where the layer
    gathers at the wrapped target column, so the summand is row `i`'s entry plus the source's scalar times row
    `i`'s scalar times the source row's entry. -/
theorem msgsum_apply_tgt (hN : 0 < N)
    (wf2 : ScatterDims.WF ⟨2, ![N, C]⟩ ⟨2, ![M, 1]⟩ ⟨2, ![M, C]⟩ [1] [0] [0] 1)
    (wg1 : GatherDims.WF ⟨1, ![N]⟩ ⟨2, ![M, 1]⟩ ⟨1, ![M]⟩ [] [0] [] [0] [] 1 ![1])
    (wg2 : GatherDims.WF ⟨2, ![N, C]⟩ ⟨2, ![M, 1]⟩ ⟨2, ![M, C]⟩ [1] [0] [] [0] [] 1 ![1, C])
    (hb : (⟨1, ![M]⟩ : Shape).BroadcastsInDim ⟨2, ![M, 1]⟩ ![0])
    (hb2 : (⟨2, ![M, 1]⟩ : Shape).BroadcastsInDim ⟨2, ![M, C]⟩ ![0, 1])
    (x : FVec Ideal ⟨2, ![N, C]⟩ .f32) (dis : FVec Ideal ⟨1, ![N]⟩ .f32) (h : FVec Ideal ⟨2, ![N, C]⟩ .f32)
    (c r zs ns : IVec ⟨1, ![M]⟩ 32) (hz : ∀ k, zs k = 0#32) (i : Fin N) (j : Fin C) :
    (Host.scatterAdd (rowScatter2 N M C wf2) x (col hb c)
        (addf (F := Ideal) (φ := .f32) (Host.gather (rowGather2 N M C wg2) h (wcol hb c zs ns))
          (mulf (F := Ideal) (φ := .f32)
            (broadcastInDim ⟨2, ![M, C]⟩ ![0, 1] hb2 (broadcastInDim ⟨2, ![M, 1]⟩ ![0] hb
              (mulf (F := Ideal) (φ := .f32) (Host.gather (rowGather1 N M wg1) dis (wcol hb r zs ns))
                (Host.gather (rowGather1 N M wg1) dis (wcol hb c zs ns)))))
            (Host.gather (rowGather2 N M C wg2) h (wcol hb r zs ns)))) : FVec Ideal ⟨2, ![N, C]⟩ .f32) (ix2 i j)
      = x (ix2 i j) + ∑ e ∈ Finset.univ.filter (fun e : Fin M => tgt (col hb c) e = some i),
          (h (ix2 i j) + (dis (ix1 (src hN (wcol hb r zs ns) e)) * dis (ix1 i))
              * h (ix2 (src hN (wcol hb r zs ns) e) j)) := by
  rw [msgsum_apply hN wf2 wg1 wg2 hb hb2 x dis h c r zs ns i j]
  congr 1
  refine Finset.sum_congr rfl fun e he => ?_
  rw [src_of_tgt hN hb c zs ns hz e i (Finset.mem_filter.mp he).2]

end Idealize.ShloMosaic.GcnTerms

end
-- ==== Proof.LibGcnLaw.lean ====
/-
  THE NODE LAW OF A GRAPH-CONVOLUTION LAYER, ONE FEATURE COLUMN AT A TIME.

  Edges carry a target and a source node. A node's degree is the number of edges whose source lands on it, and its
  normaliser is the reciprocal square root of the degree. When every node has a self-loop the degree is a positive
  natural number, so the normaliser is a nonnegative real and moves through finite sums on the extended reals.
  Summing, over the edges that land on a node, the target's own value plus the product of the two normalisers times
  the source's value then equals the in-degree times the own value plus the node's normaliser times the sum of the
  source values each scaled by its source's normaliser.
-/
import Idealize.ShloMosaic.PureOps.Ideal
import Idealize.ShloMosaic.PureOps.Ideal.Laws
import Idealize.ShloMosaic.Lib.IdealHost
import Mathlib.Data.EReal.Operations
import proofs.«116146_j27943057227873_1_alg».proof.Proof.LibScatterRows

noncomputable section

open scoped BigOperators
open Idealize.ShloMosaic

namespace Idealize.ShloMosaic.GcnLaw

/-! ## One, counts, and the reciprocal square root of a count -/

/-- The single-precision pattern `0x3F800000` denotes the extended real one. -/
theorem ofBits_one_f32 : Ideal.ofBits .f32 0x3F800000#32 = (1 : EReal) := Ideal.ofBits_one_f32

/-- A sum of ones over a finite set is the real number of its elements. -/
theorem sum_ones_eq_card {ι : Type} (S : Finset ι) : ∑ _e ∈ S, (1 : EReal) = ((S.card : ℝ) : EReal) := by
  rw [Finset.sum_const, EReal.nsmul_eq_mul, mul_one]
  rfl

/-- At a positive real the ideal reciprocal square root is the real reciprocal of the real square root. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- The reciprocal square root of the count of a nonempty finite set, the count taken as zero plus a sum of ones, is a
    nonnegative real. -/
theorem rsqrt_count_nonneg_real {ι : Type} (S : Finset ι) (hS : S.Nonempty) :
    ∃ d : ℝ, 0 ≤ d ∧ Ideal.rsqrt ((0 : EReal) + ∑ _e ∈ S, (1 : EReal)) = (d : EReal) := by
  refine ⟨(Real.sqrt (S.card : ℝ))⁻¹, inv_nonneg.mpr (Real.sqrt_nonneg _), ?_⟩
  rw [zero_add, sum_ones_eq_card, rsqrt_coe_pos _ (by exact_mod_cast hS.card_pos)]

/-! ## The layer's node law -/

section Gcn
variable {N M : Nat}

/-- A node's normaliser: the reciprocal square root of zero plus the number of edges whose source lands on it. -/
def gcnDis (tr : Fin M → Option (Fin N)) (n : Fin N) : EReal :=
  Ideal.rsqrt ((0 : EReal) + ∑ _e ∈ Finset.univ.filter (fun e => tr e = some n), (1 : EReal))

/-- The normaliser unfolded. -/
theorem gcnDis_def (tr : Fin M → Option (Fin N)) (n : Fin N) :
    gcnDis tr n
      = Ideal.rsqrt ((0 : EReal) + ∑ _e ∈ Finset.univ.filter (fun e => tr e = some n), (1 : EReal)) := rfl

/-- When every node has an edge whose source lands on it, every normaliser is a nonnegative real. -/
theorem gcnDis_nonneg_real (tr : Fin M → Option (Fin N)) (hself : ∀ n : Fin N, ∃ e, tr e = some n) (n : Fin N) :
    ∃ d : ℝ, 0 ≤ d ∧ gcnDis tr n = (d : EReal) := by
  obtain ⟨e, he⟩ := hself n
  exact rsqrt_count_nonneg_real _ ⟨e, Finset.mem_filter.mpr ⟨Finset.mem_univ _, he⟩⟩

/-- THE NODE LAW OF THE LAYER: over the edges landing on node `i`, the sum of the target's own value plus the product
    of the source's and target's normalisers times the source's value is the in-degree times node `i`'s value plus
    node `i`'s normaliser times the sum of the source values each scaled by its source's normaliser; every edge that
    lands on `i` reads `i` as its target row, and every node has a self-loop. -/
theorem gcn_node (tc tr : Fin M → Option (Fin N)) (sr sc : Fin M → Fin N)
    (hsc : ∀ e i, tc e = some i → sc e = i) (hself : ∀ n : Fin N, ∃ e, tr e = some n) (a : Fin N → EReal)
    (i : Fin N) :
    (0 : EReal) + ∑ e ∈ Finset.univ.filter (fun e => tc e = some i),
        (a (sc e) + (gcnDis tr (sr e) * gcnDis tr (sc e)) * a (sr e))
      = ((0 : EReal) + ∑ _e ∈ Finset.univ.filter (fun e => tc e = some i), (1 : EReal)) * a i
        + gcnDis tr i * ((0 : EReal) + ∑ e ∈ Finset.univ.filter (fun e => tc e = some i),
            a (sr e) * gcnDis tr (sr e)) := by
  obtain ⟨d, hd, hdi⟩ := gcnDis_nonneg_real tr hself i
  have key := ScatterRows.node_law (Finset.univ.filter (fun e => tc e = some i)) (a i) d hd
    (fun e => gcnDis tr (sr e)) (fun e => a (sr e))
  beta_reduce at key
  rw [zero_add, zero_add, zero_add, hdi, ← key]
  refine Finset.sum_congr rfl fun e he => ?_
  rw [hsc e i (Finset.mem_filter.mp he).2, hdi]

/-- The node law with the normaliser written out as a local definition. -/
theorem gcn_node_let (tc tr : Fin M → Option (Fin N)) (sr sc : Fin M → Fin N)
    (hsc : ∀ e i, tc e = some i → sc e = i) (hself : ∀ n : Fin N, ∃ e, tr e = some n) (a : Fin N → EReal)
    (i : Fin N) :
    let dis : Fin N → EReal := fun n =>
      Ideal.rsqrt ((0 : EReal) + ∑ _e ∈ Finset.univ.filter (fun e => tr e = some n), (1 : EReal))
    (0 : EReal) + ∑ e ∈ Finset.univ.filter (fun e => tc e = some i), (a (sc e) + (dis (sr e) * dis (sc e)) * a (sr e))
      = ((0 : EReal) + ∑ _e ∈ Finset.univ.filter (fun e => tc e = some i), (1 : EReal)) * a i
        + dis i * ((0 : EReal) + ∑ e ∈ Finset.univ.filter (fun e => tc e = some i), a (sr e) * dis (sr e)) := by
  intro dis
  exact gcn_node tc tr sr sc hsc hself a i

end Gcn

end Idealize.ShloMosaic.GcnLaw

end
-- ==== Proof.LibGcnLayer.lean ====
/-
  The terms of a graph-convolution layer in the vocabulary of its specification. A node's normaliser, computed as the
  reciprocal square root of a scatter-added count of ones, is the reciprocal square root of zero plus the number of
  edges whose source lands on the node; the in-degree is the same count along the targets; the layer's scatter-added
  messages are, at a node, the in-degree times the node's own row plus the node's normaliser times the sum of the
  source rows each scaled by its source's normaliser; and the scatter-added pre-scaled source rows are that inner sum.
-/
import proofs.«116146_j27943057227873_1_alg».proof.Proof.LibGcnTerms
import proofs.«116146_j27943057227873_1_alg».proof.Proof.LibGcnLaw

noncomputable section

open scoped BigOperators
open Idealize.ShloMosaic Idealize.ShloMosaic.ValueIdx
open Idealize.ShloMosaic.GatherRows Idealize.ShloMosaic.ScatterRows Idealize.ShloMosaic.GcnTerms

namespace Idealize.ShloMosaic.GcnLayer

variable {N M C E : Nat}

/-! ## A vector as a column -/

/-- A vector `[N]` reshaped to the column `[N, 1]`, read at `(n, 0)`, is the vector's entry `n`. -/
theorem column_of_vec {α : Type} (hs : (⟨1, ![N]⟩ : Shape).ShapeCasts ⟨2, ![N, 1]⟩)
    (v : (⟨1, ![N]⟩ : Shape).Idx → α) (n : Fin N) :
    shapeCast ⟨2, ![N, 1]⟩ v hs (ix2 n 0) = v (ix1 n) := by
  refine shapeCast_apply v hs (ix2 n 0) (ix1 n) ?_
  rw [Shape.rowMajor_val_one, Shape.rowMajor_val_two]
  show n.val = n.val * 1 + 0
  omega

/-! ## Counts along an index column -/

/-- A scatter-add of ones into zeros along an index column, read at row `i`: zero plus the number of entries whose
    target is `i`, as a sum of ones. -/
theorem indeg_apply (wf1 : ScatterDims.WF ⟨1, ![N]⟩ ⟨2, ![M, 1]⟩ ⟨1, ![M]⟩ [] [0] [0] 1)
    (hb : (⟨1, ![M]⟩ : Shape).BroadcastsInDim ⟨2, ![M, 1]⟩ ![0])
    (z : FVec Ideal ⟨1, ![N]⟩ .f32) (hz0 : ∀ k, z k = 0) (ones : FVec Ideal ⟨1, ![M]⟩ .f32) (h1 : ∀ k, ones k = 1)
    (c : IVec ⟨1, ![M]⟩ 32) (i : Fin N) :
    (Host.scatterAdd (rowScatter1 N M wf1) z (col hb c) ones : FVec Ideal ⟨1, ![N]⟩ .f32) (ix1 i)
      = (0 : EReal) + ∑ _e ∈ Finset.univ.filter (fun e : Fin M => tgt (N := N) (col hb c) e = some i), (1 : EReal) := by
  rw [count_apply, hz0, Finset.sum_congr rfl (fun e _ => h1 (ix1 e))]

/-- The reciprocal square root of that count along the source column, read at node `n`, is the node's normaliser. -/
theorem dis_apply (wf1 : ScatterDims.WF ⟨1, ![N]⟩ ⟨2, ![M, 1]⟩ ⟨1, ![M]⟩ [] [0] [0] 1)
    (hb : (⟨1, ![M]⟩ : Shape).BroadcastsInDim ⟨2, ![M, 1]⟩ ![0])
    (z : FVec Ideal ⟨1, ![N]⟩ .f32) (hz0 : ∀ k, z k = 0) (ones : FVec Ideal ⟨1, ![M]⟩ .f32) (h1 : ∀ k, ones k = 1)
    (r : IVec ⟨1, ![M]⟩ 32) (n : Fin N) :
    (Host.rsqrt (Host.scatterAdd (rowScatter1 N M wf1) z (col hb r) ones) : FVec Ideal ⟨1, ![N]⟩ .f32) (ix1 n)
      = GcnLaw.gcnDis (tgt (N := N) (col hb r)) n := by
  show Ideal.rsqrt ((Host.scatterAdd (rowScatter1 N M wf1) z (col hb r) ones : FVec Ideal ⟨1, ![N]⟩ .f32) (ix1 n)) = _
  rw [indeg_apply wf1 hb z hz0 ones h1 r n, GcnLaw.gcnDis_def]

/-! ## The kernel's pre-scaled neighbour sum -/

/-- The scatter-add into zeros, along the target column, of the pre-scaled rows `h · D` gathered at the source
    column, read at `(i, j)`: zero plus the sum over the edges whose target is `i` of the source row's entry times
    the source's normaliser; `D` is the column of the normalisers. -/
theorem nbsum_scaled_apply (hN : 0 < N)
    (wf2 : ScatterDims.WF ⟨2, ![N, C]⟩ ⟨2, ![M, 1]⟩ ⟨2, ![M, C]⟩ [1] [0] [0] 1)
    (wg2 : GatherDims.WF ⟨2, ![N, C]⟩ ⟨2, ![M, 1]⟩ ⟨2, ![M, C]⟩ [1] [0] [] [0] [] 1 ![1, C])
    (hb : (⟨1, ![M]⟩ : Shape).BroadcastsInDim ⟨2, ![M, 1]⟩ ![0])
    (Z : FVec Ideal ⟨2, ![N, C]⟩ .f32) (hZ : ∀ k, Z k = 0) (h : FVec Ideal ⟨2, ![N, C]⟩ .f32)
    (D : FVec Ideal ⟨2, ![N, 1]⟩ .f32) (c r zs ns : IVec ⟨1, ![M]⟩ 32)
    (hD : ∀ n : Fin N, D (ix2 n 0) = GcnLaw.gcnDis (tgt (N := N) (col hb r)) n) (i : Fin N) (j : Fin C) :
    (Host.scatterAdd (rowScatter2 N M C wf2) Z (col hb c)
        (Host.gather (rowGather2 N M C wg2)
          (fun k : (⟨2, ![N, C]⟩ : Shape).Idx => h k * D (ix2 (n0 := N) (k 0) 0))
          (wcol hb r zs ns)) : FVec Ideal ⟨2, ![N, C]⟩ .f32) (ix2 i j)
      = (0 : EReal) + ∑ e ∈ Finset.univ.filter (fun e : Fin M => tgt (N := N) (col hb c) e = some i),
          h (ix2 (src hN (wcol hb r zs ns) e) j)
            * GcnLaw.gcnDis (tgt (N := N) (col hb r)) (src hN (wcol hb r zs ns) e) := by
  rw [nbsum_apply hN wf2 wg2 hb Z _ c r zs ns i j, hZ]
  congr 1
  refine Finset.sum_congr rfl fun e _ => ?_
  show h (ix2 (src hN (wcol hb r zs ns) e) j) * D (ix2 (src hN (wcol hb r zs ns) e) 0) = _
  rw [hD]

/-! ## The reference layer -/

/-- The layer's scatter-added messages into zeros, read at `(i, j)`, when every node is the target of some entry of
    the source column: the in-degree times row `i`'s entry plus node `i`'s normaliser times the sum, over the edges
    whose target is `i`, of the source row's entry times the source's normaliser. -/
theorem reflayer_apply_of_self (hN : 0 < N)
    (wf1 : ScatterDims.WF ⟨1, ![N]⟩ ⟨2, ![M, 1]⟩ ⟨1, ![M]⟩ [] [0] [0] 1)
    (wf2 : ScatterDims.WF ⟨2, ![N, C]⟩ ⟨2, ![M, 1]⟩ ⟨2, ![M, C]⟩ [1] [0] [0] 1)
    (wg1 : GatherDims.WF ⟨1, ![N]⟩ ⟨2, ![M, 1]⟩ ⟨1, ![M]⟩ [] [0] [] [0] [] 1 ![1])
    (wg2 : GatherDims.WF ⟨2, ![N, C]⟩ ⟨2, ![M, 1]⟩ ⟨2, ![M, C]⟩ [1] [0] [] [0] [] 1 ![1, C])
    (hb : (⟨1, ![M]⟩ : Shape).BroadcastsInDim ⟨2, ![M, 1]⟩ ![0])
    (hb2 : (⟨2, ![M, 1]⟩ : Shape).BroadcastsInDim ⟨2, ![M, C]⟩ ![0, 1])
    (z : FVec Ideal ⟨1, ![N]⟩ .f32) (hz0 : ∀ k, z k = 0) (ones : FVec Ideal ⟨1, ![M]⟩ .f32) (h1 : ∀ k, ones k = 1)
    (Z : FVec Ideal ⟨2, ![N, C]⟩ .f32) (hZ : ∀ k, Z k = 0) (h : FVec Ideal ⟨2, ![N, C]⟩ .f32)
    (c r zs ns : IVec ⟨1, ![M]⟩ 32) (hz : ∀ k, zs k = 0#32)
    (hself : ∀ n : Fin N, ∃ e, tgt (N := N) (col hb r) e = some n) (i : Fin N) (j : Fin C) :
    (Host.scatterAdd (rowScatter2 N M C wf2) Z (col hb c)
        (addf (F := Ideal) (φ := .f32) (Host.gather (rowGather2 N M C wg2) h (wcol hb c zs ns))
          (mulf (F := Ideal) (φ := .f32)
            (broadcastInDim ⟨2, ![M, C]⟩ ![0, 1] hb2 (broadcastInDim ⟨2, ![M, 1]⟩ ![0] hb
              (mulf (F := Ideal) (φ := .f32)
                (Host.gather (rowGather1 N M wg1)
                  (Host.rsqrt (Host.scatterAdd (rowScatter1 N M wf1) z (col hb r) ones) : FVec Ideal ⟨1, ![N]⟩ .f32)
                  (wcol hb r zs ns))
                (Host.gather (rowGather1 N M wg1)
                  (Host.rsqrt (Host.scatterAdd (rowScatter1 N M wf1) z (col hb r) ones) : FVec Ideal ⟨1, ![N]⟩ .f32)
                  (wcol hb c zs ns)))))
            (Host.gather (rowGather2 N M C wg2) h (wcol hb r zs ns)))) : FVec Ideal ⟨2, ![N, C]⟩ .f32) (ix2 i j)
      = ((0 : EReal) + ∑ _e ∈ Finset.univ.filter (fun e : Fin M => tgt (N := N) (col hb c) e = some i), (1 : EReal))
          * h (ix2 i j)
        + GcnLaw.gcnDis (tgt (N := N) (col hb r)) i
          * ((0 : EReal) + ∑ e ∈ Finset.univ.filter (fun e : Fin M => tgt (N := N) (col hb c) e = some i),
              h (ix2 (src hN (wcol hb r zs ns) e) j)
                * GcnLaw.gcnDis (tgt (N := N) (col hb r)) (src hN (wcol hb r zs ns) e)) := by
  rw [msgsum_apply hN wf2 wg1 wg2 hb hb2 Z _ h c r zs ns i j, hZ]
  have key := GcnLaw.gcn_node (tgt (N := N) (col hb c)) (tgt (N := N) (col hb r)) (src hN (wcol hb r zs ns))
    (src hN (wcol hb c zs ns)) (fun e i' he => src_of_tgt hN hb c zs ns hz e i' he) hself
    (fun n => h (ix2 n j)) i
  beta_reduce at key
  rw [← key]
  congr 1
  refine Finset.sum_congr rfl fun e _ => ?_
  rw [dis_apply wf1 hb z hz0 ones h1 r, dis_apply wf1 hb z hz0 ones h1 r]

/-- The same with the source column the `E` given edge endpoints followed by the iota over the `N` nodes: the
    self-loops make every node a target of the source column. -/
theorem reflayer_apply (hN : 0 < N)
    (wf1 : ScatterDims.WF ⟨1, ![N]⟩ ⟨2, ![M, 1]⟩ ⟨1, ![M]⟩ [] [0] [0] 1)
    (wf2 : ScatterDims.WF ⟨2, ![N, C]⟩ ⟨2, ![M, 1]⟩ ⟨2, ![M, C]⟩ [1] [0] [0] 1)
    (wg1 : GatherDims.WF ⟨1, ![N]⟩ ⟨2, ![M, 1]⟩ ⟨1, ![M]⟩ [] [0] [] [0] [] 1 ![1])
    (wg2 : GatherDims.WF ⟨2, ![N, C]⟩ ⟨2, ![M, 1]⟩ ⟨2, ![M, C]⟩ [1] [0] [] [0] [] 1 ![1, C])
    (hb : (⟨1, ![M]⟩ : Shape).BroadcastsInDim ⟨2, ![M, 1]⟩ ![0])
    (hb2 : (⟨2, ![M, 1]⟩ : Shape).BroadcastsInDim ⟨2, ![M, C]⟩ ![0, 1])
    (z : FVec Ideal ⟨1, ![N]⟩ .f32) (hz0 : ∀ k, z k = 0) (ones : FVec Ideal ⟨1, ![M]⟩ .f32) (h1 : ∀ k, ones k = 1)
    (Z : FVec Ideal ⟨2, ![N, C]⟩ .f32) (hZ : ∀ k, Z k = 0) (h : FVec Ideal ⟨2, ![N, C]⟩ .f32)
    (a : IVec ⟨1, ![E]⟩ 32) (hc : Shape.Concatenates [(⟨1, ![E]⟩ : Shape), ⟨1, ![N]⟩] ⟨1, ![M]⟩ 0) (hM : M = E + N)
    (hN32 : N < 2 ^ 31) (c zs ns : IVec ⟨1, ![M]⟩ 32) (hz : ∀ k, zs k = 0#32) (i : Fin N) (j : Fin C) :
    let r : IVec ⟨1, ![M]⟩ 32 :=
      concatenate ⟨1, ![M]⟩ 0 [⟨⟨1, ![E]⟩, a⟩, ⟨⟨1, ![N]⟩, iotaInDim ⟨1, ![N]⟩ 32 0⟩] hc
    (Host.scatterAdd (rowScatter2 N M C wf2) Z (col hb c)
        (addf (F := Ideal) (φ := .f32) (Host.gather (rowGather2 N M C wg2) h (wcol hb c zs ns))
          (mulf (F := Ideal) (φ := .f32)
            (broadcastInDim ⟨2, ![M, C]⟩ ![0, 1] hb2 (broadcastInDim ⟨2, ![M, 1]⟩ ![0] hb
              (mulf (F := Ideal) (φ := .f32)
                (Host.gather (rowGather1 N M wg1)
                  (Host.rsqrt (Host.scatterAdd (rowScatter1 N M wf1) z (col hb r) ones) : FVec Ideal ⟨1, ![N]⟩ .f32)
                  (wcol hb r zs ns))
                (Host.gather (rowGather1 N M wg1)
                  (Host.rsqrt (Host.scatterAdd (rowScatter1 N M wf1) z (col hb r) ones) : FVec Ideal ⟨1, ![N]⟩ .f32)
                  (wcol hb c zs ns)))))
            (Host.gather (rowGather2 N M C wg2) h (wcol hb r zs ns)))) : FVec Ideal ⟨2, ![N, C]⟩ .f32) (ix2 i j)
      = ((0 : EReal) + ∑ _e ∈ Finset.univ.filter (fun e : Fin M => tgt (N := N) (col hb c) e = some i), (1 : EReal))
          * h (ix2 i j)
        + GcnLaw.gcnDis (tgt (N := N) (col hb r)) i
          * ((0 : EReal) + ∑ e ∈ Finset.univ.filter (fun e : Fin M => tgt (N := N) (col hb c) e = some i),
              h (ix2 (src hN (wcol hb r zs ns) e) j)
                * GcnLaw.gcnDis (tgt (N := N) (col hb r)) (src hN (wcol hb r zs ns) e)) := by
  intro r
  exact reflayer_apply_of_self hN wf1 wf2 wg1 wg2 hb hb2 z hz0 ones h1 Z hZ h c r zs ns hz
    (fun n => ⟨⟨E + n.val, by have := n.isLt; omega⟩, selfloop_tgt hb a hc hM hN32 n⟩) i j

end Idealize.ShloMosaic.GcnLayer

end
-- ==== Proof.GcnSpec.lean ====
/-
  What both programs compute before the final row-wise log-softmax, element by element.

  The graph has `100000` nodes and `1700000` edges (the given ones followed by one self-loop per
  node).  `tc e` and `tr e` are the nodes at which edge `e`'s target and source index land when used as
  a scatter row (nothing when out of range), `sr e` the row a gather through the wrapped, clamped
  source index reads.  A node's degree counts the edges whose source lands on it, its factor is the
  reciprocal square root of the degree, its in-degree counts the edges whose target lands on it.  One
  layer is a linear map `h = x · Wᵀ + b` followed by the aggregation
  `indeg i · h i + dis i · ∑_{e → i} h (sr e) · dis (sr e)`; the network is two layers with a
  lower bound of zero between them.
-/
import proofs.«116146_j27943057227873_1_alg».proof.Proof.LibGcnLaw

noncomputable section

open scoped BigOperators
open Idealize.ShloMosaic Idealize.ShloMosaic.GcnLaw

namespace Cert.GcnSpec

variable (tc tr : Fin 1700000 → Option (Fin 100000)) (sr : Fin 1700000 → Fin 100000)

/-- The number of edges whose target lands on node `i`, counted from zero by ones. -/
def indeg (i : Fin 100000) : EReal := (0 : EReal) + ∑ _e ∈ Finset.univ.filter (fun e => tc e = some i), (1 : EReal)

/-- A linear layer in the `[out, in]` weight layout: row `i` of `x` against row `j` of `w`, plus `b j`. -/
def lin {K C : Nat} (x : Fin 100000 → Fin K → EReal) (w : Fin C → Fin K → EReal) (b : Fin C → EReal) :
    Fin 100000 → Fin C → EReal := fun i j => (∑ k : Fin K, x i k * w j k) + b j

/-- The neighbour sum: over the edges landing on `i`, the source row scaled by the source's factor. -/
def nbsum {C : Nat} (h : Fin 100000 → Fin C → EReal) : Fin 100000 → Fin C → EReal := fun i j =>
  (0 : EReal) + ∑ e ∈ Finset.univ.filter (fun e => tc e = some i), h (sr e) j * gcnDis tr (sr e)

/-- The aggregation of one layer. -/
def agg {C : Nat} (h : Fin 100000 → Fin C → EReal) : Fin 100000 → Fin C → EReal := fun i j =>
  indeg tc i * h i j + gcnDis tr i * nbsum tc tr sr h i j

/-- The two layers, with the lower bound of zero between them. -/
def out (x : Fin 100000 → Fin 128 → EReal) (w1 : Fin 64 → Fin 128 → EReal) (b1 : Fin 64 → EReal)
    (w2 : Fin 128 → Fin 64 → EReal) (b2 : Fin 128 → EReal) : Fin 100000 → Fin 128 → EReal :=
  agg tc tr sr (lin (fun i j => max (agg tc tr sr (lin x w1 b1) i j) 0) w2 b2)

end Cert.GcnSpec

end
-- ==== Proof.KSpec.lean ====
/-
  The kernel program's array before the final log-softmax, element by element, is the specification's two-layer
  network: each host array of the program read at an index is the specification's quantity — the normalising column
  the nodes' factors, the in-degree column the in-degrees, the transposed weights and bias rows the weights and
  biases, the neighbour sum of the pre-scaled rows the specification's neighbour sum — and each layer's combination
  is the specification's aggregation of its linear map.
-/
import proofs.«116146_j27943057227873_1_alg».proof.Proof.KTerms
import proofs.«116146_j27943057227873_1_alg».proof.Proof.LibGcnLayer
import proofs.«116146_j27943057227873_1_alg».proof.Proof.GcnSpec

noncomputable section

open scoped BigOperators
open Idealize.ShloMosaic Idealize.ShloMosaic.TcCoe Idealize.ShloMosaic.ValueIdx
open Idealize.ShloMosaic.GatherRows Idealize.ShloMosaic.ScatterRows Idealize.ShloMosaic.GcnTerms
open Idealize.ShloMosaic.GcnLayer

namespace Cert.KernelIdeal.KVal

open Cert.KernelIdeal Cert.KernelIdeal.Gen

/-! ## The graph's three maps -/

/-- The node at which an edge's target index lands, if any. -/
abbrev tcE (ei : IVec S2x1600000 32) : Fin 1700000 → Option (Fin 100000) :=
  ScatterRows.tgt (N := 100000) (colOf (colVec ei))
/-- The node at which an edge's source index lands, if any. -/
abbrev trE (ei : IVec S2x1600000 32) : Fin 1700000 → Option (Fin 100000) :=
  ScatterRows.tgt (N := 100000) (colOf (rowVec ei))
/-- The row a gather through an edge's wrapped, clamped source index reads. -/
abbrev srE (ei : IVec S2x1600000 32) : Fin 1700000 → Fin 100000 :=
  GatherRows.src (by decide) (wrapCol (rowVec ei))

/-! ## The constant arrays -/

/-- The wrap's zero vector is zero everywhere. -/
theorem zsE_apply (k : S1700000.Idx) : zsE k = 0#32 := by
  unfold zsE
  rw [broadcastInDim_scalar_apply]
  rfl

/-- The per-node zero vector is zero everywhere. -/
theorem zeroN_apply (k : S100000.Idx) : zeroN k = 0 := by
  unfold zeroN
  rw [broadcastInDim_scalar_apply]
  exact Ideal.ofBits_zero_f32

/-- The per-edge ones vector is one everywhere. -/
theorem onesE_apply (k : S1700000.Idx) : onesE k = 1 := by
  unfold onesE
  rw [broadcastInDim_scalar_apply]
  exact Ideal.ofBits_one_f32

/-- The `[100000, 64]` zero array is zero everywhere. -/
theorem zero64_apply (k : S100000x64.Idx) :
    (broadcastInDim S100000x64 ![] bcast_S_S100000x64 (constant (F := Ideal) S_ .f32 0x00000000#32)
      : FVec Ideal S100000x64 .f32) k = 0 := by
  rw [broadcastInDim_scalar_apply]
  exact Ideal.ofBits_zero_f32

/-- The `[100000, 128]` zero array is zero everywhere. -/
theorem zero128_apply (k : S100000x128.Idx) :
    (broadcastInDim S100000x128 ![] bcast_S_S100000x128 (constant (F := Ideal) S_ .f32 0x00000000#32)
      : FVec Ideal S100000x128 .f32) k = 0 := by
  rw [broadcastInDim_scalar_apply]
  exact Ideal.ofBits_zero_f32

/-! ## The two columns -/

/-- The normalising column at node `n` is the node's factor. -/
theorem dis2_apply (ei : IVec S2x1600000 32) (n : Fin 100000) :
    dis2 ei (ix2 n 0) = GcnLaw.gcnDis (trE ei) n := by
  unfold dis2
  rw [column_of_vec]
  unfold disV degV
  exact dis_apply scatter_S100000_S1700000x1_S1700000_n_0_0_1_wf bcast_S1700000_S1700000x1_0 zeroN zeroN_apply
    onesE onesE_apply (rowVec ei) n

/-- The in-degree column at node `n` is the node's in-degree. -/
theorem indeg2_apply (ei : IVec S2x1600000 32) (n : Fin 100000) :
    indeg2 ei (ix2 n 0) = Cert.GcnSpec.indeg (tcE ei) n := by
  unfold indeg2
  rw [column_of_vec]
  unfold indegV
  exact indeg_apply scatter_S100000_S1700000x1_S1700000_n_0_0_1_wf bcast_S1700000_S1700000x1_0 zeroN zeroN_apply
    onesE onesE_apply (colVec ei) n

/-! ## The weights and the biases -/

/-- A vector `[C]` reshaped to the row `[1, C]`, read at `(0, q)`, is the vector's entry `q`. -/
theorem row_of_vec {α : Type} {C : Nat} (hs : (⟨1, ![C]⟩ : Shape).ShapeCasts ⟨2, ![1, C]⟩)
    (v : (⟨1, ![C]⟩ : Shape).Idx → α) (q : Fin C) :
    shapeCast ⟨2, ![1, C]⟩ v hs (ix2 0 q) = v (ix1 q) := by
  refine shapeCast_apply v hs (ix2 0 q) (ix1 q) ?_
  rw [Shape.rowMajor_val_one, Shape.rowMajor_val_two]
  show q.val = 0 * C + q.val
  omega

/-- A matrix `[A, B]` transposed to `[B, A]`, read at `(k, q)`, is the matrix's entry `(q, k)`. -/
theorem transpose2_apply {α : Type} {A B : Nat} (ht : (⟨2, ![A, B]⟩ : Shape).Transposes [1, 0] ⟨2, ![B, A]⟩)
    (w : (⟨2, ![A, B]⟩ : Shape).Idx → α) (k : Fin B) (q : Fin A) :
    transpose ⟨2, ![B, A]⟩ [1, 0] w ht (ix2 k q) = w (ix2 q k) := by
  refine transpose_apply [1, 0] w ht (ix2 k q) (ix2 q k) (fun b => ?_)
  match b with
  | ⟨0, _⟩ => rfl
  | ⟨1, _⟩ => rfl

/-- The first layer's transposed weights at `(k, q)` are the weights at `(q, k)`. -/
theorem wt1_apply (w : FVec Ideal S64x128 .f32) (k : Fin 128) (q : Fin 64) : wt1 w (ix2 k q) = w (ix2 q k) := by
  unfold wt1
  exact transpose2_apply _ w k q

/-- The second layer's transposed weights at `(k, q)` are the weights at `(q, k)`. -/
theorem wt2_apply (w : FVec Ideal S128x64 .f32) (k : Fin 64) (q : Fin 128) : wt2 w (ix2 k q) = w (ix2 q k) := by
  unfold wt2
  exact transpose2_apply _ w k q

/-- The first layer's bias row at `(0, q)` is the bias at `q`. -/
theorem b1r_apply (b : FVec Ideal S64 .f32) (q : Fin 64) : b1r b (ix2 0 q) = b (ix1 q) := by
  unfold b1r
  exact row_of_vec _ b q

/-- The second layer's bias row at `(0, q)` is the bias at `q`. -/
theorem b2r_apply (b : FVec Ideal S128 .f32) (q : Fin 128) : b2r b (ix2 0 q) = b (ix1 q) := by
  unfold b2r
  exact row_of_vec _ b q

/-! ## The linear maps -/

/-- The first region's linear map over the transposed weights and the bias row is the specification's linear
    layer. -/
theorem lin64_spec (X : FVec Ideal S100000x128 .f32) (w : FVec Ideal S64x128 .f32) (b : FVec Ideal S64 .f32)
    (i : Fin 100000) (q : Fin 64) :
    lin64 X (wt1 w) (b1r b) (ix2 i q)
      = Cert.GcnSpec.lin (fun n k => X (ix2 n k)) (fun j k => w (ix2 j k)) (fun j => b (ix1 j)) i q := by
  show (∑ k : Fin 128, X (ix2 i k) * wt1 w (ix2 k q)) + b1r b (ix2 0 q)
    = (∑ k : Fin 128, X (ix2 i k) * w (ix2 q k)) + b (ix1 q)
  rw [b1r_apply]
  congr 1
  exact Finset.sum_congr rfl fun k _ => by rw [wt1_apply]

/-- The third region's linear map over the transposed weights and the bias row is the specification's linear
    layer. -/
theorem lin128_spec (X : FVec Ideal S100000x64 .f32) (w : FVec Ideal S128x64 .f32) (b : FVec Ideal S128 .f32)
    (i : Fin 100000) (q : Fin 128) :
    lin128 X (wt2 w) (b2r b) (ix2 i q)
      = Cert.GcnSpec.lin (fun n k => X (ix2 n k)) (fun j k => w (ix2 j k)) (fun j => b (ix1 j)) i q := by
  show (∑ k : Fin 64, X (ix2 i k) * wt2 w (ix2 k q)) + b2r b (ix2 0 q)
    = (∑ k : Fin 64, X (ix2 i k) * w (ix2 q k)) + b (ix1 q)
  rw [b2r_apply]
  congr 1
  exact Finset.sum_congr rfl fun k _ => by rw [wt2_apply]

/-! ## The neighbour sums -/

/-- The neighbour sum of the rows pre-scaled by the normalising column is the specification's neighbour sum, at
    width 64. -/
theorem nb64_spec (ei : IVec S2x1600000 32) (H : FVec Ideal S100000x64 .f32) (i : Fin 100000) (q : Fin 64) :
    nb64 ei (scale64 H (dis2 ei)) (ix2 i q)
      = Cert.GcnSpec.nbsum (tcE ei) (trE ei) (srE ei) (fun n k => H (ix2 n k)) i q := by
  unfold nb64 nbOf64 scale64
  exact nbsum_scaled_apply (by decide) scatter_S100000x64_S1700000x1_S1700000x64_1_0_0_1_wf
    gather_S100000x64_S1700000x1_S1700000x64_1_0_n_n_0_1_164_wf bcast_S1700000_S1700000x1_0 _ zero64_apply H
    (dis2 ei) (colVec ei) (rowVec ei) zsE nsE (dis2_apply ei) i q

/-- The neighbour sum of the rows pre-scaled by the normalising column is the specification's neighbour sum, at
    width 128. -/
theorem nb128_spec (ei : IVec S2x1600000 32) (H : FVec Ideal S100000x128 .f32) (i : Fin 100000) (q : Fin 128) :
    nb128 ei (scale128 H (dis2 ei)) (ix2 i q)
      = Cert.GcnSpec.nbsum (tcE ei) (trE ei) (srE ei) (fun n k => H (ix2 n k)) i q := by
  unfold nb128 nbOf128 scale128
  exact nbsum_scaled_apply (by decide) scatter_S100000x128_S1700000x1_S1700000x128_1_0_0_1_wf
    gather_S100000x128_S1700000x1_S1700000x128_1_0_n_n_0_1_1128_wf bcast_S1700000_S1700000x1_0 _ zero128_apply H
    (dis2 ei) (colVec ei) (rowVec ei) zsE nsE (dis2_apply ei) i q

/-! ## The two layers -/

/-- The first layer over an arbitrary input: the combination of its linear map with the neighbour sum of the
    pre-scaled linear map is the specification's aggregation of the linear layer, bounded below by zero. -/
theorem layer64_spec (ei : IVec S2x1600000 32) (X : FVec Ideal S100000x128 .f32) (w : FVec Ideal S64x128 .f32)
    (b : FVec Ideal S64 .f32) (i : Fin 100000) (q : Fin 64) :
    comb64 (lin64 X (wt1 w) (b1r b)) (nb64 ei (scale64 (lin64 X (wt1 w) (b1r b)) (dis2 ei))) (indeg2 ei) (dis2 ei)
        (ix2 i q)
      = max (Cert.GcnSpec.agg (tcE ei) (trE ei) (srE ei)
          (Cert.GcnSpec.lin (fun n k => X (ix2 n k)) (fun j k => w (ix2 j k)) (fun j => b (ix1 j))) i q) 0 := by
  show max (indeg2 ei (ix2 i 0) * lin64 X (wt1 w) (b1r b) (ix2 i q)
      + dis2 ei (ix2 i 0) * nb64 ei (scale64 (lin64 X (wt1 w) (b1r b)) (dis2 ei)) (ix2 i q)) 0 = _
  have hl : (fun n k => lin64 X (wt1 w) (b1r b) (ix2 n k))
      = Cert.GcnSpec.lin (fun n k => X (ix2 n k)) (fun j k => w (ix2 j k)) (fun j => b (ix1 j)) :=
    funext fun n => funext fun k => lin64_spec X w b n k
  rw [indeg2_apply, dis2_apply, nb64_spec, hl, lin64_spec]
  rfl

/-- The second layer over an arbitrary input: the combination of its linear map with the neighbour sum of the
    pre-scaled linear map is the specification's aggregation of the linear layer. -/
theorem layer128_spec (ei : IVec S2x1600000 32) (X : FVec Ideal S100000x64 .f32) (w : FVec Ideal S128x64 .f32)
    (b : FVec Ideal S128 .f32) (i : Fin 100000) (q : Fin 128) :
    comb128 (lin128 X (wt2 w) (b2r b)) (nb128 ei (scale128 (lin128 X (wt2 w) (b2r b)) (dis2 ei))) (indeg2 ei)
        (dis2 ei) (ix2 i q)
      = Cert.GcnSpec.agg (tcE ei) (trE ei) (srE ei)
          (Cert.GcnSpec.lin (fun n k => X (ix2 n k)) (fun j k => w (ix2 j k)) (fun j => b (ix1 j))) i q := by
  show indeg2 ei (ix2 i 0) * lin128 X (wt2 w) (b2r b) (ix2 i q)
      + dis2 ei (ix2 i 0) * nb128 ei (scale128 (lin128 X (wt2 w) (b2r b)) (dis2 ei)) (ix2 i q) = _
  have hl : (fun n k => lin128 X (wt2 w) (b2r b) (ix2 n k))
      = Cert.GcnSpec.lin (fun n k => X (ix2 n k)) (fun j k => w (ix2 j k)) (fun j => b (ix1 j)) :=
    funext fun n => funext fun k => lin128_spec X w b n k
  rw [indeg2_apply, dis2_apply, nb128_spec, hl, lin128_spec]
  rfl

/-- The first layer's output array at `(i, q)`. -/
theorem layer1_spec (x : FVec Ideal S100000x128 .f32) (ei : IVec S2x1600000 32) (w1 : FVec Ideal S64x128 .f32)
    (b1 : FVec Ideal S64 .f32) (i : Fin 100000) (q : Fin 64) :
    layer1 x ei w1 b1 (ix2 i q)
      = max (Cert.GcnSpec.agg (tcE ei) (trE ei) (srE ei)
          (Cert.GcnSpec.lin (fun n k => x (ix2 n k)) (fun j k => w1 (ix2 j k)) (fun j => b1 (ix1 j))) i q) 0 := by
  unfold layer1
  exact layer64_spec ei x w1 b1 i q

/-! ## The network -/

/-- THE ARRAY BEFORE THE LOG-SOFTMAX IS THE SPECIFICATION'S NETWORK, element by element. -/
theorem preK_spec (x : FVec Ideal S100000x128 .f32) (ei : IVec S2x1600000 32) (w1 : FVec Ideal S64x128 .f32)
    (b1 : FVec Ideal S64 .f32) (w2 : FVec Ideal S128x64 .f32) (b2 : FVec Ideal S128 .f32) (i : Fin 100000)
    (j : Fin 128) :
    preK x ei w1 b1 w2 b2 (ix2 i j)
      = Cert.GcnSpec.out (ScatterRows.tgt (N := 100000) (colOf (colVec ei)))
          (ScatterRows.tgt (N := 100000) (colOf (rowVec ei))) (GatherRows.src (by decide) (wrapCol (rowVec ei)))
          (fun i k => x (ix2 i k)) (fun j k => w1 (ix2 j k)) (fun j => b1 (ix1 j)) (fun j k => w2 (ix2 j k))
          (fun j => b2 (ix1 j)) i j := by
  unfold preK
  rw [layer128_spec ei (layer1 x ei w1 b1) w2 b2 i j]
  have h1 : (fun n k => layer1 x ei w1 b1 (ix2 n k))
      = fun n k => max (Cert.GcnSpec.agg (tcE ei) (trE ei) (srE ei)
          (Cert.GcnSpec.lin (fun n k => x (ix2 n k)) (fun j k => w1 (ix2 j k)) (fun j => b1 (ix1 j))) n k) 0 :=
    funext fun n => funext fun k => layer1_spec x ei w1 b1 n k
  rw [h1]
  rfl

end Cert.KernelIdeal.KVal

end
-- ==== Proof.RefValue.lean ====
/-
  THE REFERENCE PROGRAM'S RESULT, READ IN STAGES.

  The reference is a straight line of 142 host operations: two graph-convolution layers with a lower bound of zero
  between them, then a row-wise log-softmax. Its operations are cut into four consecutive stages — the first layer, the
  lower bound, the second layer, the log-softmax — and each stage's result buffer is read as a named function of the
  buffers the stage takes in, so that no composed term repeats a shared intermediate. Composing the stages, the
  program's result is the log-softmax of an array `A`, and `A`, element by element, is the two-layer specification
  applied to the arguments.
-/
import proofs.«116146_j27943057227873_1_alg».proof.Proof.RefRun
import proofs.«116146_j27943057227873_1_alg».proof.Proof.LibGcnLayer
import proofs.«116146_j27943057227873_1_alg».proof.Proof.GcnSpec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx

/-! ## The fold over a concatenation -/

/-- The contents after two lines run one after the other are the second line's after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## The stages' terms, at the ideal values -/

/-- An f32 array of a shape, at the ideal values. -/
abbrev CF (S : Shape) : Type := FVec Ideal S .f32
/-- An i32 array of a shape. -/
abbrev CI (S : Shape) : Type := IVec S 32

/-- Row 0 of the edge array as a vector: the edges' sources. -/
def erow0 (ei : CI S2x1600000) : CI S1600000 :=
  shapeCast _ (extractStridedSlice S1x1600000 ![0, 0] ei slices_S2x1600000_S1x1600000_0_0) shapeCasts_S1x1600000_S1600000
/-- Row 1 of the edge array as a vector: the edges' targets. -/
def erow1 (ei : CI S2x1600000) : CI S1600000 :=
  shapeCast _ (extractStridedSlice S1x1600000 ![1, 0] ei slices_S2x1600000_S1x1600000_1_0) shapeCasts_S1x1600000_S1600000
/-- An endpoint vector followed by one self-loop per node. -/
def withLoops (e : CI S1600000) : CI S1700000 :=
  concatenate S1700000 0 [⟨S1600000, e⟩, ⟨S100000, (iotaInDim S100000 32 0)⟩] concatenates_S1600000_S100000_S1700000_d0
/-- The source index vector. -/
def rvec (ei : CI S2x1600000) : CI S1700000 := withLoops (erow0 ei)
/-- The target index vector. -/
def cvec (ei : CI S2x1600000) : CI S1700000 := withLoops (erow1 ei)
/-- The index vector of zeros. -/
def zs : CI S1700000 := broadcastInDim S1700000 ![] bcast_S_S1700000 (constantI S_ 32 0#32)
/-- The index vector of node counts. -/
def ns : CI S1700000 := broadcastInDim S1700000 ![] bcast_S_S1700000 (constantI S_ 32 100000#32)
/-- One per edge. -/
def ones : CF S1700000 := broadcastInDim S1700000 ![] bcast_S_S1700000 (constant S_ .f32 0x3F800000#32)
/-- Zero per node. -/
def z1 : CF S100000 := broadcastInDim S100000 ![] bcast_S_S100000 (constant S_ .f32 0x00000000#32)
/-- An index vector as the column a scatter takes. -/
def cl (v : CI S1700000) : CI S1700000x1 := broadcastInDim S1700000x1 ![0] bcast_S1700000_S1700000x1_0 v
/-- An index vector, negative entries wrapped, as the column a gather takes. -/
def wc (v : CI S1700000) : CI S1700000x1 :=
  broadcastInDim S1700000x1 ![0] bcast_S1700000_S1700000x1_0 (select (cmpi .slt v zs) (addi v ns) v)
/-- The nodes' normalisers: the reciprocal square root of the scatter-added count of ones along the sources. -/
def dis (r : CI S1700000) : CF S100000 :=
  Host.rsqrt (Host.scatterAdd scatter_S100000_S1700000x1_S1700000_n_0_0_1 z1 (cl r) ones)
/-- The first layer's linear part. -/
def lin1 (x : CF S100000x128) (w : CF S64x128) (b : CF S64) : CF S100000x64 :=
  addf (Host.dotGeneral dot_S100000x128_S128x64_S100000x64_1_0_0_1_n_n none x (transpose S128x64 [1, 0] w transposes_S64x128_S128x64_1_0))
    (broadcastInDim S100000x64 ![0, 1] bcast_S1x64_S100000x64_0_1 (broadcastInDim S1x64 ![1] bcast_S64_S1x64_1 b))
/-- The first layer's aggregation: the messages scatter-added into zeros along the targets. -/
def layer1 (h : CF S100000x64) (r c : CI S1700000) : CF S100000x64 :=
  Host.scatterAdd scatter_S100000x64_S1700000x1_S1700000x64_1_0_0_1
    (broadcastInDim S100000x64 ![] bcast_S_S100000x64 (constant S_ .f32 0x00000000#32)) (cl c)
    (addf (Host.gather gather_S100000x64_S1700000x1_S1700000x64_1_0_n_n_0_1_164 h (wc c))
      (mulf (broadcastInDim S1700000x64 ![0, 1] bcast_S1700000x1_S1700000x64_0_1
          (broadcastInDim S1700000x1 ![0] bcast_S1700000_S1700000x1_0
            (mulf (Host.gather gather_S100000_S1700000x1_S1700000_n_0_n_n_0_1_1 (dis r) (wc r))
              (Host.gather gather_S100000_S1700000x1_S1700000_n_0_n_n_0_1_1 (dis r) (wc c)))))
        (Host.gather gather_S100000x64_S1700000x1_S1700000x64_1_0_n_n_0_1_164 h (wc r))))
/-- The lower bound of zero. -/
def relu (a : CF S100000x64) : CF S100000x64 :=
  maximumf a (broadcastInDim S100000x64 ![] bcast_S_S100000x64 (constant S_ .f32 0x00000000#32))
/-- The second layer's linear part. -/
def lin2 (x : CF S100000x64) (w : CF S128x64) (b : CF S128) : CF S100000x128 :=
  addf (Host.dotGeneral dot_S100000x64_S64x128_S100000x128_1_0_0_1_n_n none x (transpose S64x128 [1, 0] w transposes_S128x64_S64x128_1_0))
    (broadcastInDim S100000x128 ![0, 1] bcast_S1x128_S100000x128_0_1 (broadcastInDim S1x128 ![1] bcast_S128_S1x128_1 b))
/-- The second layer's aggregation. -/
def layer2 (h : CF S100000x128) (r c : CI S1700000) : CF S100000x128 :=
  Host.scatterAdd scatter_S100000x128_S1700000x1_S1700000x128_1_0_0_1
    (broadcastInDim S100000x128 ![] bcast_S_S100000x128 (constant S_ .f32 0x00000000#32)) (cl c)
    (addf (Host.gather gather_S100000x128_S1700000x1_S1700000x128_1_0_n_n_0_1_1128 h (wc c))
      (mulf (broadcastInDim S1700000x128 ![0, 1] bcast_S1700000x1_S1700000x128_0_1
          (broadcastInDim S1700000x1 ![0] bcast_S1700000_S1700000x1_0
            (mulf (Host.gather gather_S100000_S1700000x1_S1700000_n_0_n_n_0_1_1 (dis r) (wc r))
              (Host.gather gather_S100000_S1700000x1_S1700000_n_0_n_n_0_1_1 (dis r) (wc c)))))
        (Host.gather gather_S100000x128_S1700000x1_S1700000x128_1_0_n_n_0_1_1128 h (wc r))))
/-- The log-softmax's shifted rows: each row minus its maximum. -/
def lsmShift (a : CF S100000x128) : CF S100000x128 :=
  subf a (broadcastInDim S100000x128 ![0, 1] bcast_S100000x1_S100000x128_0_1
    (broadcastInDim S100000x1 ![0] bcast_S100000_S100000x1_0
      (maximumf (broadcastInDim S100000 ![] bcast_S_S100000 (constant S_ .f32 0xFF800000#32))
        (Host.reduce FloatOps.maximumf a (constant S_ .f32 0xFF800000#32) reducesTo_S100000x128_S100000_d1 h_S_))))
/-- THE ROW-WISE LOG-SOFTMAX, as the program computes it: the shifted rows minus the logarithm of the row sums of
    their exponentials. -/
def lsm (a : CF S100000x128) : CF S100000x128 :=
  subf (lsmShift a) (broadcastInDim S100000x128 ![0, 1] bcast_S100000x1_S100000x128_0_1
    (Host.log (broadcastInDim S100000x1 ![0] bcast_S100000_S100000x1_0
      (Host.reduceAdd (Host.exp (lsmShift a)) (constant S_ .f32 0x00000000#32) reducesTo_S100000x128_S100000_d1 h_S_))))

/-! ## The stages -/

section Stages
variable {F : FTy → Type} [FloatOps F]

/-- The first layer: the operations up to its scatter. -/
abbrev P1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg2 main_v4 ((transpose S128x64 [1, 0] · transposes_S64x128_S128x64_1_0) : (⟨S64x128, .f32⟩ : BufTy).Contents (Elt F) → (⟨S128x64, .f32⟩ : BufTy).Contents (Elt F)),
    binary main_arg0 main_v4 main_v5 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v6 (broadcastInDim S1x64 ![1] bcast_S64_S1x64_1 : (⟨S64, .f32⟩ : BufTy).Contents (Elt F) → (⟨S1x64, .f32⟩ : BufTy).Contents (Elt F)),
    unary main_v6 main_v7 (broadcastInDim S100000x64 ![0, 1] bcast_S1x64_S100000x64_0_1 : (⟨S1x64, .f32⟩ : BufTy).Contents (Elt F) → (⟨S100000x64, .f32⟩ : BufTy).Contents (Elt F)),
    binary main_v5 main_v7 main_v8 (addf : (⟨S100000x64, .f32⟩ : BufTy).Contents (Elt F) → (⟨S100000x64, .f32⟩ : BufTy).Contents (Elt F) → (⟨S100000x64, .f32⟩ : BufTy).Contents (Elt F)),
    nullary main_v9 (iotaInDim S100000 32 0),
    binary main_v1 main_v9 main_v10 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v9 main_v11 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v12 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v13 (broadcastInDim S100000 ![] bcast_S_S100000 : (⟨S_, .f32⟩ : BufTy).Contents (Elt F) → (⟨S100000, .f32⟩ : BufTy).Contents (Elt F)),
    unary main_v10 main_v14 (broadcastInDim S1700000x1 ![0] bcast_S1700000_S1700000x1_0 : (⟨S1700000, .i32⟩ : BufTy).Contents (Elt F) → (⟨S1700000x1, .i32⟩ : BufTy).Contents (Elt F)),
    ternary main_v13 main_v14 main_v12 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v10 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v19 (broadcastInDim S1700000 ![] bcast_S_S1700000 : (⟨S_, .i32⟩ : BufTy).Contents (Elt F) → (⟨S1700000, .i32⟩ : BufTy).Contents (Elt F)),
    binary main_v10 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v10 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v24 (broadcastInDim S1700000 ![] bcast_S_S1700000 : (⟨S_, .i32⟩ : BufTy).Contents (Elt F) → (⟨S1700000, .i32⟩ : BufTy).Contents (Elt F)),
    binary main_v11 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v26 (broadcastInDim S1700000 ![] bcast_S_S1700000 : (⟨S_, .i32⟩ : BufTy).Contents (Elt F) → (⟨S1700000, .i32⟩ : BufTy).Contents (Elt F)),
    binary main_v11 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v11 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v32 (broadcastInDim S1700000 ![] bcast_S_S1700000 : (⟨S_, .i32⟩ : BufTy).Contents (Elt F) → (⟨S1700000, .i32⟩ : BufTy).Contents (Elt F)),
    binary main_v11 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v34 (broadcastInDim S1700000 ![] bcast_S_S1700000 : (⟨S_, .i32⟩ : BufTy).Contents (Elt F) → (⟨S1700000, .i32⟩ : BufTy).Contents (Elt F)),
    binary main_v11 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v11 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v8 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v39 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v40 (broadcastInDim S1700000 ![] bcast_S_S1700000 : (⟨S_, .i32⟩ : BufTy).Contents (Elt F) → (⟨S1700000, .i32⟩ : BufTy).Contents (Elt F)),
    binary main_v10 main_v40 main_v41 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v42 (broadcastInDim S1700000 ![] bcast_S_S1700000 : (⟨S_, .i32⟩ : BufTy).Contents (Elt F) → (⟨S1700000, .i32⟩ : BufTy).Contents (Elt F)),
    binary main_v10 main_v42 main_v43 (addi : (⟨S1700000, .i32⟩ : BufTy).Contents (Elt F) → (⟨S1700000, .i32⟩ : BufTy).Contents (Elt F) → (⟨S1700000, .i32⟩ : BufTy).Contents (Elt F)),
    ternary main_v41 main_v43 main_v10 main_v44 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v44 main_v45 (broadcastInDim S1700000x1 ![0] bcast_S1700000_S1700000x1_0 : (⟨S1700000, .i32⟩ : BufTy).Contents (Elt F) → (⟨S1700000x1, .i32⟩ : BufTy).Contents (Elt F)),
    binary main_v8 main_v45 main_v46 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v39 main_v47 (broadcastInDim S1700000x64 ![0, 1] bcast_S1700000x1_S1700000x64_0_1 : (⟨S1700000x1, .f32⟩ : BufTy).Contents (Elt F) → (⟨S1700000x64, .f32⟩ : BufTy).Contents (Elt F)),
    binary main_v47 main_v46 main_v48 (mulf : (⟨S1700000x64, .f32⟩ : BufTy).Contents (Elt F) → (⟨S1700000x64, .f32⟩ : BufTy).Contents (Elt F) → (⟨S1700000x64, .f32⟩ : BufTy).Contents (Elt F)),
    binary main_v38 main_v48 main_v49 (addf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v50 (broadcastInDim S100000x64 ![] bcast_S_S100000x64 : (⟨S_, .f32⟩ : BufTy).Contents (Elt F) → (⟨S100000x64, .f32⟩ : BufTy).Contents (Elt F)),
    unary main_v11 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
/-- The lower bound of zero: the operations of the called function. -/
abbrev Pr : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v52) (TRef.of (T := ⟨S100000x64, .f32⟩) main_call0_v0) (TRef.of (T := ⟨S100000x64, .f32⟩) main_v53) maximumf ]
/-- The second layer: the operations up to its scatter. -/
abbrev P2 : List (HloOp τ sig (Elt F)) :=
  [ unary main_arg4 main_v54 ((transpose S64x128 [1, 0] · transposes_S128x64_S64x128_1_0) : (⟨S128x64, .f32⟩ : BufTy).Contents (Elt F) → (⟨S64x128, .f32⟩ : BufTy).Contents (Elt F)),
    binary main_v53 main_v54 main_v55 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg5 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)),
    nullary main_v59 (iotaInDim S100000 32 0),
    binary main_v1 main_v59 main_v60 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v59 main_v61 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v62 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v63 (broadcastInDim S100000 ![] bcast_S_S100000 : (⟨S_, .f32⟩ : BufTy).Contents (Elt F) → (⟨S100000, .f32⟩ : BufTy).Contents (Elt F)),
    unary main_v60 main_v64 (broadcastInDim S1700000x1 ![0] bcast_S1700000_S1700000x1_0 : (⟨S1700000, .i32⟩ : BufTy).Contents (Elt F) → (⟨S1700000x1, .i32⟩ : BufTy).Contents (Elt F)),
    ternary main_v63 main_v64 main_v62 main_v65 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v65 main_v66 (Host.rsqrt : (⟨S100000, .f32⟩ : BufTy).Contents (Elt F) → (⟨S100000, .f32⟩ : BufTy).Contents (Elt F)),
    nullary main_c_11 (constantI S_ 32 0#32),
    unary main_c_11 main_v67 (broadcastInDim S1700000 ![] bcast_S_S1700000 : (⟨S_, .i32⟩ : BufTy).Contents (Elt F) → (⟨S1700000, .i32⟩ : BufTy).Contents (Elt F)),
    binary main_v60 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v69 (broadcastInDim S1700000 ![] bcast_S_S1700000 : (⟨S_, .i32⟩ : BufTy).Contents (Elt F) → (⟨S1700000, .i32⟩ : BufTy).Contents (Elt F)),
    binary main_v60 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v60 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_13 (constantI S_ 32 0#32),
    unary main_c_13 main_v74 (broadcastInDim S1700000 ![] bcast_S_S1700000 : (⟨S_, .i32⟩ : BufTy).Contents (Elt F) → (⟨S1700000, .i32⟩ : BufTy).Contents (Elt F)),
    binary main_v61 main_v74 main_v75 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v76 (broadcastInDim S1700000 ![] bcast_S_S1700000 : (⟨S_, .i32⟩ : BufTy).Contents (Elt F) → (⟨S1700000, .i32⟩ : BufTy).Contents (Elt F)),
    binary main_v61 main_v76 main_v77 (addi : (⟨S1700000, .i32⟩ : BufTy).Contents (Elt F) → (⟨S1700000, .i32⟩ : BufTy).Contents (Elt F) → (⟨S1700000, .i32⟩ : BufTy).Contents (Elt F)),
    ternary main_v75 main_v77 main_v61 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v78 main_v79 (broadcastInDim S1700000x1 ![0] bcast_S1700000_S1700000x1_0 : (⟨S1700000, .i32⟩ : BufTy).Contents (Elt F) → (⟨S1700000x1, .i32⟩ : BufTy).Contents (Elt F)),
    binary main_v66 main_v79 main_v80 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v73 main_v80 main_v81 (mulf : (⟨S1700000, .f32⟩ : BufTy).Contents (Elt F) → (⟨S1700000, .f32⟩ : BufTy).Contents (Elt F) → (⟨S1700000, .f32⟩ : BufTy).Contents (Elt F)),
    nullary main_c_15 (constantI S_ 32 0#32),
    unary main_c_15 main_v82 (broadcastInDim S1700000 ![] bcast_S_S1700000 : (⟨S_, .i32⟩ : BufTy).Contents (Elt F) → (⟨S1700000, .i32⟩ : BufTy).Contents (Elt F)),
    binary main_v61 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v84 (broadcastInDim S1700000 ![] bcast_S_S1700000 : (⟨S_, .i32⟩ : BufTy).Contents (Elt F) → (⟨S1700000, .i32⟩ : BufTy).Contents (Elt F)),
    binary main_v61 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v61 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v58 main_v87 main_v88 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v81 main_v89 (broadcastInDim S1700000x1 ![0] bcast_S1700000_S1700000x1_0 : (⟨S1700000, .f32⟩ : BufTy).Contents (Elt F) → (⟨S1700000x1, .f32⟩ : BufTy).Contents (Elt F)),
    nullary main_c_17 (constantI S_ 32 0#32),
    unary main_c_17 main_v90 (broadcastInDim S1700000 ![] bcast_S_S1700000 : (⟨S_, .i32⟩ : BufTy).Contents (Elt F) → (⟨S1700000, .i32⟩ : BufTy).Contents (Elt F)),
    binary main_v60 main_v90 main_v91 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v92 (broadcastInDim S1700000 ![] bcast_S_S1700000 : (⟨S_, .i32⟩ : BufTy).Contents (Elt F) → (⟨S1700000, .i32⟩ : BufTy).Contents (Elt F)),
    binary main_v60 main_v92 main_v93 (addi : (⟨S1700000, .i32⟩ : BufTy).Contents (Elt F) → (⟨S1700000, .i32⟩ : BufTy).Contents (Elt F) → (⟨S1700000, .i32⟩ : BufTy).Contents (Elt F)),
    ternary main_v91 main_v93 main_v60 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v94 main_v95 (broadcastInDim S1700000x1 ![0] bcast_S1700000_S1700000x1_0 : (⟨S1700000, .i32⟩ : BufTy).Contents (Elt F) → (⟨S1700000x1, .i32⟩ : BufTy).Contents (Elt F)),
    binary main_v58 main_v95 main_v96 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v89 main_v97 (broadcastInDim S1700000x128 ![0, 1] bcast_S1700000x1_S1700000x128_0_1 : (⟨S1700000x1, .f32⟩ : BufTy).Contents (Elt F) → (⟨S1700000x128, .f32⟩ : BufTy).Contents (Elt F)),
    binary main_v97 main_v96 main_v98 (mulf : (⟨S1700000x128, .f32⟩ : BufTy).Contents (Elt F) → (⟨S1700000x128, .f32⟩ : BufTy).Contents (Elt F) → (⟨S1700000x128, .f32⟩ : BufTy).Contents (Elt F)),
    binary main_v88 main_v98 main_v99 (addf : (⟨S1700000x128, .f32⟩ : BufTy).Contents (Elt F) → (⟨S1700000x128, .f32⟩ : BufTy).Contents (Elt F) → (⟨S1700000x128, .f32⟩ : BufTy).Contents (Elt F)),
    nullary main_cst_19 (constant S_ .f32 0x00000000#32),
    unary main_cst_19 main_v100 (broadcastInDim S100000x128 ![] bcast_S_S100000x128 : (⟨S_, .f32⟩ : BufTy).Contents (Elt F) → (⟨S100000x128, .f32⟩ : BufTy).Contents (Elt F)),
    unary main_v61 main_v101 (broadcastInDim S1700000x1 ![0] bcast_S1700000_S1700000x1_0 : (⟨S1700000, .i32⟩ : BufTy).Contents (Elt F) → (⟨S1700000x1, .i32⟩ : BufTy).Contents (Elt F)),
    ternary main_v100 main_v101 main_v99 main_v102 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The log-softmax: the operations of the called function. -/
abbrev P3 : List (HloOp τ sig (Elt F)) :=
  [ TRef.nullary (TRef.of (T := ⟨S_, .f32⟩) main_call1_cst) (constant S_ .f32 0xFF800000#32),
    TRef.binary (TRef.of (T := ⟨S100000x128, .f32⟩) main_v102) (TRef.of (T := ⟨S_, .f32⟩) main_call1_cst) (TRef.of (T := ⟨S100000, .f32⟩) main_call1_v0) (fun x v => Host.reduce FloatOps.maximumf x v reducesTo_S100000x128_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x128, .f32⟩) main_call1_v4) (broadcastInDim S100000x128 ![0, 1] bcast_S100000x1_S100000x128_0_1),
    TRef.binary (TRef.of (T := ⟨S100000x128, .f32⟩) main_v102) (TRef.of (T := ⟨S100000x128, .f32⟩) main_call1_v4) (TRef.of (T := ⟨S100000x128, .f32⟩) main_call1_v5) subf,
    TRef.unary (TRef.of (T := ⟨S100000x128, .f32⟩) main_call1_v5) (TRef.of (T := ⟨S100000x128, .f32⟩) main_call1_v6) Host.exp,
    TRef.nullary (TRef.of (T := ⟨S_, .f32⟩) main_call1_cst_1) (constant S_ .f32 0x00000000#32),
    TRef.binary (TRef.of (T := ⟨S100000x128, .f32⟩) main_call1_v6) (TRef.of (T := ⟨S_, .f32⟩) main_call1_cst_1) (TRef.of (T := ⟨S100000, .f32⟩) main_call1_v7) (fun x v => Host.reduceAdd x v reducesTo_S100000x128_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x128, .f32⟩) main_call1_v10) (broadcastInDim S100000x128 ![0, 1] bcast_S100000x1_S100000x128_0_1),
    TRef.binary (TRef.of (T := ⟨S100000x128, .f32⟩) main_call1_v5) (TRef.of (T := ⟨S100000x128, .f32⟩) main_call1_v10) (TRef.of (T := ⟨S100000x128, .f32⟩) main_v103) subf ]

end Stages

/-- Contents carried to a buffer's type and back are unchanged. -/
theorem ofBuf_toBuf {Val : EltTy → Type} {T : BufTy} (x : TRef sig T) (v : T.Contents Val) : x.ofBuf (x.toBuf v) = v := by
  obtain ⟨r, rfl, _, _⟩ := x
  rfl

/-! ## Each stage's result, as a function of what the stage takes in -/

section Read
variable (V : Valuation τ sig (Elt Ideal))

set_option maxRecDepth 8192 in
set_option maxHeartbeats 8000000 in
/-- The log-softmax stage's result is the log-softmax of the second layer's result buffer. -/
theorem st3_v103 : after (P3 (F := Ideal)) V (Proc.devRef .tc main_v103) = lsm (V (Proc.devRef .tc main_v102)) := by
  after_results_simp
  simp only [ofBuf_toBuf]
  rfl

set_option maxRecDepth 8192 in
set_option maxHeartbeats 8000000 in
/-- The lower-bound stage's result is the bound applied to the first layer's result buffer. -/
theorem str_v53 : after (Pr (F := Ideal)) V (Proc.devRef .tc main_v53) = relu (V (Proc.devRef .tc main_v52)) := by
  after_results_simp <;> rfl

set_option maxRecDepth 8192 in
set_option maxHeartbeats 8000000 in
/-- The lower-bound stage does not write `main_v1`. -/
theorem str_v1 : after (Pr (F := Ideal)) V (Proc.devRef .tc main_v1) = V (Proc.devRef .tc main_v1) := by
  after_results_simp <;> rfl

set_option maxRecDepth 8192 in
set_option maxHeartbeats 8000000 in
/-- The lower-bound stage does not write `main_v3`. -/
theorem str_v3 : after (Pr (F := Ideal)) V (Proc.devRef .tc main_v3) = V (Proc.devRef .tc main_v3) := by
  after_results_simp <;> rfl

set_option maxRecDepth 8192 in
set_option maxHeartbeats 8000000 in
/-- The lower-bound stage does not write `main_arg4`. -/
theorem str_a4 : after (Pr (F := Ideal)) V (Proc.devRef .tc main_arg4) = V (Proc.devRef .tc main_arg4) := by
  after_results_simp <;> rfl

set_option maxRecDepth 8192 in
set_option maxHeartbeats 8000000 in
/-- The lower-bound stage does not write `main_arg5`. -/
theorem str_a5 : after (Pr (F := Ideal)) V (Proc.devRef .tc main_arg5) = V (Proc.devRef .tc main_arg5) := by
  after_results_simp <;> rfl

set_option maxRecDepth 8192 in
set_option maxHeartbeats 16000000 in
/-- The first stage's result is the first layer's aggregation of its linear part, along the index vectors read off the
    edge array. -/
theorem st1_v52 : after (P1 (F := Ideal)) V (Proc.devRef .tc main_v52)
    = layer1 (lin1 (V (Proc.devRef .tc main_arg0)) (V (Proc.devRef .tc main_arg2)) (V (Proc.devRef .tc main_arg3)))
        (rvec (V (Proc.devRef .tc main_arg1))) (cvec (V (Proc.devRef .tc main_arg1))) := by
  after_results_simp <;> rfl

set_option maxRecDepth 8192 in
set_option maxHeartbeats 8000000 in
/-- The first stage leaves the edges' sources in `main_v1`. -/
theorem st1_v1 : after (P1 (F := Ideal)) V (Proc.devRef .tc main_v1) = erow0 (V (Proc.devRef .tc main_arg1)) := by
  after_results_simp <;> rfl

set_option maxRecDepth 8192 in
set_option maxHeartbeats 8000000 in
/-- The first stage leaves the edges' targets in `main_v3`. -/
theorem st1_v3 : after (P1 (F := Ideal)) V (Proc.devRef .tc main_v3) = erow1 (V (Proc.devRef .tc main_arg1)) := by
  after_results_simp <;> rfl

set_option maxRecDepth 8192 in
set_option maxHeartbeats 8000000 in
/-- The first stage does not write `main_arg4`. -/
theorem st1_a4 : after (P1 (F := Ideal)) V (Proc.devRef .tc main_arg4) = V (Proc.devRef .tc main_arg4) := by
  after_results_simp <;> rfl

set_option maxRecDepth 8192 in
set_option maxHeartbeats 8000000 in
/-- The first stage does not write `main_arg5`. -/
theorem st1_a5 : after (P1 (F := Ideal)) V (Proc.devRef .tc main_arg5) = V (Proc.devRef .tc main_arg5) := by
  after_results_simp <;> rfl

set_option maxRecDepth 8192 in
set_option maxHeartbeats 16000000 in
/-- The second stage's result is the second layer's aggregation of its linear part, along the index vectors rebuilt
    from the endpoint vectors the first stage left. -/
theorem st2_v102 : after (P2 (F := Ideal)) V (Proc.devRef .tc main_v102)
    = layer2 (lin2 (V (Proc.devRef .tc main_v53)) (V (Proc.devRef .tc main_arg4)) (V (Proc.devRef .tc main_arg5)))
        (withLoops (V (Proc.devRef .tc main_v1))) (withLoops (V (Proc.devRef .tc main_v3))) := by
  after_results_simp <;> rfl

end Read

/-! ## The stages' terms at one element -/

section Elements
open Idealize.ShloMosaic.ScatterRows Idealize.ShloMosaic.GatherRows Idealize.ShloMosaic.GcnTerms

/-- The left operand's row coordinate in the dot1 product is the result's. -/
theorem dot1_lhs0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
/-- The left operand's column coordinate in the dot1 product is the contraction's. -/
theorem dot1_lhs1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
/-- The right operand's row coordinate in the dot1 product is the contraction's. -/
theorem dot1_rhs0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
/-- The right operand's column coordinate in the dot1 product is the result's. -/
theorem dot1_rhs1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- The dot1 matrix product on the host, at the ideal values, read at `(i, j)`: row `i` of the left operand against
    column `j` of the right. -/
theorem dot1_apply (x : CF S100000x128) (y : CF S128x64) (i : Fin 100000) (j : Fin 64) :
    (Host.dotGeneral dot_S100000x128_S128x64_S100000x64_1_0_0_1_n_n none x y : CF S100000x64) (ix2 i j) = ∑ k : Fin 128, x (ix2 i k) * y (ix2 k j) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 i j) ((contrEquiv1 dot_S100000x128_S128x64_S100000x64_1_0_0_1_n_n 128 rfl rfl).symm k) = ix2 i k :=
    funext fun a => Fin.ext (by
      match a with
      | ⟨0, _⟩ => exact dot1_lhs0 _ _
      | ⟨1, _⟩ => exact (dot1_lhs1 _ _).trans hk)
  have er : dot_S100000x128_S128x64_S100000x64_1_0_0_1_n_n.rhsIdx (ix2 i j) ((contrEquiv1 dot_S100000x128_S128x64_S100000x64_1_0_0_1_n_n 128 rfl rfl).symm k) = ix2 k j :=
    funext fun a => Fin.ext (by
      match a with
      | ⟨0, _⟩ => exact (dot1_rhs0 _ _).trans hk
      | ⟨1, _⟩ => exact dot1_rhs1 _ _)
  rw [el, er]

/-- The left operand's row coordinate in the dot2 product is the result's. -/
theorem dot2_lhs0 (i : S100000x128.Idx) (q : dot_S100000x64_S64x128_S100000x128_1_0_0_1_n_n.contr.Idx) : (dot_S100000x64_S64x128_S100000x128_1_0_0_1_n_n.lhsIdx i q 0).val = (i 0).val := by
  unfold DotDims.lhsIdx
  rw [dif_neg (show ¬(0 : Fin S100000x64.rank) ∈ dot_S100000x64_S64x128_S100000x128_1_0_0_1_n_n.lhsBatch by decide),
    dif_pos (show (0 : Fin S100000x64.rank) ∈ dot_S100000x64_S64x128_S100000x128_1_0_0_1_n_n.lhsNonContracting by decide)]
  rfl
/-- The left operand's column coordinate in the dot2 product is the contraction's. -/
theorem dot2_lhs1 (i : S100000x128.Idx) (q : dot_S100000x64_S64x128_S100000x128_1_0_0_1_n_n.contr.Idx) : (dot_S100000x64_S64x128_S100000x128_1_0_0_1_n_n.lhsIdx i q 1).val = (q ⟨0, by decide⟩).val :=
  dot_S100000x64_S64x128_S100000x128_1_0_0_1_n_n.lhsIdx_val_of_single rfl i q
/-- The right operand's row coordinate in the dot2 product is the contraction's. -/
theorem dot2_rhs0 (i : S100000x128.Idx) (q : dot_S100000x64_S64x128_S100000x128_1_0_0_1_n_n.contr.Idx) : (dot_S100000x64_S64x128_S100000x128_1_0_0_1_n_n.rhsIdx i q 0).val = (q ⟨0, by decide⟩).val :=
  dot_S100000x64_S64x128_S100000x128_1_0_0_1_n_n.rhsIdx_val_of_single rfl i q
/-- The right operand's column coordinate in the dot2 product is the result's. -/
theorem dot2_rhs1 (i : S100000x128.Idx) (q : dot_S100000x64_S64x128_S100000x128_1_0_0_1_n_n.contr.Idx) : (dot_S100000x64_S64x128_S100000x128_1_0_0_1_n_n.rhsIdx i q 1).val = (i 1).val := by
  unfold DotDims.rhsIdx
  rw [dif_neg (show ¬(1 : Fin S64x128.rank) ∈ dot_S100000x64_S64x128_S100000x128_1_0_0_1_n_n.rhsBatch by decide),
    dif_pos (show (1 : Fin S64x128.rank) ∈ dot_S100000x64_S64x128_S100000x128_1_0_0_1_n_n.rhsNonContracting by decide)]
  rfl

/-- The dot2 matrix product on the host, at the ideal values, read at `(i, j)`: row `i` of the left operand against
    column `j` of the right. -/
theorem dot2_apply (x : CF S100000x64) (y : CF S64x128) (i : Fin 100000) (j : Fin 128) :
    (Host.dotGeneral dot_S100000x64_S64x128_S100000x128_1_0_0_1_n_n none x y : CF S100000x128) (ix2 i j) = ∑ k : Fin 64, x (ix2 i k) * y (ix2 k j) := by
  simp only [Host.dotGeneral]
  rw [Ideal.dotGeneral_apply, ← Equiv.sum_comp (contrEquiv1 dot_S100000x64_S64x128_S100000x128_1_0_0_1_n_n 64 rfl rfl).symm]
  refine Finset.sum_congr rfl fun k _ => ?_
  have hk := contrEquiv1_symm_val dot_S100000x64_S64x128_S100000x128_1_0_0_1_n_n 64 rfl rfl k
  have el : dot_S100000x64_S64x128_S100000x128_1_0_0_1_n_n.lhsIdx (ix2 i j) ((contrEquiv1 dot_S100000x64_S64x128_S100000x128_1_0_0_1_n_n 64 rfl rfl).symm k) = ix2 i k :=
    funext fun a => Fin.ext (by
      match a with
      | ⟨0, _⟩ => exact dot2_lhs0 _ _
      | ⟨1, _⟩ => exact (dot2_lhs1 _ _).trans hk)
  have er : dot_S100000x64_S64x128_S100000x128_1_0_0_1_n_n.rhsIdx (ix2 i j) ((contrEquiv1 dot_S100000x64_S64x128_S100000x128_1_0_0_1_n_n 64 rfl rfl).symm k) = ix2 k j :=
    funext fun a => Fin.ext (by
      match a with
      | ⟨0, _⟩ => exact (dot2_rhs0 _ _).trans hk
      | ⟨1, _⟩ => exact dot2_rhs1 _ _)
  rw [el, er]

/-- The first layer's linear part at `(i, j)`: row `i` of the features against row `j` of the weights, plus the bias. -/
theorem lin1_apply (x : CF S100000x128) (w : CF S64x128) (b : CF S64) (i : Fin 100000) (j : Fin 64) :
    lin1 x w b (ix2 i j) = (∑ k : Fin 128, x (ix2 i k) * w (ix2 j k)) + b (ix1 j) := by
  unfold lin1
  rw [addf_apply, dot1_apply]
  refine congrArg₂ (· + ·) (Finset.sum_congr rfl fun k _ => congrArg (x (ix2 i k) * ·) ?_) ?_
  · exact transpose_apply [1, 0] w transposes_S64x128_S128x64_1_0 (ix2 k j) (ix2 j k) (fun b => match b with
      | ⟨0, _⟩ => rfl
      | ⟨1, _⟩ => rfl)
  · refine (broadcastInDim_apply _ bcast_S1x64_S100000x64_0_1 _ (ix2 i j) (ix2 0 j) (fun a => match a with
      | ⟨0, _⟩ => by show 0 = if (1 : Nat) = 1 then 0 else i.val; rw [if_pos rfl]
      | ⟨1, _⟩ => by show j.val = if (64 : Nat) = 1 then 0 else j.val; rw [if_neg (by decide)])).trans ?_
    exact broadcastInDim_apply _ bcast_S64_S1x64_1 b (ix2 0 j) (ix1 j) (fun a => match a with
      | ⟨0, _⟩ => by show j.val = if (64 : Nat) = 1 then 0 else j.val; rw [if_neg (by decide)])

/-- The second layer's linear part at `(i, j)`. -/
theorem lin2_apply (x : CF S100000x64) (w : CF S128x64) (b : CF S128) (i : Fin 100000) (j : Fin 128) :
    lin2 x w b (ix2 i j) = (∑ k : Fin 64, x (ix2 i k) * w (ix2 j k)) + b (ix1 j) := by
  unfold lin2
  rw [addf_apply, dot2_apply]
  refine congrArg₂ (· + ·) (Finset.sum_congr rfl fun k _ => congrArg (x (ix2 i k) * ·) ?_) ?_
  · exact transpose_apply [1, 0] w transposes_S128x64_S64x128_1_0 (ix2 k j) (ix2 j k) (fun b => match b with
      | ⟨0, _⟩ => rfl
      | ⟨1, _⟩ => rfl)
  · refine (broadcastInDim_apply _ bcast_S1x128_S100000x128_0_1 _ (ix2 i j) (ix2 0 j) (fun a => match a with
      | ⟨0, _⟩ => by show 0 = if (1 : Nat) = 1 then 0 else i.val; rw [if_pos rfl]
      | ⟨1, _⟩ => by show j.val = if (128 : Nat) = 1 then 0 else j.val; rw [if_neg (by decide)])).trans ?_
    exact broadcastInDim_apply _ bcast_S128_S1x128_1 b (ix2 0 j) (ix1 j) (fun a => match a with
      | ⟨0, _⟩ => by show j.val = if (128 : Nat) = 1 then 0 else j.val; rw [if_neg (by decide)])

/-- Every entry of the index vector of zeros is zero. -/
theorem zs_apply (k : S1700000.Idx) : zs k = 0#32 := by
  unfold zs; rw [broadcastInDim_scalar_apply]; rfl
/-- Every entry of the per-edge ones is one. -/
theorem ones_apply (k : S1700000.Idx) : ones k = 1 := by
  unfold ones; rw [broadcastInDim_scalar_apply, constant_apply]; exact Ideal.ofBits_one_f32
/-- Every entry of the per-node zeros is zero. -/
theorem z1_apply (k : S100000.Idx) : z1 k = 0 := by
  unfold z1; rw [broadcastInDim_scalar_apply, constant_apply]; exact Ideal.ofBits_zero_f32
/-- Every entry of a zero splat is zero. -/
theorem zsplat_apply {T : Shape} (h : S_.BroadcastsInDim T ![]) (k : T.Idx) :
    (broadcastInDim T ![] h (constant (F := Ideal) S_ .f32 0x00000000#32) : CF T) k = 0 := by
  rw [broadcastInDim_scalar_apply, constant_apply]; exact Ideal.ofBits_zero_f32

/-- The lower bound at an element. -/
theorem relu_apply (a : CF S100000x64) (i : Fin 100000) (j : Fin 64) : relu a (ix2 i j) = max (a (ix2 i j)) 0 := by
  unfold relu
  rw [maximumf_apply, zsplat_apply]

/-- Where the edges' sources land as scatter rows. -/
def trOf (ei : CI S2x1600000) : Fin 1700000 → Option (Fin 100000) :=
  tgt (N := 100000) (col bcast_S1700000_S1700000x1_0 (rvec ei))
/-- Where the edges' targets land as scatter rows. -/
def tcOf (ei : CI S2x1600000) : Fin 1700000 → Option (Fin 100000) :=
  tgt (N := 100000) (col bcast_S1700000_S1700000x1_0 (cvec ei))
/-- The rows a gather through the wrapped, clamped sources reads. -/
def srOf (ei : CI S2x1600000) : Fin 1700000 → Fin 100000 :=
  src (by decide) (wcol bcast_S1700000_S1700000x1_0 (rvec ei) zs ns)

/-- The first layer's aggregation at `(i, j)` is the specification's aggregation of the array's entries. -/
theorem layer1_apply (h : CF S100000x64) (ei : CI S2x1600000) (i : Fin 100000) (j : Fin 64) :
    layer1 h (rvec ei) (cvec ei) (ix2 i j)
      = Cert.GcnSpec.agg (tcOf ei) (trOf ei) (srOf ei) (fun i j => h (ix2 i j)) i j :=
  GcnLayer.reflayer_apply (N := 100000) (M := 1700000) (C := 64) (E := 1600000) (by decide)
    scatter_S100000_S1700000x1_S1700000_n_0_0_1_wf scatter_S100000x64_S1700000x1_S1700000x64_1_0_0_1_wf
    gather_S100000_S1700000x1_S1700000_n_0_n_n_0_1_1_wf gather_S100000x64_S1700000x1_S1700000x64_1_0_n_n_0_1_164_wf
    bcast_S1700000_S1700000x1_0 bcast_S1700000x1_S1700000x64_0_1 z1 z1_apply ones ones_apply
    (broadcastInDim S100000x64 ![] bcast_S_S100000x64 (constant S_ .f32 0x00000000#32)) (zsplat_apply bcast_S_S100000x64) h
    (erow0 ei) concatenates_S1600000_S100000_S1700000_d0 rfl (by norm_num) (cvec ei) zs ns zs_apply i j

/-- The second layer's aggregation at `(i, j)`. -/
theorem layer2_apply (h : CF S100000x128) (ei : CI S2x1600000) (i : Fin 100000) (j : Fin 128) :
    layer2 h (rvec ei) (cvec ei) (ix2 i j)
      = Cert.GcnSpec.agg (tcOf ei) (trOf ei) (srOf ei) (fun i j => h (ix2 i j)) i j :=
  GcnLayer.reflayer_apply (N := 100000) (M := 1700000) (C := 128) (E := 1600000) (by decide)
    scatter_S100000_S1700000x1_S1700000_n_0_0_1_wf scatter_S100000x128_S1700000x1_S1700000x128_1_0_0_1_wf
    gather_S100000_S1700000x1_S1700000_n_0_n_n_0_1_1_wf gather_S100000x128_S1700000x1_S1700000x128_1_0_n_n_0_1_1128_wf
    bcast_S1700000_S1700000x1_0 bcast_S1700000x1_S1700000x128_0_1 z1 z1_apply ones ones_apply
    (broadcastInDim S100000x128 ![] bcast_S_S100000x128 (constant S_ .f32 0x00000000#32)) (zsplat_apply bcast_S_S100000x128) h
    (erow0 ei) concatenates_S1600000_S100000_S1700000_d0 rfl (by norm_num) (cvec ei) zs ns zs_apply i j

/-- THE ARRAY UNDER THE LOG-SOFTMAX, as a function of the arguments. -/
def refA (x : CF S100000x128) (ei : CI S2x1600000) (w1 : CF S64x128) (b1 : CF S64) (w2 : CF S128x64) (b2 : CF S128) :
    CF S100000x128 :=
  layer2 (lin2 (relu (layer1 (lin1 x w1 b1) (rvec ei) (cvec ei))) w2 b2) (rvec ei) (cvec ei)

/-- That array, element by element, is the two-layer specification of the arguments' entries. -/
theorem refA_apply (x : CF S100000x128) (ei : CI S2x1600000) (w1 : CF S64x128) (b1 : CF S64) (w2 : CF S128x64)
    (b2 : CF S128) (i : Fin 100000) (j : Fin 128) :
    refA x ei w1 b1 w2 b2 (ix2 i j)
      = Cert.GcnSpec.out (tcOf ei) (trOf ei) (srOf ei) (fun i k => x (ix2 i k)) (fun j k => w1 (ix2 j k))
          (fun j => b1 (ix1 j)) (fun j k => w2 (ix2 j k)) (fun j => b2 (ix1 j)) i j := by
  have h1 : (fun (i : Fin 100000) (j : Fin 64) => lin1 x w1 b1 (ix2 i j))
      = Cert.GcnSpec.lin (fun i k => x (ix2 i k)) (fun j k => w1 (ix2 j k)) (fun j => b1 (ix1 j)) := by
    funext i j; exact lin1_apply x w1 b1 i j
  have h2 : (fun (i : Fin 100000) (j : Fin 128) =>
        lin2 (relu (layer1 (lin1 x w1 b1) (rvec ei) (cvec ei))) w2 b2 (ix2 i j))
      = Cert.GcnSpec.lin (fun i k => max (Cert.GcnSpec.agg (tcOf ei) (trOf ei) (srOf ei)
          (Cert.GcnSpec.lin (fun i k => x (ix2 i k)) (fun j k => w1 (ix2 j k)) (fun j => b1 (ix1 j))) i k) 0)
          (fun j k => w2 (ix2 j k)) (fun j => b2 (ix1 j)) := by
    funext i j
    rw [lin2_apply]
    simp only [relu_apply, layer1_apply, h1]
    rfl
  unfold refA
  rw [layer2_apply, h2]
  rfl

end Elements

/-! ## The whole program -/

section Compose
variable {F : FTy → Type} [FloatOps F]

set_option maxRecDepth 16384 in
/-- The program's operations are the four stages in order. -/
theorem ops_split : (ValueP.ops : List (HloOp τ sig (Elt F))) = P1 ++ Pr ++ P2 ++ P3 := rfl

end Compose

/-- The result buffer after the program's operations, from any contents, is the log-softmax of the array under it,
    that array a function of the six argument buffers' contents. -/
theorem ref_after (V : Valuation τ sig (Elt Ideal)) :
    after (ValueP.ops (F := Ideal)) V (Proc.devRef .tc main_v103)
      = lsm (refA (V (Proc.devRef .tc main_arg0)) (V (Proc.devRef .tc main_arg1)) (V (Proc.devRef .tc main_arg2))
          (V (Proc.devRef .tc main_arg3)) (V (Proc.devRef .tc main_arg4)) (V (Proc.devRef .tc main_arg5))) := by
  rw [ops_split, after_append, after_append, after_append, st3_v103, st2_v102, str_v53, str_v1, str_v3, str_a4,
    str_a5, st1_v52, st1_v1, st1_v3, st1_a4, st1_a5]
  rfl

/-- THE REFERENCE'S VALUE: from the launch contents `m` on device `c`, the result buffer after the program's
    operations is the log-softmax of an array that is, element by element, the two-layer specification of the
    arguments' entries, along the index vectors read off the edge argument. -/
theorem ref_value (m : (ℓ : Loc nD τ sig) → Buf (Elt Ideal) ℓ) (c : Dev nD) :
    ∃ A : S100000x128.Idx → EReal,
      after (ValueP.ops (F := Ideal)) (launchContents m c) (Proc.devRef .tc main_v103) = lsm A
      ∧ ∀ (i : Fin 100000) (j : Fin 128),
          A (ix2 i j) = Cert.GcnSpec.out (tcOf (m ((c.tc : Thread nD τ).loc main_arg1)))
            (trOf (m ((c.tc : Thread nD τ).loc main_arg1))) (srOf (m ((c.tc : Thread nD τ).loc main_arg1)))
            (fun i k => m ((c.tc : Thread nD τ).loc main_arg0) (ix2 i k))
            (fun j k => m ((c.tc : Thread nD τ).loc main_arg2) (ix2 j k))
            (fun j => m ((c.tc : Thread nD τ).loc main_arg3) (ix1 j))
            (fun j k => m ((c.tc : Thread nD τ).loc main_arg4) (ix2 j k))
            (fun j => m ((c.tc : Thread nD τ).loc main_arg5) (ix1 j)) i j :=
  ⟨refA (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)),
    ref_after (launchContents m c),
    fun i j => refA_apply _ _ _ _ _ _ i j⟩

end Cert.ReferenceIdeal.RefVal

end
-- ==== Proof.Bridge.lean ====
/-
  The two programs' results are one array.

  The reference's result buffer ends at the row-wise log-softmax of an array that is, element by
  element, the specification's two-layer formula of its arguments; the kernel program's ends at the
  same log-softmax of `preK` of its arguments, which is the same formula.  The edge functions of the
  formula are read off the edge array by the same operations in both programs, so from memories that
  agree on the six arguments the two arrays are equal, and so are their log-softmaxes.
-/
import proofs.«116146_j27943057227873_1_alg».proof.Proof.KChain
import proofs.«116146_j27943057227873_1_alg».proof.Proof.KSpec
import proofs.«116146_j27943057227873_1_alg».proof.Proof.RefValue

noncomputable section

open Idealize.ShloMosaic Idealize.ShloMosaic.TcCoe Idealize.ShloMosaic.ValueIdx Idealize.SL.Sem

namespace Cert.Proof.Bridge

/-- The edge functions are the same in both programs: the same operations on the edge array. -/
theorem tc_eq (ei : IVec Cert.KernelIdeal.S2x1600000 32) : Cert.ReferenceIdeal.RefVal.tcOf ei = Cert.KernelIdeal.KVal.tcE ei := rfl
theorem tr_eq (ei : IVec Cert.KernelIdeal.S2x1600000 32) : Cert.ReferenceIdeal.RefVal.trOf ei = Cert.KernelIdeal.KVal.trE ei := rfl
theorem sr_eq (ei : IVec Cert.KernelIdeal.S2x1600000 32) : Cert.ReferenceIdeal.RefVal.srOf ei = Cert.KernelIdeal.KVal.srE ei := rfl

/-- The final log-softmax is spelt by the same operations in both programs. -/
theorem lsm_eq (a : FVec Ideal Cert.KernelIdeal.S100000x128 .f32) : Cert.ReferenceIdeal.RefVal.lsm a = Cert.KernelIdeal.KVal.lsm a := rfl

/-- From memories agreeing on the arguments, the reference's result is the kernel program's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after (Cert.ReferenceIdeal.ValueP.ops (F := Ideal)) (StableHlo.launchContents m' c) (Proc.devRef .tc Cert.ReferenceIdeal.main_v103)
      = Cert.KernelIdeal.KVal.lsm (Cert.KernelIdeal.KVal.preK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) := by
  obtain ⟨A, hA, hAij⟩ := Cert.ReferenceIdeal.RefVal.ref_value m' c
  rw [hA]
  have hAeq : A = Cert.KernelIdeal.KVal.preK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
    funext k
    obtain ⟨i, j, rfl⟩ : ∃ (i : Fin 100000) (j : Fin 128), k = ix2 i j := ⟨k 0, k 1, eq_ix2 k⟩
    rw [hAij i j, Cert.KernelIdeal.KVal.preK_spec, h0, h1, h2, h3, h4, h5, tc_eq, tr_eq, sr_eq]
  rw [hAeq]
  exact lsm_eq _

end Cert.Proof.Bridge

end
-- ==== Proof.lean ====
/-
  The certificate of a two-layer graph convolution: a Pallas implementation against its jnp reference.

  Per layer the reference sums, over the edges landing on a node `i`, the message
  `h[i] + (dis[src] · dis[i]) · h[src]`; the kernel program computes `indeg[i] · h[i] + dis[i] · nb[i]`
  with `nb[i]` the sum over the same edges of `h[src] · dis[src]`, the linear map and the combination in
  Pallas regions and the gather and scatter on the host.  On the extended reals the two agree: a constant
  summed over a finite set is its count times the constant, and `dis[i]`, the reciprocal square root of
  a degree that the self-loops make at least one, is a non-negative real and so moves through the sum;
  no other distributivity is used, so the finiteness of the inputs is never needed.  The three frames
  are the generated frame proofs and the reference's run; `preserves` has no entry.
-/
import proofs.«116146_j27943057227873_1_alg».proof.Defs
import proofs.«116146_j27943057227873_1_alg».proof.Proof.Gen.Kernel
import proofs.«116146_j27943057227873_1_alg».proof.Proof.Gen.Kernel.Skeleton
import proofs.«116146_j27943057227873_1_alg».proof.Proof.Gen.Kernel.Launch
import proofs.«116146_j27943057227873_1_alg».proof.Proof.Gen.Kernel.Points
import proofs.«116146_j27943057227873_1_alg».proof.Proof.Gen.Kernel.Frame
import proofs.«116146_j27943057227873_1_alg».proof.Proof.Gen.KernelIdeal
import proofs.«116146_j27943057227873_1_alg».proof.Proof.Gen.KernelIdeal.Skeleton
import proofs.«116146_j27943057227873_1_alg».proof.Proof.Gen.KernelIdeal.Launch
import proofs.«116146_j27943057227873_1_alg».proof.Proof.Gen.KernelIdeal.Points
import proofs.«116146_j27943057227873_1_alg».proof.Proof.Gen.KernelIdeal.Frame
import proofs.«116146_j27943057227873_1_alg».proof.Proof.Gen.ReferenceIdeal
import proofs.«116146_j27943057227873_1_alg».proof.Proof.KRun
import proofs.«116146_j27943057227873_1_alg».proof.Proof.Bridge
import proofs.«116146_j27943057227873_1_alg».proof.Proof.Gen.Pre_finite_inputs
import Idealize.ShloMosaic.Adequacy
import Idealize.ShloMosaic.Init

noncomputable section

namespace Cert.Proof

open Idealize.ShloMosaic Idealize.SL.Sem Cert.Kernel

/-- The reference's frame: its run with the result dropped. -/
theorem frame_ri : Cert.frame_ReferenceIdeal := fun m ρ _ =>
  (θ_run Cert.ReferenceIdeal.defs _ _).mono (fun _ h c => (h c).2) (Cert.ReferenceIdeal.ValueP.run_after (F := Ideal) m ρ)

/-- Both idealized programs end, from memories agreeing on the arguments, with the same result: the
    row-wise log-softmax of the two-layer formula of the arguments. -/
theorem algebraic : Cert.algebraic_KernelIdeal_ReferenceIdeal := fun m ρ m' ρ' _ hagree =>
  ⟨fun c => Cert.KernelIdeal.KVal.lsm (Cert.KernelIdeal.KVal.preK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    (θ_run Cert.KernelIdeal.defs _ _).mono
      (fun _ h c => ⟨(h c).1.trans (Cert.KernelIdeal.KVal.result_eq m ρ c), (h c).2⟩)
      (Cert.KernelIdeal.KVal.run_value (F := Ideal) m ρ),
    (θ_run Cert.ReferenceIdeal.defs _ _).mono
      (fun _ h c => ⟨(h c).1.trans (Bridge.results_agree m m' c (hagree c).1 (hagree c).2.1 (hagree c).2.2.1 (hagree c).2.2.2.1 (hagree c).2.2.2.2.1 (hagree c).2.2.2.2.2), (h c).2⟩)
      (Cert.ReferenceIdeal.ValueP.run_after (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
